-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S768x256 : Shape := ⟨2, ![768, 256]⟩
abbrev S256x1 : Shape := ⟨2, ![256, 1]⟩
abbrev S1 : Shape := ⟨1, ![1]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg14 : FVec F S768x256 .f32) (main_arg15 : FVec F S256 .f32) (main_arg16 : FVec F S256x1 .f32) (main_arg17 : FVec F S1 .f32) (main_v63 : IVec S_ 1) (main_v67 : IVec S_ 1) : IVec S_ 1 :=
  let main_v68 : IVec S_ 1 := andi main_v63 main_v67
  let main_v69 : FVec F S768x256 .f32 := Host.absf main_arg14
  let main_cst_26 : FVec F S_ .f32 := constant S_ .f32 0x7F800000#32
  let main_v70 : FVec F S768x256 .f32 := broadcastInDim S768x256 ![] bcast_S_S768x256 main_cst_26
  let main_v71 : IVec S768x256 1 := cmpf .olt main_v69 main_v70
  let main_c_27 : IVec S_ 1 := constantI S_ 1 1#1
  let main_v72 : IVec S_ 1 := (fun x v => Host.reduce IntOp.andi x v reducesTo_S768x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x1 .f32 := Host.absf main_arg16
  let main_cst_30 : FVec F S_ .f32 := constant S_ .f32 0x7F800000#32
  let main_v80 : FVec F S256x1 .f32 := broadcastInDim S256x1 ![] bcast_S_S256x1 main_cst_30
  let main_v81 : IVec S256x1 1 := cmpf .olt main_v79 main_v80
  let main_c_31 : IVec S_ 1 := constantI S_ 1 1#1
  let main_v82 : IVec S_ 1 := (fun x v => Host.reduce IntOp.andi x v reducesTo_S256x1_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_v83 main_v84 main_cst_32

def fn_part3 {F : FTy → Type} [FloatOps F] (main_arg11 : FVec F S256 .f32) (main_arg12 : FVec F S256 .f32) (main_arg13 : FVec F S256 .f32) (main_arg14 : FVec F S768x256 .f32) (main_arg15 : FVec F S256 .f32) (main_arg16 : FVec F S256x1 .f32) (main_arg17 : FVec F S1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_v63 main_v67

def fn_part2 {F : FTy → Type} [FloatOps F] (main_arg7 : FVec F S256 .f32) (main_arg8 : FVec F S256 .f32) (main_arg9 : FVec F S256 .f32) (main_arg10 : FVec F S256x256 .f32) (main_arg11 : FVec F S256 .f32) (main_arg12 : FVec F S256 .f32) (main_arg13 : FVec F S256 .f32) (main_arg14 : FVec F S768x256 .f32) (main_arg15 : FVec F S256 .f32) (main_arg16 : FVec F S256x1 .f32) (main_arg17 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_v48 main_v49 main_v50

def fn_part1 {F : FTy → Type} [FloatOps F] (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x256 .f32) (main_arg11 : FVec F S256 .f32) (main_arg12 : FVec F S256 .f32) (main_arg13 : FVec F S256 .f32) (main_arg14 : FVec F S768x256 .f32) (main_arg15 : FVec F S256 .f32) (main_arg16 : FVec F S256x1 .f32) (main_arg17 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S10000x256 .f32) (main_arg1 : FVec F S10000x10000 .f32) (main_arg2 : FVec F S256x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x256 .f32) (main_arg11 : FVec F S256 .f32) (main_arg12 : FVec F S256 .f32) (main_arg13 : FVec F S256 .f32) (main_arg14 : FVec F S768x256 .f32) (main_arg15 : FVec F S256 .f32) (main_arg16 : FVec F S256x1 .f32) (main_arg17 : FVec F S1 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S768x256 : Shape := ⟨2, ![768, 256]⟩
abbrev S256x1 : Shape := ⟨2, ![256, 1]⟩
abbrev S1 : Shape := ⟨1, ![1]⟩
abbrev S400x256 : Shape := ⟨2, ![400, 256]⟩
abbrev S1x256 : Shape := ⟨2, ![1, 256]⟩
abbrev S400x10000 : Shape := ⟨2, ![400, 10000]⟩
abbrev S400 : Shape := ⟨1, ![400]⟩
abbrev S400x1 : Shape := ⟨2, ![400, 1]⟩
abbrev S1000x10000 : Shape := ⟨2, ![1000, 10000]⟩
abbrev S1000x256 : Shape := ⟨2, ![1000, 256]⟩
abbrev S1000 : Shape := ⟨1, ![1000]⟩
abbrev S1000x1 : Shape := ⟨2, ![1000, 1]⟩
abbrev S1x1 : Shape := ⟨2, ![1, 1]⟩
abbrev S10000x1 : Shape := ⟨2, ![10000, 1]⟩
abbrev S10000 : Shape := ⟨1, ![10000]⟩

abbrev nBuf : Space → Nat
  | .hbm => 47
  | .vmem => 47
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S768x256, .f32⟩
  | .hbm, ⟨15, _⟩ => ⟨S256, .f32⟩
  | .hbm, ⟨16, _⟩ => ⟨S256x1, .f32⟩
  | .hbm, ⟨17, _⟩ => ⟨S1, .f32⟩
  | .hbm, ⟨18, _⟩ => ⟨S256x256, .bf16⟩
  | .hbm, ⟨19, _⟩ => ⟨S10000x256, .bf16⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S256x256, .bf16⟩
  | .hbm, ⟨24, _⟩ => ⟨S10000x10000, .bf16⟩
  | .hbm, ⟨25, _⟩ => ⟨S10000x256, .bf16⟩
  | .hbm, ⟨26, _⟩ => ⟨S10000x256, .bf16⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S256x256, .bf16⟩
  | .hbm, ⟨31, _⟩ => ⟨S10000x256, .bf16⟩
  | .hbm, ⟨32, _⟩ => ⟨S10000x256, .bf16⟩
  | .hbm, ⟨33, _⟩ => ⟨S256x256, .f32⟩
  | .hbm, ⟨34, _⟩ => ⟨S256x256, .bf16⟩
  | .hbm, ⟨35, _⟩ => ⟨S256x256, .f32⟩
  | .hbm, ⟨36, _⟩ => ⟨S256x256, .bf16⟩
  | .hbm, ⟨37, _⟩ => ⟨S256x256, .f32⟩
  | .hbm, ⟨38, _⟩ => ⟨S256x256, .bf16⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S1x1, .f32⟩
  | .hbm, ⟨45, _⟩ => ⟨S10000x1, .f32⟩
  | .hbm, ⟨46, _⟩ => ⟨S10000, .f32⟩
  | .local _ .vmem, ⟨0, _⟩ => ⟨S400x256, .f32⟩
  | .local _ .vmem, ⟨1, _⟩ => ⟨S400x256, .f32⟩
  | .local _ .vmem, ⟨2, _⟩ => ⟨S256x256, .bf16⟩
  | .local _ .vmem, ⟨3, _⟩ => ⟨S400x256, .bf16⟩
  | .local _ .vmem, ⟨4, _⟩ => ⟨S400x256, .bf16⟩
  | .local _ .vmem, ⟨5, _⟩ => ⟨S400x10000, .f32⟩
  | .local _ .vmem, ⟨6, _⟩ => ⟨S400x10000, .f32⟩
  | .local _ .vmem, ⟨7, _⟩ => ⟨S10000x256, .bf16⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S256x256, .bf16⟩
  | .local _ .vmem, ⟨12, _⟩ => ⟨S400x10000, .bf16⟩
  | .local _ .vmem, ⟨13, _⟩ => ⟨S400x10000, .bf16⟩
  | .local _ .vmem, ⟨14, _⟩ => ⟨S400x256, .bf16⟩
  | .local _ .vmem, ⟨15, _⟩ => ⟨S400x256, .bf16⟩
  | .local _ .vmem, ⟨16, _⟩ => ⟨S400x256, .bf16⟩
  | .local _ .vmem, ⟨17, _⟩ => ⟨S400x256, .bf16⟩
  | .local _ .vmem, ⟨18, _⟩ => ⟨S1000x10000, .bf16⟩
  | .local _ .vmem, ⟨19, _⟩ => ⟨S1000x10000, .bf16⟩
  | .local _ .vmem, ⟨20, _⟩ => ⟨S10000x256, .bf16⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S256x256, .bf16⟩
  | .local _ .vmem, ⟨25, _⟩ => ⟨S1000x256, .bf16⟩
  | .local _ .vmem, ⟨26, _⟩ => ⟨S1000x256, .bf16⟩
  | .local _ .vmem, ⟨27, _⟩ => ⟨S1000x256, .bf16⟩
  | .local _ .vmem, ⟨28, _⟩ => ⟨S1000x256, .bf16⟩
  | .local _ .vmem, ⟨29, _⟩ => ⟨S1000x10000, .bf16⟩
  | .local _ .vmem, ⟨30, _⟩ => ⟨S1000x10000, .bf16⟩
  | .local _ .vmem, ⟨31, _⟩ => ⟨S10000x256, .bf16⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S1000x256, .bf16⟩
  | .local _ .vmem, ⟨36, _⟩ => ⟨S1000x256, .bf16⟩
  | .local _ .vmem, ⟨37, _⟩ => ⟨S1000x256, .bf16⟩
  | .local _ .vmem, ⟨38, _⟩ => ⟨S1000x256, .bf16⟩
  | .local _ .vmem, ⟨39, _⟩ => ⟨S256x256, .bf16⟩
  | .local _ .vmem, ⟨40, _⟩ => ⟨S256x256, .bf16⟩
  | .local _ .vmem, ⟨41, _⟩ => ⟨S256x256, .bf16⟩
  | .local _ .vmem, ⟨42, _⟩ => ⟨S1x256, .f32⟩
  | .local _ .vmem, ⟨43, _⟩ => ⟨S1x256, .f32⟩
  | .local _ .vmem, ⟨44, _⟩ => ⟨S1x1, .f32⟩
  | .local _ .vmem, ⟨45, _⟩ => ⟨S1000x1, .f32⟩
  | .local _ .vmem, ⟨46, _⟩ => ⟨S1000x1, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6_0 : Ref sig .tc := ⟨.hbm, 24, rfl⟩
abbrev main_v6_1 : Ref sig .tc := ⟨.hbm, 25, rfl⟩
abbrev main_v6_2 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11_0 : Ref sig .tc := ⟨.hbm, 31, rfl⟩
abbrev main_v11_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc3_stg6_0 : Ref sig .tc := ⟨.vmem, 37, rfl⟩
abbrev cc3_stg6_1 : Ref sig .tc := ⟨.vmem, 38, rfl⟩
abbrev cc3_stg7_0 : Ref sig .tc := ⟨.vmem, 39, rfl⟩
abbrev cc3_stg8_0 : Ref sig .tc := ⟨.vmem, 40, rfl⟩
abbrev cc3_stg9_0 : Ref sig .tc := ⟨.vmem, 41, rfl⟩
abbrev cc3_stg10_0 : Ref sig .tc := ⟨.vmem, 42, rfl⟩
abbrev cc3_stg11_0 : Ref sig .tc := ⟨.vmem, 43, rfl⟩
abbrev cc3_stg12_0 : Ref sig .tc := ⟨.vmem, 44, rfl⟩
abbrev cc3_stg13_0 : Ref sig .tc := ⟨.vmem, 45, rfl⟩
abbrev cc3_stg13_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc1_sem7_0 : DmaSem sig := 14
abbrev cc1_sem7_1 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26
abbrev cc2_sem7_0 : DmaSem sig := 27
abbrev cc2_sem7_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem5_1 : DmaSem sig := 36
abbrev cc3_sem6_0 : DmaSem sig := 37
abbrev cc3_sem6_1 : DmaSem sig := 38
abbrev cc3_sem7_0 : DmaSem sig := 39
abbrev cc3_sem8_0 : DmaSem sig := 40
abbrev cc3_sem9_0 : DmaSem sig := 41
abbrev cc3_sem10_0 : DmaSem sig := 42
abbrev cc3_sem11_0 : DmaSem sig := 43
abbrev cc3_sem12_0 : DmaSem sig := 44
abbrev cc3_sem13_0 : DmaSem sig := 45
abbrev cc3_sem13_1 : DmaSem sig := 46

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x10000 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S400x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S400x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1000x256 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x256 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1000x256 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S256x256 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S256x256 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S256x256 .bf16 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x256 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x256 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x1 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S1000x1 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

class Facts₀ : Prop where
  bitsLt_bf16_f32 : FTy.bits .bf16 < FTy.bits .f32
  inb_S400x256_S400x256_0_0 : ∀ a, (![0, 0] : Fin 2 → Nat) a + S400x256.size a ≤ S400x256.size a
  h_S400x256 : 0 < S400x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S400x256_S400x256_0_0 : (Rect.unit (s := S400x256) ![0, 0] S400x256.size inb_S400x256_S400x256_0_0).PackedRows (EltTy.packing .bf16)
  shapeCasts_S256_S1x256 : S256.ShapeCasts S1x256
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  reduces_S400x256_S400 : S400x256.Reduces [1] S400
  shapeCasts_S400_S400x1 : S400.ShapeCasts S400x1
  broadcasts_S400x1_S400x256 : S400x1.Broadcasts S400x256
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  broadcasts_S1x256_S1000x256 : S1x256.Broadcasts S1000x256
  reduces_S1000x256_S1000 : S1000x256.Reduces [1] S1000
  shapeCasts_S1000_S1000x1 : S1000.ShapeCasts S1000x1
  broadcasts_S1000x1_S1000x256 : S1000x1.Broadcasts S1000x256
  inb_S1000x256_S1000x256_0_0 : ∀ a, (![0, 0] : Fin 2 → Nat) a + S1000x256.size a ≤ S1000x256.size a
  h_S1000x256 : 0 < S1000x256.numel
  packedbf16_S1000x256_S1000x256_0_0 : (Rect.unit (s := S1000x256) ![0, 0] S1000x256.size inb_S1000x256_S1000x256_0_0).PackedRows (EltTy.packing .bf16)
  slices_S768x256_S256x256_0_0 : S768x256.Slices ![0, 0] S256x256
  slices_S768x256_S256x256_256_0 : S768x256.Slices ![256, 0] S256x256
  slices_S768x256_S256x256_512_0 : S768x256.Slices ![512, 0] S256x256
  shapeCasts_S256x1_S1x256 : S256x1.ShapeCasts S1x256
  shapeCasts_S1_S1x1 : S1.ShapeCasts S1x1
  shapeCasts_S1000x256_S1000x256 : S1000x256.ShapeCasts S1000x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  shapeCasts_S10000x1_S10000 : S10000x1.ShapeCasts S10000
  dot_S400x256_S256x256_S400x256_1_0_0_1_n_n_wf : DotDims.WF S400x256 S256x256 S400x256 [1] [0] [0] [1] [] []
  dot_S400x10000_S10000x256_S400x256_1_0_0_1_n_n_wf : DotDims.WF S400x10000 S10000x256 S400x256 [1] [0] [0] [1] [] []
  dot_S1000x10000_S10000x256_S1000x256_1_0_0_1_n_n_wf : DotDims.WF S1000x10000 S10000x256 S1000x256 [1] [0] [0] [1] [] []
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x256.size a ≤ S10000x256.size a
  hwx0_0 : ∀ i : grid0.Coords, EltTy.bits .f32 = 32 ∨ (Rect.block (s := S10000x256) S400x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x256.size a ≤ S10000x256.size a
  hwx0_2 : ∀ i : grid0.Coords, EltTy.bits .bf16 = 32 ∨ (Rect.block (s := S10000x256) S400x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x10000.size a ≤ S10000x10000.size a
  hwx1_6 : ∀ i : grid1.Coords, EltTy.bits .bf16 = 32 ∨ (Rect.block (s := S10000x10000) S400x10000.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S400x256.size a ≤ S10000x256.size a
  hwx1_7 : ∀ i : grid1.Coords, EltTy.bits .bf16 = 32 ∨ (Rect.block (s := S10000x256) S400x256.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S400x256.size a ≤ S10000x256.size a
  hwx1_8 : ∀ i : grid1.Coords, EltTy.bits .bf16 = 32 ∨ (Rect.block (s := S10000x256) S400x256.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .bf16 = 32 ∨ (Rect.block (s := S10000x256) S10000x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .bf16 = 32 ∨ (Rect.block (s := S256x256) S256x256.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x256.size a ≤ S10000x256.size a
  hwx2_6 : ∀ i : grid2.Coords, EltTy.bits .bf16 = 32 ∨ (Rect.block (s := S10000x256) S1000x256.size (cc2_transform_6 i) (hinb2_6 i)).WholeWords (EltTy.packing .bf16)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1000x256.size a ≤ S10000x256.size a
  hwx2_7 : ∀ i : grid2.Coords, EltTy.bits .bf16 = 32 ∨ (Rect.block (s := S10000x256) S1000x256.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x10000.size a ≤ S10000x10000.size a
  hwx3_0 : ∀ i : grid3.Coords, EltTy.bits .bf16 = 32 ∨ (Rect.block (s := S10000x10000) S1000x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x256.size a ≤ S10000x256.size a
  hwx3_1 : ∀ i : grid3.Coords, EltTy.bits .bf16 = 32 ∨ (Rect.block (s := S10000x256) S10000x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x256.size a ≤ S10000x256.size a
  hwx3_5 : ∀ i : grid3.Coords, EltTy.bits .bf16 = 32 ∨ (Rect.block (s := S10000x256) S1000x256.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x256.size a ≤ S10000x256.size a
  hwx3_6 : ∀ i : grid3.Coords, EltTy.bits .bf16 = 32 ∨ (Rect.block (s := S10000x256) S1000x256.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x256.size a ≤ S256x256.size a
  hwx3_7 : ∀ i : grid3.Coords, EltTy.bits .bf16 = 32 ∨ (Rect.block (s := S256x256) S256x256.size (cc3_transform_7 i) (hinb3_7 i)).WholeWords (EltTy.packing .bf16)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S256x256.size a ≤ S256x256.size a
  hwx3_8 : ∀ i : grid3.Coords, EltTy.bits .bf16 = 32 ∨ (Rect.block (s := S256x256) S256x256.size (cc3_transform_8 i) (hinb3_8 i)).WholeWords (EltTy.packing .bf16)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S256x256.size a ≤ S256x256.size a
  hwx3_9 : ∀ i : grid3.Coords, EltTy.bits .bf16 = 32 ∨ (Rect.block (s := S256x256) S256x256.size (cc3_transform_9 i) (hinb3_9 i)).WholeWords (EltTy.packing .bf16)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x256.size a ≤ S1x256.size a
  hwx3_10 : ∀ i : grid3.Coords, EltTy.bits .f32 = 32 ∨ (Rect.block (s := S1x256) S1x256.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x256.size a ≤ S1x256.size a
  hwx3_11 : ∀ i : grid3.Coords, EltTy.bits .f32 = 32 ∨ (Rect.block (s := S1x256) S1x256.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x1.size a ≤ S1x1.size a
  hwx3_12 : ∀ i : grid3.Coords, EltTy.bits .f32 = 32 ∨ (Rect.block (s := S1x1) S1x1.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S1000x1.size a ≤ S10000x1.size a
  hwx3_13 : ∀ i : grid3.Coords, EltTy.bits .f32 = 32 ∨ (Rect.block (s := S10000x1) S1000x1.size (cc3_transform_13 i) (hinb3_13 i)).WholeWords (EltTy.packing .f32)

variable [Facts₀]

def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S1000x10000_S10000x256_S1000x256_1_0_0_1_n_n : DotDims S1000x10000 S10000x256 S1000x256 where
  lhsContracting := [1]
  rhsContracting := [0]
  lhsNonContracting := [0]
  rhsNonContracting := [1]
  lhsBatch := []
  rhsBatch := []
  wf := dot_S1000x10000_S10000x256_S1000x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_arg0) S400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S400x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6_0) S400x10000.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v6_1) S400x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v6_2) S400x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v6_0) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6_2) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v11_0) S1000x256.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v11_1) S1000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v6_0) S1000x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11_1) S10000x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v18) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v19) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v20) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v6_1) S1000x256.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v11_0) S1000x256.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v13) S256x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v15) S256x256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v17) S256x256.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v21) S1x256.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v22) S1x256.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v23) S1x1.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v24) S1000x1.size cc3_transform_13 reads3_13 true false 2 stage3_13 sem3_13
    hrank3 hreads3_13 hinb3_13 nbuf3_13 (Memref.isWhole_whole _) hwx3_13 hstage3_13

abbrev win3 : Fin 14 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | ⟨_ + 14, h⟩ => absurd h (Nat.not_lt.2 (Nat.le_add_left _ _))
abbrev spec3 : Fin 14 → Pipeline.WinSpec sig grid3.rank := fun w => (win3 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S768x256 : Shape := ⟨2, ![768, 256]⟩
abbrev S256x1 : Shape := ⟨2, ![256, 1]⟩
abbrev S1 : Shape := ⟨1, ![1]⟩
abbrev S1x256 : Shape := ⟨2, ![1, 256]⟩
abbrev S_ : Shape := ⟨0, ![]⟩
abbrev S10000 : Shape := ⟨1, ![10000]⟩
abbrev S10000x1 : Shape := ⟨2, ![10000, 1]⟩
abbrev S10000x768 : Shape := ⟨2, ![10000, 768]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S10000x256, .f32⟩
  | 1 => ⟨S10000x10000, .f32⟩
  | 2 => ⟨S256x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S256x256, .f32⟩
  | 11 => ⟨S256, .f32⟩
  | 12 => ⟨S256, .f32⟩
  | 13 => ⟨S256, .f32⟩
  | 14 => ⟨S768x256, .f32⟩
  | 15 => ⟨S256, .f32⟩
  | 16 => ⟨S256x1, .f32⟩
  | 17 => ⟨S1, .f32⟩
  | 18 => ⟨S10000x256, .f32⟩
  | 19 => ⟨S10000x256, .f32⟩
  | 20 => ⟨S1x256, .f32⟩
  | 21 => ⟨S10000x256, .f32⟩
  | 22 => ⟨S10000x256, .f32⟩
  | 23 => ⟨S_, .f32⟩
  | 24 => ⟨S10000, .f32⟩
  | 25 => ⟨S10000x1, .f32⟩
  | 26 => ⟨S_, .f32⟩
  | 27 => ⟨S10000x1, .f32⟩
  | 28 => ⟨S10000x1, .f32⟩
  | 29 => ⟨S10000x256, .f32⟩
  | 30 => ⟨S10000x256, .f32⟩
  | 31 => ⟨S10000x256, .f32⟩
  | 32 => ⟨S_, .f32⟩
  | 33 => ⟨S10000, .f32⟩
  | 34 => ⟨S10000x1, .f32⟩
  | 35 => ⟨S_, .f32⟩
  | 36 => ⟨S10000x1, .f32⟩
  | 37 => ⟨S10000x1, .f32⟩
  | 38 => ⟨S10000x256, .f32⟩
  | 39 => ⟨S10000x256, .f32⟩
  | 40 => ⟨S_, .f32⟩
  | 41 => ⟨S10000x1, .f32⟩
  | 42 => ⟨S10000x1, .f32⟩
  | 43 => ⟨S10000x1, .f32⟩
  | 44 => ⟨S10000x256, .f32⟩
  | 45 => ⟨S10000x256, .f32⟩
  | 46 => ⟨S1x256, .f32⟩
  | 47 => ⟨S10000x256, .f32⟩
  | 48 => ⟨S10000x256, .f32⟩
  | 49 => ⟨S1x256, .f32⟩
  | 50 => ⟨S10000x256, .f32⟩
  | 51 => ⟨S10000x256, .f32⟩
  | 52 => ⟨S_, .f32⟩
  | 53 => ⟨S10000x256, .f32⟩
  | 54 => ⟨S10000x256, .f32⟩
  | 55 => ⟨S10000x256, .f32⟩
  | 56 => ⟨S10000x256, .f32⟩
  | 57 => ⟨S1x256, .f32⟩
  | 58 => ⟨S10000x256, .f32⟩
  | 59 => ⟨S10000x256, .f32⟩
  | 60 => ⟨S_, .f32⟩
  | 61 => ⟨S10000, .f32⟩
  | 62 => ⟨S10000x1, .f32⟩
  | 63 => ⟨S_, .f32⟩
  | 64 => ⟨S10000x1, .f32⟩
  | 65 => ⟨S10000x1, .f32⟩
  | 66 => ⟨S10000x256, .f32⟩
  | 67 => ⟨S10000x256, .f32⟩
  | 68 => ⟨S10000x256, .f32⟩
  | 69 => ⟨S_, .f32⟩
  | 70 => ⟨S10000, .f32⟩
  | 71 => ⟨S10000x1, .f32⟩
  | 72 => ⟨S_, .f32⟩
  | 73 => ⟨S10000x1, .f32⟩
  | 74 => ⟨S10000x1, .f32⟩
  | 75 => ⟨S10000x256, .f32⟩
  | 76 => ⟨S10000x256, .f32⟩
  | 77 => ⟨S_, .f32⟩
  | 78 => ⟨S10000x1, .f32⟩
  | 79 => ⟨S10000x1, .f32⟩
  | 80 => ⟨S10000x1, .f32⟩
  | 81 => ⟨S10000x256, .f32⟩
  | 82 => ⟨S10000x256, .f32⟩
  | 83 => ⟨S1x256, .f32⟩
  | 84 => ⟨S10000x256, .f32⟩
  | 85 => ⟨S10000x256, .f32⟩
  | 86 => ⟨S1x256, .f32⟩
  | 87 => ⟨S10000x256, .f32⟩
  | 88 => ⟨S10000x256, .f32⟩
  | 89 => ⟨S_, .f32⟩
  | 90 => ⟨S10000x256, .f32⟩
  | 91 => ⟨S10000x256, .f32⟩
  | 92 => ⟨S10000x256, .f32⟩
  | 93 => ⟨S10000x256, .f32⟩
  | 94 => ⟨S1x256, .f32⟩
  | 95 => ⟨S10000x256, .f32⟩
  | 96 => ⟨S10000x256, .f32⟩
  | 97 => ⟨S_, .f32⟩
  | 98 => ⟨S10000, .f32⟩
  | 99 => ⟨S10000x1, .f32⟩
  | 100 => ⟨S_, .f32⟩
  | 101 => ⟨S10000x1, .f32⟩
  | 102 => ⟨S10000x1, .f32⟩
  | 103 => ⟨S10000x256, .f32⟩
  | 104 => ⟨S10000x256, .f32⟩
  | 105 => ⟨S10000x256, .f32⟩
  | 106 => ⟨S_, .f32⟩
  | 107 => ⟨S10000, .f32⟩
  | 108 => ⟨S10000x1, .f32⟩
  | 109 => ⟨S_, .f32⟩
  | 110 => ⟨S10000x1, .f32⟩
  | 111 => ⟨S10000x1, .f32⟩
  | 112 => ⟨S10000x256, .f32⟩
  | 113 => ⟨S10000x256, .f32⟩
  | 114 => ⟨S_, .f32⟩
  | 115 => ⟨S10000x1, .f32⟩
  | 116 => ⟨S10000x1, .f32⟩
  | 117 => ⟨S10000x1, .f32⟩
  | 118 => ⟨S10000x256, .f32⟩
  | 119 => ⟨S10000x256, .f32⟩
  | 120 => ⟨S1x256, .f32⟩
  | 121 => ⟨S10000x256, .f32⟩
  | 122 => ⟨S10000x256, .f32⟩
  | 123 => ⟨S1x256, .f32⟩
  | 124 => ⟨S10000x256, .f32⟩
  | 125 => ⟨S10000x256, .f32⟩
  | 126 => ⟨S_, .f32⟩
  | 127 => ⟨S10000x256, .f32⟩
  | _ => ⟨S10000x256, .f32⟩

abbrev hbmTy0_1 (i : Nat) : BufTy := match i % 128 with
  | 0 => ⟨S10000x256, .f32⟩
  | 1 => ⟨S10000x768, .f32⟩
  | 2 => ⟨S10000x256, .f32⟩
  | 3 => ⟨S1x256, .f32⟩
  | 4 => ⟨S10000x256, .f32⟩
  | 5 => ⟨S10000x256, .f32⟩
  | 6 => ⟨S_, .f32⟩
  | 7 => ⟨S10000x256, .f32⟩
  | 8 => ⟨S10000x256, .f32⟩
  | 9 => ⟨S10000x1, .f32⟩
  | 10 => ⟨S1x1, .f32⟩
  | 11 => ⟨S10000x1, .f32⟩
  | 12 => ⟨S10000x1, .f32⟩
  | 13 => ⟨S10000, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call0_cst : Ref sig .tc := ⟨.hbm, 52, rfl⟩
abbrev main_call0_v0 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call1_cst : Ref sig .tc := ⟨.hbm, 89, rfl⟩
abbrev main_call1_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_9 : Ref sig .tc := ⟨.hbm, 97, rfl⟩
abbrev main_v65 : Ref sig .tc := ⟨.hbm, 98, rfl⟩
abbrev main_v66 : Ref sig .tc := ⟨.hbm, 99, rfl⟩
abbrev main_cst_10 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_11 : Ref sig .tc := ⟨.hbm, 106, rfl⟩
abbrev main_v72 : Ref sig .tc := ⟨.hbm, 107, rfl⟩
abbrev main_v73 : Ref sig .tc := ⟨.hbm, 108, rfl⟩
abbrev main_cst_12 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_13 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_call2_cst : Ref sig .tc := ⟨.hbm, 126, rfl⟩
abbrev main_call2_v0 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_call3_cst : Ref sig .tc := ⟨.hbm, 134, rfl⟩
abbrev main_call3_v0 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  reducesTo_S10000x256_S10000_d1 : S10000x256.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  bcast_S_S10000x256 : S_.BroadcastsInDim S10000x256 (![] : Fin 0 → Fin S10000x256.rank)
  concatenates_S10000x256_S10000x256_S10000x256_S10000x768_d1 : Shape.Concatenates [S10000x256, S10000x256, S10000x256] S10000x768 1
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  shapeCasts_S10000x1_S10000 : S10000x1.ShapeCasts S10000
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []
  dot_S10000x768_S768x256_S10000x256_1_0_0_1_n_n_wf : DotDims.WF S10000x768 S768x256 S10000x256 [1] [0] [0] [1] [] []
  dot_S10000x256_S256x1_S10000x1_1_0_0_1_n_n_wf : DotDims.WF S10000x256 S256x1 S10000x1 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x768_S768x256_S10000x256_1_0_0_1_n_n : DotDims S10000x768 S768x256 S10000x256 where
  lhsContracting := [1]
  rhsContracting := [0]
  lhsNonContracting := [0]
  rhsNonContracting := [1]
  lhsBatch := []
  rhsBatch := []
  wf := dot_S10000x768_S768x256_S10000x256_1_0_0_1_n_n_wf
def dot_S10000x256_S256x1_S10000x1_1_0_0_1_n_n : DotDims S10000x256 S256x1 S10000x1 where
  lhsContracting := [1]
  rhsContracting := [0]
  lhsNonContracting := [0]
  rhsNonContracting := [1]
  lhsBatch := []
  rhsBatch := []
  wf := dot_S10000x256_S256x1_S10000x1_1_0_0_1_n_n_wf

class Facts : Prop extends Facts₀ where

variable [Facts]
-- ==== Proof.Spec.lean ====
/-
  The mathematics of the certificate, with no program in sight: a three-layer graph convolution with a row
  normalisation and a rectifier after each layer, followed by a two-layer head, written twice over the extended reals:
  once as the kernel spells it (the normalised row is the centred row TIMES the reciprocal square root of the variance
  plus eps; the head's first product is three products with the three row blocks of its weight, added) and once as the
  reference spells it (the centred row DIVIDED BY the square root; one product with the concatenated activations),
  and the proof that the two are one function.  The variance is a sum of squares divided by 256, so it is never below
  zero, and with eps above zero the radicand is above zero: there  c * rsqrt z = c / sqrt z  holds on every extended real
  c (at z = top both sides are 0).  A sum over 768 terms is the sum of its three stretches of 256.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A matrix of extended reals, indexed as the arrays of shape [n, m] are. -/
abbrev Mat (n m : Nat) := (⟨2, ![n, m]⟩ : Shape).Idx → EReal
/-- A vector of extended reals, indexed as the arrays of shape [n] are. -/
abbrev Row (n : Nat) := (⟨1, ![n]⟩ : Shape).Idx → EReal

/-- The row length 256.0, as both programs write it. -/
def c256 : EReal := Ideal.ofBits .f32 0x43800000#32
/-- The eps both programs add to the variance (the binary32 nearest 1e-5). -/
def eps : EReal := Ideal.ofBits .f32 0x3727C5AC#32

theorem c256_eq : c256 = ((256 : ℝ) : EReal) := by
  unfold c256; simp [Ideal.ofBits, Ideal.ieee, -EReal.coe_mul]; norm_num

theorem eps_pos : 0 < eps := by
  unfold eps; simp [Ideal.ofBits, Ideal.ieee, -EReal.coe_mul]

/-- The matrix product: entry (r, q) is the sum over l of A (r, l) * B (l, q). -/
def mm {n k m : Nat} (A : Mat n k) (B : Mat k m) : Mat n m :=
  fun i => ∑ l : Fin k, A (ix2 (i 0) l) * B (ix2 l (i 1))

/-- The graph convolution before its normalisation: A * S plus the bias along each row. -/
def gc {n k : Nat} (A : Mat n k) (S : Mat k 256) (b : Fin 256 → EReal) : Mat n 256 :=
  fun i => mm A S i + b (i 1)

/-- The mean of a row of 256 entries: their sum divided by 256.0. -/
def mean (h : Fin 256 → EReal) : EReal := Ideal.div (∑ k, h k) c256
/-- The variance of a row: the mean of the squares of the centred entries. -/
def var (h : Fin 256 → EReal) : EReal := Ideal.div (∑ k, (h k - mean h) * (h k - mean h)) c256

/-- A normalised, scaled, shifted and rectified row entry, the kernel's way. -/
def lnK (h g β : Fin 256 → EReal) (j : Fin 256) : EReal :=
  max ((h j - mean h) * Ideal.rsqrt (var h + eps) * g j + β j) 0
/-- The same entry the reference's way. -/
def lnR (h g β : Fin 256 → EReal) (j : Fin 256) : EReal :=
  max (Ideal.div (h j - mean h) (Ideal.sqrt (var h + eps)) * g j + β j) 0

/-- One layer, the kernel's way: row r of A * S + b, normalised and rectified. -/
def layerK {n k : Nat} (A : Mat n k) (S : Mat k 256) (b g β : Fin 256 → EReal) : Mat n 256 :=
  fun i => lnK (fun j => gc A S b (ix2 (i 0) j)) g β (i 1)
/-- One layer, the reference's way. -/
def layerR {n k : Nat} (A : Mat n k) (S : Mat k 256) (b g β : Fin 256 → EReal) : Mat n 256 :=
  fun i => lnR (fun j => gc A S b (ix2 (i 0) j)) g β (i 1)

/-- Rows off … off + 255 of a [768, 256] matrix. -/
def sl (off : Nat) (hoff : off + 256 ≤ 768) (W : Mat 768 256) : Mat 256 256 :=
  fun i => W (ix2 ⟨off + (i 0).val, by have h : (i 0).val < 256 := (i 0).isLt; omega⟩ (i 1))

/-- The three activations side by side: column k of the [n, 768] matrix is column k, k - 256 or k - 512 of the
    first, second or third. -/
def cat {n : Nat} (x1 x2 x3 : Mat n 256) : Mat n 768 := fun i =>
  if h : (i 1).val < 256 then x1 (ix2 (i 0) ⟨(i 1).val, h⟩)
  else if h2 : (i 1).val < 512 then x2 (ix2 (i 0) ⟨(i 1).val - 256, by omega⟩)
  else x3 (ix2 (i 0) ⟨(i 1).val - 512, by have h3 : (i 1).val < 768 := (i 1).isLt; omega⟩)

/-- The head at row r, the kernel's way: three products added, the bias, the rectifier, the product with the last
    weight column as a weighted row sum, the last bias. -/
def headK {n : Nat} (x1 x2 x3 : Mat n 256) (Wa Wb Wc : Mat 256 256) (fb w2 : Fin 256 → EReal) (b2 : EReal) (r : Fin n) : EReal :=
  (∑ j : Fin 256, max (mm x1 Wa (ix2 r j) + mm x2 Wb (ix2 r j) + mm x3 Wc (ix2 r j) + fb j) 0 * w2 j) + b2
/-- The head at row r, the reference's way: one product with the concatenated activations. -/
def headR {n : Nat} (x1 x2 x3 : Mat n 256) (W : Mat 768 256) (fb w2 : Fin 256 → EReal) (b2 : EReal) (r : Fin n) : EReal :=
  (∑ j : Fin 256, max (mm (cat x1 x2 x3) W (ix2 r j) + fb j) 0 * w2 j) + b2

/-- The whole network, the kernel's way. -/
def outK (X : Mat 10000 256) (A : Mat 10000 10000) (W1 : Mat 256 256) (b1 g1 β1 : Row 256) (W2 : Mat 256 256) (b2 g2 β2 : Row 256)
    (W3 : Mat 256 256) (b3 g3 β3 : Row 256) (fcW1 : Mat 768 256) (fcb1 : Row 256) (fcW2 : Mat 256 1) (fcb2 : Row 1) : Row 10000 :=
  let x1 := layerK A (mm X W1) (fun j => b1 (ix1 j)) (fun j => g1 (ix1 j)) (fun j => β1 (ix1 j))
  let x2 := layerK A (mm x1 W2) (fun j => b2 (ix1 j)) (fun j => g2 (ix1 j)) (fun j => β2 (ix1 j))
  let x3 := layerK A (mm x2 W3) (fun j => b3 (ix1 j)) (fun j => g3 (ix1 j)) (fun j => β3 (ix1 j))
  fun i => headK x1 x2 x3 (sl 0 (by omega) fcW1) (sl 256 (by omega) fcW1) (sl 512 (by omega) fcW1)
    (fun j => fcb1 (ix1 j)) (fun j => fcW2 (ix2 j 0)) (fcb2 (ix1 0)) (i 0)

/-- The whole network, the reference's way. -/
def outR (X : Mat 10000 256) (A : Mat 10000 10000) (W1 : Mat 256 256) (b1 g1 β1 : Row 256) (W2 : Mat 256 256) (b2 g2 β2 : Row 256)
    (W3 : Mat 256 256) (b3 g3 β3 : Row 256) (fcW1 : Mat 768 256) (fcb1 : Row 256) (fcW2 : Mat 256 1) (fcb2 : Row 1) : Row 10000 :=
  let x1 := layerR A (mm X W1) (fun j => b1 (ix1 j)) (fun j => g1 (ix1 j)) (fun j => β1 (ix1 j))
  let x2 := layerR A (mm x1 W2) (fun j => b2 (ix1 j)) (fun j => g2 (ix1 j)) (fun j => β2 (ix1 j))
  let x3 := layerR A (mm x2 W3) (fun j => b3 (ix1 j)) (fun j => g3 (ix1 j)) (fun j => β3 (ix1 j))
  fun i => headR x1 x2 x3 fcW1 (fun j => fcb1 (ix1 j)) (fun j => fcW2 (ix2 j 0)) (fcb2 (ix1 0)) (i 0)

end Cert.Spec

end
-- ==== Proof.SpecLaws.lean ====
/-
  The laws that make the kernel's spelling of the network and the reference's one function on the extended reals.
  (1) A square is never below zero, so a variance (a sum of squares times the real 1/256) is never below zero, and the
  radicand, the variance plus a positive eps, is above zero.  (2) Above zero, multiplying by the reciprocal square root is
  dividing by the square root: at a positive real both are the product with a real reciprocal, at the upper infinity both
  are zero; no finiteness of the row is needed.  (3) A sum over 768 indices is the sum of its three stretches of 256, so a
  product with three matrices laid side by side is the sum of the three products with the weight's row blocks.
-/
import proofs.«100710_g19155554140324_cont_8to1_1621_9_alg».proof.Proof.Spec

noncomputable section

namespace Cert.Spec

open Idealize.ShloMosaic Idealize.ShloMosaic.ValueIdx

/-- A square is never below zero on the extended reals (the square of either infinity is the upper one). -/
theorem mul_self_nonneg_ereal (c : EReal) : 0 ≤ c * c := by
  induction c using EReal.rec with
  | bot => simp
  | coe r => exact_mod_cast mul_self_nonneg r
  | top => simp

/-- Dividing by 256.0 is multiplying by the real 1/256, on every extended real. -/
theorem div_c256 (x : EReal) : Ideal.div x c256 = x * ((1 / 256 : ℝ) : EReal) := by
  rw [c256_eq]; exact Ideal.div_coe (by norm_num) x

theorem var_nonneg (h : Fin 256 → EReal) : 0 ≤ var h := by
  unfold var; rw [div_c256]
  exact mul_nonneg (Finset.sum_nonneg fun k _ => mul_self_nonneg_ereal _) (by exact_mod_cast (by norm_num : (0 : ℝ) ≤ 1 / 256))

/-- The radicand is above zero: it is at least eps. -/
theorem radicand_pos (h : Fin 256 → EReal) : 0 < var h + eps :=
  lt_of_lt_of_le eps_pos (le_add_of_nonneg_left (var_nonneg h))

/-- Above zero, multiplying by the reciprocal square root is dividing by the square root: at a positive real both are
    the product with the real (sqrt r)⁻¹; at the upper infinity both are zero. -/
theorem mul_rsqrt_eq_div_sqrt (c z : EReal) (hz : 0 < z) : c * Ideal.rsqrt z = Ideal.div c (Ideal.sqrt z) := by
  induction z using EReal.rec with
  | bot => exact absurd hz (not_lt.mpr bot_le)
  | top => rw [Ideal.rsqrt_top, Ideal.sqrt_top, mul_zero, Ideal.div, if_neg EReal.top_ne_zero, EReal.inv_top, mul_zero]
  | coe r =>
    have hr : 0 < r := by exact_mod_cast hz
    have hs : Real.sqrt r ≠ 0 := (Real.sqrt_pos.mpr hr).ne'
    rw [Ideal.rsqrt_coe, Ideal.sqrt_coe, if_neg (not_lt.mpr hr.le), if_neg hr.ne', if_neg (not_lt.mpr hr.le), Ideal.div_coe hs, one_div]

theorem lnK_eq_lnR : lnK = lnR := by
  funext h g β j
  unfold lnK lnR
  rw [mul_rsqrt_eq_div_sqrt _ _ (radicand_pos h)]

theorem layerK_eq_layerR {n k : Nat} : @layerK n k = @layerR n k := by
  funext A S b g β i
  unfold layerK layerR
  rw [lnK_eq_lnR]

/-- A sum over 768 indices is the sum of its three stretches of 256. -/
theorem sum_768 (f : Fin 768 → EReal) :
    ∑ k, f k = (∑ k : Fin 256, f ⟨k.val, by omega⟩) + (∑ k : Fin 256, f ⟨256 + k.val, by omega⟩)
      + ∑ k : Fin 256, f ⟨512 + k.val, by omega⟩ := by
  have e1 := Fin.sum_univ_add (a := 256) (b := 512) (f : Fin (256 + 512) → EReal)
  have e2 := Fin.sum_univ_add (a := 256) (b := 256) (fun i : Fin (256 + 256) => (f : Fin (256 + 512) → EReal) (Fin.natAdd 256 i))
  refine e1.trans ?_
  rw [e2, ← add_assoc]
  refine congrArg₂ (· + ·) (congrArg₂ (· + ·) (Finset.sum_congr rfl fun k _ => ?_) (Finset.sum_congr rfl fun k _ => ?_))
    (Finset.sum_congr rfl fun k _ => ?_)
  · exact congrArg f (Fin.ext rfl)
  · exact congrArg f (Fin.ext rfl)
  · exact congrArg f (Fin.ext (by show 256 + (256 + k.val) = 512 + k.val; omega))

theorem cat_lo {n : Nat} (x1 x2 x3 : Mat n 256) (r : Fin n) (k : Fin 256) (hk : k.val < 768) :
    cat x1 x2 x3 (ix2 r ⟨k.val, hk⟩) = x1 (ix2 r k) := by
  show (if h : k.val < 256 then x1 (ix2 r ⟨k.val, h⟩) else _) = _
  rw [dif_pos k.isLt]

theorem cat_mid {n : Nat} (x1 x2 x3 : Mat n 256) (r : Fin n) (k : Fin 256) (hk : 256 + k.val < 768) :
    cat x1 x2 x3 (ix2 r ⟨256 + k.val, hk⟩) = x2 (ix2 r k) := by
  show (if h : 256 + k.val < 256 then _ else if h2 : 256 + k.val < 512 then x2 (ix2 r ⟨256 + k.val - 256, _⟩) else _) = _
  rw [dif_neg (by omega), dif_pos (by omega)]
  exact congrArg (fun a => x2 (ix2 r a)) (Fin.ext (by show 256 + k.val - 256 = k.val; omega))

theorem cat_hi {n : Nat} (x1 x2 x3 : Mat n 256) (r : Fin n) (k : Fin 256) (hk : 512 + k.val < 768) :
    cat x1 x2 x3 (ix2 r ⟨512 + k.val, hk⟩) = x3 (ix2 r k) := by
  show (if h : 512 + k.val < 256 then _ else if h2 : 512 + k.val < 512 then _ else x3 (ix2 r ⟨512 + k.val - 512, _⟩)) = _
  rw [dif_neg (by omega), dif_neg (by omega)]
  exact congrArg (fun a => x3 (ix2 r a)) (Fin.ext (by show 512 + k.val - 512 = k.val; omega))

theorem sl_apply (off : Nat) (hoff : off + 256 ≤ 768) (W : Mat 768 256) (k j : Fin 256) (hk : off + k.val < 768) :
    sl off hoff W (ix2 k j) = W (ix2 ⟨off + k.val, hk⟩ j) := rfl

theorem sl_zero_apply (hoff : 0 + 256 ≤ 768) (W : Mat 768 256) (k j : Fin 256) (hk : k.val < 768) :
    sl 0 hoff W (ix2 k j) = W (ix2 ⟨k.val, hk⟩ j) :=
  congrArg (fun a => W (ix2 a j)) (Fin.ext (Nat.zero_add _))

/-- The product with the concatenated activations is the sum of the three products with the weight's row blocks. -/
theorem mm_cat {n : Nat} (x1 x2 x3 : Mat n 256) (W : Mat 768 256) (r : Fin n) (j : Fin 256) :
    mm (cat x1 x2 x3) W (ix2 r j)
      = mm x1 (sl 0 (by omega) W) (ix2 r j) + mm x2 (sl 256 (by omega) W) (ix2 r j) + mm x3 (sl 512 (by omega) W) (ix2 r j) := by
  have h0 : mm (cat x1 x2 x3) W (ix2 r j) = ∑ l : Fin 768, cat x1 x2 x3 (ix2 r l) * W (ix2 l j) := rfl
  refine h0.trans ((sum_768 _).trans ?_)
  refine congrArg₂ (· + ·) (congrArg₂ (· + ·) (Finset.sum_congr rfl fun k _ => ?_) (Finset.sum_congr rfl fun k _ => ?_))
    (Finset.sum_congr rfl fun k _ => ?_)
  · exact congrArg₂ (· * ·) (cat_lo x1 x2 x3 r k _) (sl_zero_apply _ W k j _).symm
  · exact congrArg₂ (· * ·) (cat_mid x1 x2 x3 r k _) (sl_apply 256 _ W k j _).symm
  · exact congrArg₂ (· * ·) (cat_hi x1 x2 x3 r k _) (sl_apply 512 _ W k j _).symm

theorem headR_eq_headK {n : Nat} (x1 x2 x3 : Mat n 256) (W : Mat 768 256) (fb w2 : Fin 256 → EReal) (b2 : EReal) (r : Fin n) :
    headR x1 x2 x3 W fb w2 b2 r = headK x1 x2 x3 (sl 0 (by omega) W) (sl 256 (by omega) W) (sl 512 (by omega) W) fb w2 b2 r := by
  unfold headR headK
  refine congrArg (· + b2) (Finset.sum_congr rfl fun j _ => ?_)
  rw [mm_cat]

/-- The kernel's network and the reference's are one function of the eighteen arguments. -/
theorem outK_eq_outR : @outK = @outR := by
  funext X A W1 b1 g1 β1 W2 b2 g2 β2 W3 b3 g3 β3 fcW1 fcb1 fcW2 fcb2
  unfold outK outR
  simp only [layerK_eq_layerR]
  funext i
  exact (headR_eq_headK _ _ _ _ _ _ _ _).symm

end Cert.Spec

end
-- ==== Proof.KernelRun.lean ====
/-
  The idealized kernel's run with its RESULT named.  Every weakly fair execution of the four-region program from a
  memory with zero counters terminates without a fault; the buffer contents at each boundary between a stretch of host
  operations and a region are a fold from the launch memory (the host operations' results, then each region's arrays at
  what its write-backs leave), and the last thread state holds every unscoped buffer at the end of that fold.  Read
  against a final state this gives, beside the argument arrays as launched, the result buffer at the fold's last value.
-/
import proofs.«100710_g19155554140324_cont_8to1_1621_9_alg».proof.Proof.Gen.KernelIdeal.Frame

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last value of the fold through the program
    and every argument array as launched. -/
theorem run_named : θ_run defs (onTc (τ := τ) (main (F := F))) ⟨m, fun _ => 0, ρ⟩ (fun r => ∀ c : Dev nD,
      r.2.mem ((c.tc : Thread nD τ).loc main_v25) = W9 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v25 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c)⟩)

end Cert.KRun

end
-- ==== Proof.Region0.lean ====
/-
  The first region of the kernel: a grid of 25 points, point t taking rows 400 t … 400 t + 399 of a [10000,256] array and
  the whole of a [256,256] weight, and writing their product as rows 400 t … 400 t + 399 of the output array.  Shown here:
  when the region ends, the output array holds the matrix product of the two input arrays as the region found them.
  The product at an entry is a sum over the 256 contraction coordinates; the changes of float format around it are the
  identity on the extended reals; a block's entry (p, q) is the array's entry (400 t + p, q); every row r of the output
  lies in the block of point r / 400.
-/
import proofs.«100710_g19155554140324_cont_8to1_1621_9_alg».proof.Proof.Gen.KernelIdeal.Frame
import proofs.«100710_g19155554140324_cont_8to1_1621_9_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KRegion

open Cert.KernelIdeal Cert.KernelIdeal.Gen Cert.Spec Idealize.ShloMosaic Idealize.ShloMosaic.ValueIdx
open Idealize.ShloMosaic.TcCoe Idealize.SL.Sem
open Idealize.ShloMosaic.Pipeline (Dat)

/-! ## The product of a [400,256] block with a [256,256] matrix, entry by entry -/

theorem lhs_small_0 (i : S400x256.Idx) (c : dot_S400x256_S256x256_S400x256_1_0_0_1_n_n.contr.Idx) : (dot_S400x256_S256x256_S400x256_1_0_0_1_n_n.lhsIdx i c 0).val = (i 0).val := by
  unfold DotDims.lhsIdx
  rw [dif_neg (show ¬(0 : Fin S400x256.rank) ∈ dot_S400x256_S256x256_S400x256_1_0_0_1_n_n.lhsBatch by decide), dif_pos (show (0 : Fin S400x256.rank) ∈ dot_S400x256_S256x256_S400x256_1_0_0_1_n_n.lhsNonContracting by decide)]
  rfl
theorem lhs_small_1 (i : S400x256.Idx) (c : dot_S400x256_S256x256_S400x256_1_0_0_1_n_n.contr.Idx) : (dot_S400x256_S256x256_S400x256_1_0_0_1_n_n.lhsIdx i c 1).val = (c ⟨0, by decide⟩).val :=
  dot_S400x256_S256x256_S400x256_1_0_0_1_n_n.lhsIdx_val_of_single rfl i c
theorem rhs_small_0 (i : S400x256.Idx) (c : dot_S400x256_S256x256_S400x256_1_0_0_1_n_n.contr.Idx) : (dot_S400x256_S256x256_S400x256_1_0_0_1_n_n.rhsIdx i c 0).val = (c ⟨0, by decide⟩).val :=
  dot_S400x256_S256x256_S400x256_1_0_0_1_n_n.rhsIdx_val_of_single rfl i c
theorem rhs_small_1 (i : S400x256.Idx) (c : dot_S400x256_S256x256_S400x256_1_0_0_1_n_n.contr.Idx) : (dot_S400x256_S256x256_S400x256_1_0_0_1_n_n.rhsIdx i c 1).val = (i 1).val := by
  unfold DotDims.rhsIdx
  rw [dif_neg (show ¬(1 : Fin S256x256.rank) ∈ dot_S400x256_S256x256_S400x256_1_0_0_1_n_n.rhsBatch by decide), dif_pos (show (1 : Fin S256x256.rank) ∈ dot_S400x256_S256x256_S400x256_1_0_0_1_n_n.rhsNonContracting by decide)]
  rfl

/-- A [400,256] x [256,256] product into a zero accumulator, entry by entry: entry (p, q) is the sum over k of
    left (p, k) times right (k, q). -/
theorem matmul_small_apply {φ₁ φ₂ : FTy} (l : FVec Ideal S400x256 φ₁) (r : FVec Ideal S256x256 φ₂) (p : Fin 400) (q : Fin 256) :
    matmul dot_S400x256_S256x256_S400x256_1_0_0_1_n_n none l r (constant S400x256 .f32 0x00000000#32) (ix2 p q)
      = ∑ k : Fin 256, l (ix2 p k) * r (ix2 k q) := by
  simp only [matmul]
  rw [Ideal.matmul_constant_zero_apply, ← Equiv.sum_comp (contrEquiv1 dot_S400x256_S256x256_S400x256_1_0_0_1_n_n 256 rfl rfl).symm]
  refine Finset.sum_congr rfl fun k _ => ?_
  have hk := contrEquiv1_symm_val dot_S400x256_S256x256_S400x256_1_0_0_1_n_n 256 rfl rfl k
  have el : dot_S400x256_S256x256_S400x256_1_0_0_1_n_n.lhsIdx (ix2 p q) ((contrEquiv1 dot_S400x256_S256x256_S400x256_1_0_0_1_n_n 256 rfl rfl).symm k) = ix2 p k := funext fun a => Fin.ext (by
    match a with
    | ⟨0, _⟩ => exact lhs_small_0 _ _
    | ⟨1, _⟩ => exact (lhs_small_1 _ _).trans hk)
  have er : dot_S400x256_S256x256_S400x256_1_0_0_1_n_n.rhsIdx (ix2 p q) ((contrEquiv1 dot_S400x256_S256x256_S400x256_1_0_0_1_n_n 256 rfl rfl).symm k) = ix2 k q := funext fun a => Fin.ext (by
    match a with
    | ⟨0, _⟩ => exact (rhs_small_0 _ _).trans hk
    | ⟨1, _⟩ => exact rhs_small_1 _ _)
  rw [el, er]

/-- What the first region stores at a grid point: the product of the loaded block of rows with the loaded weight
    (the two changes of float format are the identity on the extended reals). -/
theorem pay0 (x0 : Vec Ideal S400x256 .f32) (x1 : Vec Ideal S256x256 .bf16) (p : Fin 400) (q : Fin 256) :
    k0_pay1 x0 x1 (ix2 p q) = ∑ k : Fin 256, x0 (ix2 p k) * x1 (ix2 k q) := by
  unfold k0_pay1
  refine (matmul_small_apply _ _ p q).trans ?_
  rw [shapeCast_self]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: point t takes row block t of the input and of the output, and the whole weight. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt0 (t : Fin cfg0.N) : t.val < 25 := lt_of_lt_of_eq t.isLt N_0

/-- Row p of block t is row 400 t + p of the array. -/
def row0 (t : Fin cfg0.N) (p : Fin 400) : Fin 10000 := ⟨400 * t.val + p.val, by have := lt0 t; have := p.isLt; omega⟩

/-- The input block at point t, entry (p, k), is the input array at (400 t + p, k). -/
theorem iblk0_0_apply (c : Dev nD) (t : Fin cfg0.N) (p : Fin 400) (k : Fin 256) :
    (iblk0 V c 0 t : Vec Ideal S400x256 .f32) (ix2 p k) = (V c (Pipeline.arrRef spec0 0) : S10000x256.Idx → EReal) (ix2 (row0 t p) k) := by
  obtain ⟨e0, e1, -, -, -, -⟩ := idx0 t
  unfold iblk0
  rw [View.read_apply]
  show V c (Pipeline.arrRef spec0 0) _ = V c (Pipeline.arrRef spec0 0) _
  refine congrArg (V c (Pipeline.arrRef spec0 0)) ?_
  funext a
  apply Fin.ext
  match a with
  | ⟨0, _⟩ => show win0_0.index t (0 : Fin 2) * 400 + 1 * p.val = 400 * t.val + p.val; rw [e0]; omega
  | ⟨1, _⟩ => show win0_0.index t (1 : Fin 2) * 256 + 1 * k.val = k.val; rw [e1]; omega

/-- The weight block at any point is the whole weight. -/
theorem iblk0_1_apply (c : Dev nD) (t : Fin cfg0.N) (k : Fin 256) (q : Fin 256) :
    (iblk0 V c 1 t : Vec Ideal S256x256 .bf16) (ix2 k q) = (V c (Pipeline.arrRef spec0 1) : S256x256.Idx → EReal) (ix2 k q) := by
  obtain ⟨-, -, e0, e1, -, -⟩ := idx0 t
  unfold iblk0
  rw [View.read_apply]
  show V c (Pipeline.arrRef spec0 1) _ = V c (Pipeline.arrRef spec0 1) _
  refine congrArg (V c (Pipeline.arrRef spec0 1)) ?_
  funext a
  apply Fin.ext
  match a with
  | ⟨0, _⟩ => show win0_1.index t (0 : Fin 2) * 256 + 1 * k.val = k.val; rw [e0]; omega
  | ⟨1, _⟩ => show win0_1.index t (1 : Fin 2) * 256 + 1 * q.val = q.val; rw [e1]; omega

/-- Entry (p, q) of the output's block t sits at (400 t + p, q) of the output array. -/
theorem emb0_2 (t : Fin cfg0.N) (p : Fin 400) (q : Fin 256) :
    ((cfg0.win 2).blk t).view.emb (ix2 p q) = (ix2 (row0 t p) q : S10000x256.Idx) := by
  obtain ⟨-, -, -, -, e0, e1⟩ := idx0 t
  funext a
  apply Fin.ext
  match a with
  | ⟨0, _⟩ => show win0_2.index t (0 : Fin 2) * 400 + 1 * p.val = 400 * t.val + p.val; rw [e0]; omega
  | ⟨1, _⟩ => show win0_2.index t (1 : Fin 2) * 256 + 1 * q.val = q.val; rw [e1]; omega

/-- What point t writes back is block t of the product of the two input arrays. -/
theorem flushed0_2_eq (c : Dev nD) (t : Fin cfg0.N) :
    (dat0 V c).flushed 2 t = ((cfg0.win 2).blk t).view.read (Elt Ideal)
      (Spec.mm (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S400x256) hz, View.ld_unit_zero (S := S256x256) hz]
  funext j
  obtain ⟨p, q, rfl⟩ : ∃ (p : Fin 400) (q : Fin 256), j = ix2 p q := ⟨j 0, j 1, eq_ix2 j⟩
  rw [View.read_apply, emb0_2]
  refine (pay0 (iblk0 V c 0 t) (iblk0 V c 1 t) p q).trans ?_
  unfold Spec.mm
  refine Finset.sum_congr rfl fun k _ => ?_
  rw [iblk0_0_apply, iblk0_1_apply]

/-- Row r of the output array lies in the block of point r / 400. -/
theorem cover0_2' (i : S10000x256.Idx) : ∃ t : Fin cfg0.N, (cfg0.win 2).flush t = true ∧ i ∈ ((cfg0.win 2).blk t).view.set := by
  have h0 : (i 0).val < 10000 := (i 0).isLt
  have h1 : (i 1).val < 256 := (i 1).isLt
  let t : Fin cfg0.N := ⟨(i 0).val / 400, by rw [show cfg0.N = 25 from N_0]; omega⟩
  obtain ⟨-, -, -, -, e0, e1⟩ := idx0 t
  refine ⟨t, flush0_2 t, ?_⟩
  show i ∈ ((View.whole main_v1).slice (win0_2.rect t)).set
  rw [View.set_slice_whole, Rect.mem_set_unit]
  intro a
  match a with
  | ⟨0, _⟩ =>
    show win0_2.index t (0 : Fin 2) * 400 ≤ (i 0).val ∧ (i 0).val < win0_2.index t (0 : Fin 2) * 400 + 400
    rw [e0]; show (i 0).val / 400 * 400 ≤ (i 0).val ∧ (i 0).val < (i 0).val / 400 * 400 + 400; omega
  | ⟨1, _⟩ =>
    show win0_2.index t (1 : Fin 2) * 256 ≤ (i 1).val ∧ (i 1).val < win0_2.index t (1 : Fin 2) * 256 + 256
    rw [e1]; omega

/-- REGION 0: when it ends, its output array holds the product of its two input arrays as it found them. -/
theorem final0_2 (c : Dev nD) : (dat0 V c).arrAt 2 cfg0.N = Spec.mm (V c (Pipeline.arrRef spec0 0)) (V c (Pipeline.arrRef spec0 1)) :=
  (dat0 V c).arrAt_eq_of_cover 2 _ (fun t _ => flushed0_2_eq V c t) (cover0_2' )

end Cert.KRegion

end
-- ==== Proof.Region1.lean ====
/-
  The second region of the kernel: a grid of 25 points, point t taking rows 400 t … 400 t + 399 of the [10000,10000]
  adjacency and the whole of the [10000,256] support, of the bias, scale and shift rows and of the next [256,256] weight.
  It writes three arrays: the adjacency again (in another float format: the same extended reals); the layer, whose row r
  is row r of adjacency times support plus the bias, centred by its mean, multiplied by the reciprocal square root of its
  variance plus eps, scaled, shifted and rectified; and that layer times the next weight.
  Shown here: when the region ends, the three output arrays hold these three functions of the input arrays as the region
  found them.  A row's mean and variance are sums over its 256 entries divided by 256.0, kept as a column and spread back
  over the row; a block's entry (p, q) is the array's entry (400 t + p, q); every row r lies in the block of point r / 400.
-/
import proofs.«100710_g19155554140324_cont_8to1_1621_9_alg».proof.Proof.Gen.KernelIdeal.Frame
import proofs.«100710_g19155554140324_cont_8to1_1621_9_alg».proof.Proof.Region0
import proofs.«100710_g19155554140324_cont_8to1_1621_9_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KRegion

open Cert.KernelIdeal Cert.KernelIdeal.Gen Cert.Spec Idealize.ShloMosaic Idealize.ShloMosaic.ValueIdx
open Idealize.ShloMosaic.TcCoe Idealize.SL.Sem
open Idealize.ShloMosaic.Pipeline (Dat)

/-! ## The product of a [400,10000] block with a [10000,256] matrix, entry by entry -/

theorem lhs_big_0 (i : S400x256.Idx) (c : dot_S400x10000_S10000x256_S400x256_1_0_0_1_n_n.contr.Idx) : (dot_S400x10000_S10000x256_S400x256_1_0_0_1_n_n.lhsIdx i c 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
theorem lhs_big_1 (i : S400x256.Idx) (c : dot_S400x10000_S10000x256_S400x256_1_0_0_1_n_n.contr.Idx) : (dot_S400x10000_S10000x256_S400x256_1_0_0_1_n_n.lhsIdx i c 1).val = (c ⟨0, by decide⟩).val :=
  dot_S400x10000_S10000x256_S400x256_1_0_0_1_n_n.lhsIdx_val_of_single rfl i c
theorem rhs_big_0 (i : S400x256.Idx) (c : dot_S400x10000_S10000x256_S400x256_1_0_0_1_n_n.contr.Idx) : (dot_S400x10000_S10000x256_S400x256_1_0_0_1_n_n.rhsIdx i c 0).val = (c ⟨0, by decide⟩).val :=
  dot_S400x10000_S10000x256_S400x256_1_0_0_1_n_n.rhsIdx_val_of_single rfl i c
theorem rhs_big_1 (i : S400x256.Idx) (c : dot_S400x10000_S10000x256_S400x256_1_0_0_1_n_n.contr.Idx) : (dot_S400x10000_S10000x256_S400x256_1_0_0_1_n_n.rhsIdx i c 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

/-- A [400,10000] x [10000,256] product into a zero accumulator, entry by entry: entry (p, q) is the sum over k of
    left (p, k) times right (k, q). -/
theorem matmul_big_apply {φ₁ φ₂ : FTy} (l : FVec Ideal S400x10000 φ₁) (r : FVec Ideal S10000x256 φ₂) (p : Fin 400) (q : Fin 256) :
    matmul dot_S400x10000_S10000x256_S400x256_1_0_0_1_n_n none l r (constant S400x256 .f32 0x00000000#32) (ix2 p q)
      = ∑ k : Fin 10000, l (ix2 p k) * r (ix2 k q) := by
  simp only [matmul]
  rw [Ideal.matmul_constant_zero_apply, ← Equiv.sum_comp (contrEquiv1 dot_S400x10000_S10000x256_S400x256_1_0_0_1_n_n 10000 rfl rfl).symm]
  refine Finset.sum_congr rfl fun k _ => ?_
  have hk := contrEquiv1_symm_val dot_S400x10000_S10000x256_S400x256_1_0_0_1_n_n 10000 rfl rfl k
  have el : dot_S400x10000_S10000x256_S400x256_1_0_0_1_n_n.lhsIdx (ix2 p q) ((contrEquiv1 dot_S400x10000_S10000x256_S400x256_1_0_0_1_n_n 10000 rfl rfl).symm k) = ix2 p k := funext fun a => Fin.ext (by
    match a with
    | ⟨0, _⟩ => exact lhs_big_0 _ _
    | ⟨1, _⟩ => exact (lhs_big_1 _ _).trans hk)
  have er : dot_S400x10000_S10000x256_S400x256_1_0_0_1_n_n.rhsIdx (ix2 p q) ((contrEquiv1 dot_S400x10000_S10000x256_S400x256_1_0_0_1_n_n 10000 rfl rfl).symm k) = ix2 k q := funext fun a => Fin.ext (by
    match a with
    | ⟨0, _⟩ => exact (rhs_big_0 _ _).trans hk
    | ⟨1, _⟩ => exact rhs_big_1 _ _)
  rw [el, er]

/-! ## Sums along a row kept as a column, and a column spread over the rows -/

/-- A [400,256] block summed along each row and kept as a [400,1] column: entry (p, 0) is the sum of row p. -/
theorem rowsum_apply (v : FVec Ideal S400x256 .f32) (h : S400x256.Reduces [1] S400) (hφ : FKind.Formats .f32)
    (hacc : (0x00000000#32 : BitVec 32) = FKind.add.neutral .f32 hφ) (hc : S400.ShapeCasts S400x1) (p : Fin 400) (u : Fin 1) :
    shapeCast S400x1 (multiReduction .add [1] S400 v 0x00000000#32 h hφ hacc) hc (ix2 p u) = ∑ k : Fin 256, v (ix2 p k) := by
  refine (shapeCast_apply _ hc (ix2 p u) (ix1 p) ?_).trans ?_
  · rw [Shape.rowMajor_val_two, Shape.rowMajor_val_one]
    show p.val = p.val * 1 + u.val
    omega
  · refine (Ideal.multiReduction_add_single v _ h hφ hacc (ix1 p)).trans ?_
    show ∑ k : Fin 256, v (h.lift (ix1 p) k) = _
    refine Finset.sum_congr rfl fun k _ => congrArg v ?_
    funext a
    apply Fin.ext
    match a with
    | ⟨0, _⟩ => rfl
    | ⟨1, _⟩ => rfl

/-- A [400,1] column spread over 256 columns: entry (p, q) is the column's entry (p, 0). -/
theorem colspread_apply (w : FVec Ideal S400x1 .f32) (h : S400x1.Broadcasts S400x256) (p : Fin 400) (q : Fin 256) :
    broadcastTo S400x256 w h (ix2 p q) = w (ix2 p 0) := by
  refine broadcastTo_apply w h (ix2 p q) (ix2 p 0) fun a => ?_
  match a with
  | ⟨0, _⟩ => rfl
  | ⟨1, _⟩ => rfl

/-! ## The layer's block: the graph convolution, then the row normalisation -/

/-- The block before its normalisation: the block of rows of the adjacency times the whole support, plus the bias row. -/
def gcBlock (x0 : Vec Ideal S400x10000 .f32) (x1 : Vec Ideal S10000x256 .bf16) (x2 : Vec Ideal S1x256 .f32) : FVec Ideal S400x256 .f32 :=
  addf (matmul dot_S400x10000_S10000x256_S400x256_1_0_0_1_n_n none (k1_pay2 x0) (shapeCast S10000x256 x1 shapeCasts_S10000x256_S10000x256 : FVec Ideal S10000x256 .bf16) (constant S400x256 .f32 0x00000000#32))
    (broadcastTo S400x256 (shapeCast S1x256 x2 shapeCasts_S1x256_S1x256 : FVec Ideal S1x256 .f32) broadcasts_S1x256_S400x256)

/-- Each row's sum divided by 256.0, as a column. -/
def meanCol (v : FVec Ideal S400x256 .f32) : FVec Ideal S400x1 .f32 :=
  divf (shapeCast S400x1 (multiReduction .add [1] S400 v 0x00000000#32 reduces_S400x256_S400 (.inl rfl) rfl) shapeCasts_S400_S400x1)
    (broadcast S400x1 (Scalar.ofBits .f32 0x43800000#32))

/-- Each entry minus its row's mean. -/
def centred (v : FVec Ideal S400x256 .f32) : FVec Ideal S400x256 .f32 :=
  subf v (broadcastTo S400x256 (meanCol v) broadcasts_S400x1_S400x256)

/-- The normalised, scaled, shifted and rectified block. -/
def lnBlock (v : FVec Ideal S400x256 .f32) (x3 x4 : Vec Ideal S1x256 .f32) : FVec Ideal S400x256 .f32 :=
  maximumf
    (addf
      (mulf
        (mulf (centred v)
          (broadcastTo S400x256 (rsqrt (addf (meanCol (mulf (centred v) (centred v))) (broadcast S400x1 (Scalar.ofBits .f32 0x3727C5AC#32)))) broadcasts_S400x1_S400x256))
        (broadcastTo S400x256 (shapeCast S1x256 x3 shapeCasts_S1x256_S1x256 : FVec Ideal S1x256 .f32) broadcasts_S1x256_S400x256))
      (broadcastTo S400x256 (shapeCast S1x256 x4 shapeCasts_S1x256_S1x256 : FVec Ideal S1x256 .f32) broadcasts_S1x256_S400x256))
    (broadcast S400x256 (Scalar.ofBits .f32 0x00000000#32))

/-- The second region's normalised block is the normalisation of its graph convolution block. -/
theorem pay1_3_eq (x0 : Vec Ideal S400x10000 .f32) (x1 : Vec Ideal S10000x256 .bf16) (x2 x3 x4 : Vec Ideal S1x256 .f32) :
    k1_pay3 x0 x1 x2 x3 x4 = lnBlock (gcBlock x0 x1 x2) x3 x4 := rfl

theorem gcBlock_apply (x0 : Vec Ideal S400x10000 .f32) (x1 : Vec Ideal S10000x256 .bf16) (x2 : Vec Ideal S1x256 .f32) (p : Fin 400) (q : Fin 256) :
    gcBlock x0 x1 x2 (ix2 p q) = (∑ l : Fin 10000, x0 (ix2 p l) * x1 (ix2 l q)) + x2 (ix2 0 q) := by
  unfold gcBlock
  refine (addf_apply _ _ _).trans (congrArg₂ (· + ·) ?_ ?_)
  · refine (matmul_big_apply _ _ p q).trans ?_
    rw [shapeCast_self]
    rfl
  · refine (broadcastTo_1b_ab_apply _ _ p q).trans ?_
    rw [shapeCast_self]

theorem meanCol_apply (v : FVec Ideal S400x256 .f32) (p : Fin 400) (u : Fin 1) :
    meanCol v (ix2 p u) = Spec.mean (fun j => v (ix2 p j)) := by
  unfold meanCol Spec.mean
  exact (divf_apply _ _ _).trans (congrArg₂ Ideal.div (rowsum_apply v _ _ _ _ p u) rfl)

theorem centred_apply (v : FVec Ideal S400x256 .f32) (p : Fin 400) (q : Fin 256) :
    centred v (ix2 p q) = v (ix2 p q) - Spec.mean (fun j => v (ix2 p j)) := by
  unfold centred
  exact (subf_apply _ _ _).trans (congrArg (v (ix2 p q) - ·) ((colspread_apply _ _ p q).trans (meanCol_apply v p 0)))

/-- The mean of the squares of a row's centred entries is the row's variance. -/
theorem varCol_apply (v : FVec Ideal S400x256 .f32) (p : Fin 400) (u : Fin 1) :
    meanCol (mulf (centred v) (centred v)) (ix2 p u) = Spec.var (fun j => v (ix2 p j)) := by
  refine (meanCol_apply _ p u).trans ?_
  unfold Spec.var Spec.mean
  refine congrArg (Ideal.div · Spec.c256) (Finset.sum_congr rfl fun k _ => ?_)
  refine (mulf_apply _ _ _).trans ?_
  rw [centred_apply]
  rfl

/-- The normalised block, entry by entry: the specification's normalised row entry of the block's row. -/
theorem lnBlock_apply (v : FVec Ideal S400x256 .f32) (x3 x4 : Vec Ideal S1x256 .f32) (p : Fin 400) (q : Fin 256) :
    lnBlock v x3 x4 (ix2 p q) = Spec.lnK (fun j => v (ix2 p j)) (fun j => x3 (ix2 0 j)) (fun j => x4 (ix2 0 j)) q := by
  unfold lnBlock Spec.lnK
  refine (maximumf_apply _ _ _).trans (congrArg₂ max ?_ Ideal.ofBits_zero_f32)
  refine (addf_apply _ _ _).trans (congrArg₂ (· + ·) ?_ ?_)
  · refine (mulf_apply _ _ _).trans (congrArg₂ (· * ·) ?_ ?_)
    · refine (mulf_apply _ _ _).trans (congrArg₂ (· * ·) (centred_apply v p q) ?_)
      refine (colspread_apply _ _ p q).trans ?_
      show Ideal.rsqrt (meanCol (mulf (centred v) (centred v)) (ix2 p 0) + Spec.eps) = _
      rw [varCol_apply]
    · refine (broadcastTo_1b_ab_apply _ _ p q).trans ?_
      rw [shapeCast_self]
  · refine (broadcastTo_1b_ab_apply _ _ p q).trans ?_
    rw [shapeCast_self]

/-- What the second region computes at a grid point, entry by entry: the normalised row of (block of rows of the
    first array) times (the second array) plus the bias row. -/
theorem pay1_3 (x0 : Vec Ideal S400x10000 .f32) (x1 : Vec Ideal S10000x256 .bf16) (x2 x3 x4 : Vec Ideal S1x256 .f32) (p : Fin 400) (q : Fin 256) :
    k1_pay3 x0 x1 x2 x3 x4 (ix2 p q)
      = Spec.lnK (fun j => (∑ l : Fin 10000, x0 (ix2 p l) * x1 (ix2 l j)) + x2 (ix2 0 j)) (fun j => x3 (ix2 0 j)) (fun j => x4 (ix2 0 j)) q := by
  rw [pay1_3_eq, lnBlock_apply]
  refine congrArg (fun h => Spec.lnK h (fun j => x3 (ix2 0 j)) (fun j => x4 (ix2 0 j)) q) (funext fun j => gcBlock_apply x0 x1 x2 p j)

/-- The next product's block: the normalised block (as stored, a change of float format apart) times the next weight. -/
theorem pay1_1 (v : FVec Ideal S400x256 .f32) (x5 : Vec Ideal S256x256 .bf16) (p : Fin 400) (q : Fin 256) :
    k1_pay1 v x5 (ix2 p q) = ∑ k : Fin 256, v (ix2 p k) * x5 (ix2 k q) := by
  unfold k1_pay1
  refine (matmul_small_apply _ _ p q).trans ?_
  rw [shapeCast_self]
  rfl

/-- One entry of a layer, written out: the normalised entry of the row of the product plus the bias. -/
theorem layerK_apply {n k : Nat} (A : Mat n k) (S : Mat k 256) (b g β : Fin 256 → EReal) (r : Fin n) (q : Fin 256) :
    Spec.layerK A S b g β (ix2 r q) = Spec.lnK (fun j => (∑ l : Fin k, A (ix2 r l) * S (ix2 l j)) + b j) g β q := rfl

/-! ## From the blocks to the arrays -/

variable (V : (c : Dev nD) → (b : Ref sig .tc) → Buf (Elt Ideal) ((c : Thread nD τ).loc b))

/-- The block indices over the grid: point t takes row block t of the adjacency and of the three outputs, and the whole
    of every other input. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)
theorem idx1_8 : ∀ t : Fin cfg1.N, win1_8.index t (0 : Fin 2) = t.val ∧ win1_8.index t (1 : Fin 2) = 0 :=
  (by decide +kernel : ∀ t : Fin grid1.N, _)

theorem lt1 (t : Fin cfg1.N) : t.val < 25 := lt_of_lt_of_eq t.isLt N_1

/-- Row p of block t is row 400 t + p of the array. -/
def row1 (t : Fin cfg1.N) (p : Fin 400) : Fin 10000 := ⟨400 * t.val + p.val, by have := lt1 t; have := p.isLt; omega⟩

/-- The adjacency block at point t, entry (p, l), is the adjacency at (400 t + p, l). -/
theorem iblk1_0_apply (c : Dev nD) (t : Fin cfg1.N) (p : Fin 400) (l : Fin 10000) :
    (iblk1 V c 0 t : Vec Ideal S400x10000 .f32) (ix2 p l) = (V c (Pipeline.arrRef spec1 0) : S10000x10000.Idx → EReal) (ix2 (row1 t p) l) := by
  obtain ⟨e0, e1⟩ := idx1_0 t
  unfold iblk1
  rw [View.read_apply]
  show V c (Pipeline.arrRef spec1 0) _ = V c (Pipeline.arrRef spec1 0) _
  refine congrArg (V c (Pipeline.arrRef spec1 0)) ?_
  funext a
  apply Fin.ext
  match a with
  | ⟨0, _⟩ => show win1_0.index t (0 : Fin 2) * 400 + 1 * p.val = 400 * t.val + p.val; rw [e0]; omega
  | ⟨1, _⟩ => show win1_0.index t (1 : Fin 2) * 10000 + 1 * l.val = l.val; rw [e1]; omega

/-- Every other input's block, at any point, is the whole array. -/

theorem iblk1_1_apply (c : Dev nD) (t : Fin cfg1.N) (l : Fin 10000) (j : Fin 256) :
    (iblk1 V c 1 t : Vec Ideal S10000x256 .bf16) (ix2 l j) = (V c (Pipeline.arrRef spec1 1) : S10000x256.Idx → EReal) (ix2 l j) := by
  obtain ⟨e0, e1⟩ := idx1_1 t
  unfold iblk1
  rw [View.read_apply]
  show V c (Pipeline.arrRef spec1 1) _ = V c (Pipeline.arrRef spec1 1) _
  refine congrArg (V c (Pipeline.arrRef spec1 1)) ?_
  funext a
  apply Fin.ext
  match a with
  | ⟨0, _⟩ => show win1_1.index t (0 : Fin 2) * 10000 + 1 * l.val = l.val; rw [e0]; omega
  | ⟨1, _⟩ => show win1_1.index t (1 : Fin 2) * 256 + 1 * j.val = j.val; rw [e1]; omega

theorem iblk1_2_apply (c : Dev nD) (t : Fin cfg1.N) (u : Fin 1) (j : Fin 256) :
    (iblk1 V c 2 t : Vec Ideal S1x256 .f32) (ix2 u j) = (V c (Pipeline.arrRef spec1 2) : S1x256.Idx → EReal) (ix2 u j) := by
  obtain ⟨e0, e1⟩ := idx1_2 t
  unfold iblk1
  rw [View.read_apply]
  show V c (Pipeline.arrRef spec1 2) _ = V c (Pipeline.arrRef spec1 2) _
  refine congrArg (V c (Pipeline.arrRef spec1 2)) ?_
  funext a
  apply Fin.ext
  match a with
  | ⟨0, _⟩ => show win1_2.index t (0 : Fin 2) * 1 + 1 * u.val = u.val; rw [e0]; omega
  | ⟨1, _⟩ => show win1_2.index t (1 : Fin 2) * 256 + 1 * j.val = j.val; rw [e1]; omega

theorem iblk1_3_apply (c : Dev nD) (t : Fin cfg1.N) (u : Fin 1) (j : Fin 256) :
    (iblk1 V c 3 t : Vec Ideal S1x256 .f32) (ix2 u j) = (V c (Pipeline.arrRef spec1 3) : S1x256.Idx → EReal) (ix2 u j) := by
  obtain ⟨e0, e1⟩ := idx1_3 t
  unfold iblk1
  rw [View.read_apply]
  show V c (Pipeline.arrRef spec1 3) _ = V c (Pipeline.arrRef spec1 3) _
  refine congrArg (V c (Pipeline.arrRef spec1 3)) ?_
  funext a
  apply Fin.ext
  match a with
  | ⟨0, _⟩ => show win1_3.index t (0 : Fin 2) * 1 + 1 * u.val = u.val; rw [e0]; omega
  | ⟨1, _⟩ => show win1_3.index t (1 : Fin 2) * 256 + 1 * j.val = j.val; rw [e1]; omega

theorem iblk1_4_apply (c : Dev nD) (t : Fin cfg1.N) (u : Fin 1) (j : Fin 256) :
    (iblk1 V c 4 t : Vec Ideal S1x256 .f32) (ix2 u j) = (V c (Pipeline.arrRef spec1 4) : S1x256.Idx → EReal) (ix2 u j) := by
  obtain ⟨e0, e1⟩ := idx1_4 t
  unfold iblk1
  rw [View.read_apply]
  show V c (Pipeline.arrRef spec1 4) _ = V c (Pipeline.arrRef spec1 4) _
  refine congrArg (V c (Pipeline.arrRef spec1 4)) ?_
  funext a
  apply Fin.ext
  match a with
  | ⟨0, _⟩ => show win1_4.index t (0 : Fin 2) * 1 + 1 * u.val = u.val; rw [e0]; omega
  | ⟨1, _⟩ => show win1_4.index t (1 : Fin 2) * 256 + 1 * j.val = j.val; rw [e1]; omega

theorem iblk1_5_apply (c : Dev nD) (t : Fin cfg1.N) (k : Fin 256) (q : Fin 256) :
    (iblk1 V c 5 t : Vec Ideal S256x256 .bf16) (ix2 k q) = (V c (Pipeline.arrRef spec1 5) : S256x256.Idx → EReal) (ix2 k q) := by
  obtain ⟨e0, e1⟩ := idx1_5 t
  unfold iblk1
  rw [View.read_apply]
  show V c (Pipeline.arrRef spec1 5) _ = V c (Pipeline.arrRef spec1 5) _
  refine congrArg (V c (Pipeline.arrRef spec1 5)) ?_
  funext a
  apply Fin.ext
  match a with
  | ⟨0, _⟩ => show win1_5.index t (0 : Fin 2) * 256 + 1 * k.val = k.val; rw [e0]; omega
  | ⟨1, _⟩ => show win1_5.index t (1 : Fin 2) * 256 + 1 * q.val = q.val; rw [e1]; omega

/-- Entry (p, l) of output block t sits at (400 t + p, l) of its array. -/
theorem emb1_6 (t : Fin cfg1.N) (p : Fin 400) (l : Fin 10000) :
    ((cfg1.win 6).blk t).view.emb (ix2 p l) = (ix2 (row1 t p) l : S10000x10000.Idx) := by
  obtain ⟨e0, e1⟩ := idx1_6 t
  funext a
  apply Fin.ext
  match a with
  | ⟨0, _⟩ => show win1_6.index t (0 : Fin 2) * 400 + 1 * p.val = 400 * t.val + p.val; rw [e0]; omega
  | ⟨1, _⟩ => show win1_6.index t (1 : Fin 2) * 10000 + 1 * l.val = l.val; rw [e1]; omega

/-- Entry (p, q) of output block t sits at (400 t + p, q) of its array. -/
theorem emb1_7 (t : Fin cfg1.N) (p : Fin 400) (q : Fin 256) :
    ((cfg1.win 7).blk t).view.emb (ix2 p q) = (ix2 (row1 t p) q : S10000x256.Idx) := by
  obtain ⟨e0, e1⟩ := idx1_7 t
  funext a
  apply Fin.ext
  match a with
  | ⟨0, _⟩ => show win1_7.index t (0 : Fin 2) * 400 + 1 * p.val = 400 * t.val + p.val; rw [e0]; omega
  | ⟨1, _⟩ => show win1_7.index t (1 : Fin 2) * 256 + 1 * q.val = q.val; rw [e1]; omega

/-- Entry (p, q) of output block t sits at (400 t + p, q) of its array. -/
theorem emb1_8 (t : Fin cfg1.N) (p : Fin 400) (q : Fin 256) :
    ((cfg1.win 8).blk t).view.emb (ix2 p q) = (ix2 (row1 t p) q : S10000x256.Idx) := by
  obtain ⟨e0, e1⟩ := idx1_8 t
  funext a
  apply Fin.ext
  match a with
  | ⟨0, _⟩ => show win1_8.index t (0 : Fin 2) * 400 + 1 * p.val = 400 * t.val + p.val; rw [e0]; omega
  | ⟨1, _⟩ => show win1_8.index t (1 : Fin 2) * 256 + 1 * q.val = q.val; rw [e1]; omega

/-- The normalised block at point t, entry (p, q), is the layer's entry (400 t + p, q). -/
theorem act1_apply (c : Dev nD) (t : Fin cfg1.N) (p : Fin 400) (q : Fin 256) :
    k1_pay3 (iblk1 V c 0 t) (iblk1 V c 1 t) (iblk1 V c 2 t) (iblk1 V c 3 t) (iblk1 V c 4 t) (ix2 p q)
      = Spec.layerK (V c (Pipeline.arrRef spec1 0)) (V c (Pipeline.arrRef spec1 1)) (fun j => V c (Pipeline.arrRef spec1 2) (ix2 0 j)) (fun j => V c (Pipeline.arrRef spec1 3) (ix2 0 j)) (fun j => V c (Pipeline.arrRef spec1 4) (ix2 0 j)) (ix2 (row1 t p) q) := by
  refine (pay1_3 (iblk1 V c 0 t) (iblk1 V c 1 t) (iblk1 V c 2 t) (iblk1 V c 3 t) (iblk1 V c 4 t) p q).trans ?_
  rw [layerK_apply]
  simp only [iblk1_0_apply, iblk1_1_apply, iblk1_2_apply, iblk1_3_apply, iblk1_4_apply]

/-- What point t writes back to the first output is block t of the adjacency. -/
theorem flushed1_6_eq (c : Dev nD) (t : Fin cfg1.N) :
    (dat1 V c).flushed 6 t = ((cfg1.win 6).blk t).view.read (Elt Ideal) (V c (Pipeline.arrRef spec1 0)) := by
  show (cfg1.win 6).cut (grid1.coords t) ((dat1 V c).after 6 t) = _
  rw [after1_6]
  unfold out1_6
  rw [View.canon_unit_zero hz]
  simp only [View.ld_unit_zero (S := S400x10000) hz]
  funext j
  obtain ⟨p, l, rfl⟩ : ∃ (p : Fin 400) (l : Fin 10000), j = ix2 p l := ⟨j 0, j 1, eq_ix2 j⟩
  rw [View.read_apply, emb1_6]
  exact iblk1_0_apply V c t p l

/-- What point t writes back to the second output is block t of the layer. -/
theorem flushed1_7_eq (c : Dev nD) (t : Fin cfg1.N) :
    (dat1 V c).flushed 7 t = ((cfg1.win 7).blk t).view.read (Elt Ideal) (Spec.layerK (V c (Pipeline.arrRef spec1 0)) (V c (Pipeline.arrRef spec1 1)) (fun j => V c (Pipeline.arrRef spec1 2) (ix2 0 j)) (fun j => V c (Pipeline.arrRef spec1 3) (ix2 0 j)) (fun j => V c (Pipeline.arrRef spec1 4) (ix2 0 j))) := by
  show (cfg1.win 7).cut (grid1.coords t) ((dat1 V c).after 7 t) = _
  rw [after1_7]
  unfold out1_7
  rw [View.canon_unit_zero hz]
  simp only [View.ld_unit_zero (S := S400x10000) hz, View.ld_unit_zero (S := S10000x256) hz, View.ld_unit_zero (S := S1x256) hz]
  funext j
  obtain ⟨p, q, rfl⟩ : ∃ (p : Fin 400) (q : Fin 256), j = ix2 p q := ⟨j 0, j 1, eq_ix2 j⟩
  rw [View.read_apply, emb1_7]
  exact act1_apply V c t p q

/-- What point t writes back to the third output is block t of the layer times the next weight. -/
theorem flushed1_8_eq (c : Dev nD) (t : Fin cfg1.N) :
    (dat1 V c).flushed 8 t = ((cfg1.win 8).blk t).view.read (Elt Ideal) (Spec.mm (Spec.layerK (V c (Pipeline.arrRef spec1 0)) (V c (Pipeline.arrRef spec1 1)) (fun j => V c (Pipeline.arrRef spec1 2) (ix2 0 j)) (fun j => V c (Pipeline.arrRef spec1 3) (ix2 0 j)) (fun j => V c (Pipeline.arrRef spec1 4) (ix2 0 j))) (V c (Pipeline.arrRef spec1 5))) := by
  show (cfg1.win 8).cut (grid1.coords t) ((dat1 V c).after 8 t) = _
  rw [after1_8]
  unfold out1_8
  rw [View.canon_unit_zero hz]
  simp only [View.ld_unit_zero (S := S400x10000) hz, View.ld_unit_zero (S := S10000x256) hz, View.ld_unit_zero (S := S1x256) hz, View.ld_unit_zero (S := S256x256) hz]
  funext j
  obtain ⟨p, q, rfl⟩ : ∃ (p : Fin 400) (q : Fin 256), j = ix2 p q := ⟨j 0, j 1, eq_ix2 j⟩
  rw [View.read_apply, emb1_8]
  refine (pay1_1 (k1_pay3 (iblk1 V c 0 t) (iblk1 V c 1 t) (iblk1 V c 2 t) (iblk1 V c 3 t) (iblk1 V c 4 t)) (iblk1 V c 5 t) p q).trans ?_
  unfold Spec.mm
  refine Finset.sum_congr rfl fun k _ => ?_
  rw [act1_apply, iblk1_5_apply]

/-- Row r of the array of output 6 lies in the block of point r / 400. -/
theorem cover1_6' (i : S10000x10000.Idx) : ∃ t : Fin cfg1.N, (cfg1.win 6).flush t = true ∧ i ∈ ((cfg1.win 6).blk t).view.set := by
  have h0 : (i 0).val < 10000 := (i 0).isLt
  have h1 : (i 1).val < 10000 := (i 1).isLt
  let t : Fin cfg1.N := ⟨(i 0).val / 400, by rw [show cfg1.N = 25 from N_1]; omega⟩
  obtain ⟨e0, e1⟩ := idx1_6 t
  refine ⟨t, flush1_6 t, ?_⟩
  show i ∈ ((View.whole main_v6_0).slice (win1_6.rect t)).set
  rw [View.set_slice_whole, Rect.mem_set_unit]
  intro a
  match a with
  | ⟨0, _⟩ =>
    show win1_6.index t (0 : Fin 2) * 400 ≤ (i 0).val ∧ (i 0).val < win1_6.index t (0 : Fin 2) * 400 + 400
    rw [e0]; show (i 0).val / 400 * 400 ≤ (i 0).val ∧ (i 0).val < (i 0).val / 400 * 400 + 400; omega
  | ⟨1, _⟩ =>
    show win1_6.index t (1 : Fin 2) * 10000 ≤ (i 1).val ∧ (i 1).val < win1_6.index t (1 : Fin 2) * 10000 + 10000
    rw [e1]; omega

/-- Row r of the array of output 7 lies in the block of point r / 400. -/
theorem cover1_7' (i : S10000x256.Idx) : ∃ t : Fin cfg1.N, (cfg1.win 7).flush t = true ∧ i ∈ ((cfg1.win 7).blk t).view.set := by
  have h0 : (i 0).val < 10000 := (i 0).isLt
  have h1 : (i 1).val < 256 := (i 1).isLt
  let t : Fin cfg1.N := ⟨(i 0).val / 400, by rw [show cfg1.N = 25 from N_1]; omega⟩
  obtain ⟨e0, e1⟩ := idx1_7 t
  refine ⟨t, flush1_7 t, ?_⟩
  show i ∈ ((View.whole main_v6_1).slice (win1_7.rect t)).set
  rw [View.set_slice_whole, Rect.mem_set_unit]
  intro a
  match a with
  | ⟨0, _⟩ =>
    show win1_7.index t (0 : Fin 2) * 400 ≤ (i 0).val ∧ (i 0).val < win1_7.index t (0 : Fin 2) * 400 + 400
    rw [e0]; show (i 0).val / 400 * 400 ≤ (i 0).val ∧ (i 0).val < (i 0).val / 400 * 400 + 400; omega
  | ⟨1, _⟩ =>
    show win1_7.index t (1 : Fin 2) * 256 ≤ (i 1).val ∧ (i 1).val < win1_7.index t (1 : Fin 2) * 256 + 256
    rw [e1]; omega

/-- Row r of the array of output 8 lies in the block of point r / 400. -/
theorem cover1_8' (i : S10000x256.Idx) : ∃ t : Fin cfg1.N, (cfg1.win 8).flush t = true ∧ i ∈ ((cfg1.win 8).blk t).view.set := by
  have h0 : (i 0).val < 10000 := (i 0).isLt
  have h1 : (i 1).val < 256 := (i 1).isLt
  let t : Fin cfg1.N := ⟨(i 0).val / 400, by rw [show cfg1.N = 25 from N_1]; omega⟩
  obtain ⟨e0, e1⟩ := idx1_8 t
  refine ⟨t, flush1_8 t, ?_⟩
  show i ∈ ((View.whole main_v6_2).slice (win1_8.rect t)).set
  rw [View.set_slice_whole, Rect.mem_set_unit]
  intro a
  match a with
  | ⟨0, _⟩ =>
    show win1_8.index t (0 : Fin 2) * 400 ≤ (i 0).val ∧ (i 0).val < win1_8.index t (0 : Fin 2) * 400 + 400
    rw [e0]; show (i 0).val / 400 * 400 ≤ (i 0).val ∧ (i 0).val < (i 0).val / 400 * 400 + 400; omega
  | ⟨1, _⟩ =>
    show win1_8.index t (1 : Fin 2) * 256 ≤ (i 1).val ∧ (i 1).val < win1_8.index t (1 : Fin 2) * 256 + 256
    rw [e1]; omega

/-- REGION 1, first output: when the region ends it holds the adjacency as the region found it (the change of float
    format is the identity on the extended reals). -/
theorem final1_6 (c : Dev nD) : (dat1 V c).arrAt 6 cfg1.N = V c (Pipeline.arrRef spec1 0) :=
  (dat1 V c).arrAt_eq_of_cover 6 _ (fun t _ => flushed1_6_eq V c t) cover1_6'

/-- REGION 1, second output: the layer of the adjacency, the support, the bias, scale and shift rows. -/
theorem final1_7 (c : Dev nD) : (dat1 V c).arrAt 7 cfg1.N = Spec.layerK (V c (Pipeline.arrRef spec1 0)) (V c (Pipeline.arrRef spec1 1)) (fun j => V c (Pipeline.arrRef spec1 2) (ix2 0 j)) (fun j => V c (Pipeline.arrRef spec1 3) (ix2 0 j)) (fun j => V c (Pipeline.arrRef spec1 4) (ix2 0 j)) :=
  (dat1 V c).arrAt_eq_of_cover 7 _ (fun t _ => flushed1_7_eq V c t) cover1_7'

/-- REGION 1, third output: that layer times the next weight. -/
theorem final1_8 (c : Dev nD) : (dat1 V c).arrAt 8 cfg1.N = Spec.mm (Spec.layerK (V c (Pipeline.arrRef spec1 0)) (V c (Pipeline.arrRef spec1 1)) (fun j => V c (Pipeline.arrRef spec1 2) (ix2 0 j)) (fun j => V c (Pipeline.arrRef spec1 3) (ix2 0 j)) (fun j => V c (Pipeline.arrRef spec1 4) (ix2 0 j))) (V c (Pipeline.arrRef spec1 5)) :=
  (dat1 V c).arrAt_eq_of_cover 8 _ (fun t _ => flushed1_8_eq V c t) cover1_8'

end Cert.KRegion

end
-- ==== Proof.Region2Pay.lean ====
/-
  The arithmetic of one grid point of the second and third layers, read entry by entry over the extended reals.
  A point holds 1000 rows.  Its pre-activation is the [1000, 10000] block of the adjacency times the [10000, 256]
  support, plus the bias row; each of its rows is then centred by its own mean, multiplied by the reciprocal square
  root of its variance plus eps, scaled, shifted and rectified.  Every operation of that chain is either entrywise
  (it commutes with reading at an index) or one of five layout steps: a row laid along all rows, a column laid along
  all lanes, a vector viewed as a column, a sum over the lanes, a matrix product into a zero accumulator.  The lemmas
  below read each layout step at an index (p, q); the chain then collapses to the row formula of the specification.
  A change of float format is the identity on the extended reals, so the block stored as the layer's activation and
  the block handed to the next product hold the same entries as the normalised block.
-/
import proofs.«100710_g19155554140324_cont_8to1_1621_9_alg».proof.Proof.Gen.KernelIdeal.Skeleton
import proofs.«100710_g19155554140324_cont_8to1_1621_9_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KRegion

open Cert.KernelIdeal Cert.KernelIdeal.Gen Cert.Spec Idealize.ShloMosaic Idealize.ShloMosaic.ValueIdx

/-! ## The layout operations of a [1000, 256] block, read at an index -/

/-- A column [1000, 1] laid along the 256 lanes reads, at (p, q), the column's entry p. -/
theorem bcastCol_apply {α : Type} (w : S1000x1.Idx → α) (h : S1000x1.Broadcasts S1000x256) (p : Fin 1000) (q : Fin 256) :
    broadcastTo S1000x256 w h (ix2 p q) = w (ix2 p (0 : Fin 1)) := by
  refine broadcastTo_apply w h (ix2 p q) (ix2 p (0 : Fin 1)) fun ax => ?_
  match ax with
  | ⟨0, _⟩ =>
    show p.val = if (1000 : Nat) = 1 then 0 else p.val
    rw [if_neg (by decide)]
  | ⟨1, _⟩ => rfl

/-- A vector [1000] viewed as a column [1000, 1] reads, at (p, 0), the vector's entry p. -/
theorem castCol_apply {α : Type} (w : S1000.Idx → α) (h : S1000.ShapeCasts S1000x1) (p : Fin 1000) :
    shapeCast S1000x1 w h (ix2 p (0 : Fin 1)) = w (ix1 p) :=
  shapeCast_apply w h _ _ (by
    rw [Shape.rowMajor_val_two, Shape.rowMajor_val_one]
    show p.val = p.val * 1 + 0
    omega)

/-- The reduced index p with lane k put back is (p, k). -/
theorem lift_lane (h : S1000x256.Reduces [1] S1000) (p : Fin 1000) (k : Fin (S1000x256.size 1)) :
    h.lift (ix1 p) k = ix2 p (⟨k.val, k.isLt⟩ : Fin 256) := by
  funext c; apply Fin.ext
  fin_cases c <;> rfl

/-- The sum over the lanes of a [1000, 256] block, at row p. -/
theorem laneSum_apply (v : FVec Ideal S1000x256 .f32) (h : S1000x256.Reduces [1] S1000) (hφ : FKind.Formats .f32)
    (hacc : (0x00000000#32 : BitVec 32) = 0x00000000#32) (p : Fin 1000) :
    multiReduction .add [1] S1000 v 0x00000000#32 h hφ hacc (ix1 p) = ∑ k : Fin 256, v (ix2 p k) := by
  refine (Ideal.multiReduction_add_single v 0x00000000#32 h hφ hacc (ix1 p)).trans ?_
  exact Finset.sum_congr rfl fun k _ => congrArg v (lift_lane h p k)

/-- The reciprocal square root of a vector, entry by entry. -/
theorem rsqrt_apply {s : Shape} {φ : FTy} (a : FVec Ideal s φ) (i : s.Idx) : rsqrt a i = Ideal.rsqrt (a i) := rfl

theorem mmAdj_apply_lhs0 (i : S1000x256.Idx) (k : dot_S1000x10000_S10000x256_S1000x256_1_0_0_1_n_n.contr.Idx) : (dot_S1000x10000_S10000x256_S1000x256_1_0_0_1_n_n.lhsIdx i k 0).val = (i 0).val := by
  unfold DotDims.lhsIdx
  rw [dif_neg (show ¬(0 : Fin S1000x10000.rank) ∈ dot_S1000x10000_S10000x256_S1000x256_1_0_0_1_n_n.lhsBatch by decide),
    dif_pos (show (0 : Fin S1000x10000.rank) ∈ dot_S1000x10000_S10000x256_S1000x256_1_0_0_1_n_n.lhsNonContracting by decide)]
  rfl
theorem mmAdj_apply_rhs1 (i : S1000x256.Idx) (k : dot_S1000x10000_S10000x256_S1000x256_1_0_0_1_n_n.contr.Idx) : (dot_S1000x10000_S10000x256_S1000x256_1_0_0_1_n_n.rhsIdx i k 1).val = (i 1).val := by
  unfold DotDims.rhsIdx
  rw [dif_neg (show ¬(1 : Fin S10000x256.rank) ∈ dot_S1000x10000_S10000x256_S1000x256_1_0_0_1_n_n.rhsBatch by decide),
    dif_pos (show (1 : Fin S10000x256.rank) ∈ dot_S1000x10000_S10000x256_S1000x256_1_0_0_1_n_n.rhsNonContracting by decide)]
  rfl
/-- A [1000, 10000] block of the adjacency times the [10000, 256] support: entry (p, q) is the sum over the 10000 nodes. -/
theorem mmAdj_apply (a : FVec Ideal S1000x10000 .bf16) (b : FVec Ideal S10000x256 .bf16) (p : Fin 1000) (q : Fin 256) :
    matmul dot_S1000x10000_S10000x256_S1000x256_1_0_0_1_n_n none a b (constant S1000x256 .f32 0x00000000#32) (ix2 p q)
      = ∑ l : Fin 10000, a (ix2 p l) * b (ix2 l q) := by
  refine (Ideal.matmul_constant_zero_apply dot_S1000x10000_S10000x256_S1000x256_1_0_0_1_n_n none a b (ix2 p q)).trans ?_
  rw [← Equiv.sum_comp (contrEquiv1 dot_S1000x10000_S10000x256_S1000x256_1_0_0_1_n_n 10000 rfl rfl).symm]
  refine Finset.sum_congr rfl fun k _ => ?_
  have hk := contrEquiv1_symm_val dot_S1000x10000_S10000x256_S1000x256_1_0_0_1_n_n 10000 rfl rfl k
  have el : dot_S1000x10000_S10000x256_S1000x256_1_0_0_1_n_n.lhsIdx (ix2 p q) ((contrEquiv1 dot_S1000x10000_S10000x256_S1000x256_1_0_0_1_n_n 10000 rfl rfl).symm k) = ix2 p k :=
    funext fun ax => Fin.ext (by
      match ax with
      | ⟨0, _⟩ => exact mmAdj_apply_lhs0 _ _
      | ⟨1, _⟩ => exact (dot_S1000x10000_S10000x256_S1000x256_1_0_0_1_n_n.lhsIdx_val_of_single rfl (ix2 p q) _).trans hk)
  have er : dot_S1000x10000_S10000x256_S1000x256_1_0_0_1_n_n.rhsIdx (ix2 p q) ((contrEquiv1 dot_S1000x10000_S10000x256_S1000x256_1_0_0_1_n_n 10000 rfl rfl).symm k) = ix2 k q :=
    funext fun ax => Fin.ext (by
      match ax with
      | ⟨0, _⟩ => exact (dot_S1000x10000_S10000x256_S1000x256_1_0_0_1_n_n.rhsIdx_val_of_single rfl (ix2 p q) _).trans hk
      | ⟨1, _⟩ => exact mmAdj_apply_rhs1 _ _)
  rw [el, er]

theorem mmW_apply_lhs0 (i : S1000x256.Idx) (k : dot_S1000x256_S256x256_S1000x256_1_0_0_1_n_n.contr.Idx) : (dot_S1000x256_S256x256_S1000x256_1_0_0_1_n_n.lhsIdx i k 0).val = (i 0).val := by
  unfold DotDims.lhsIdx
  rw [dif_neg (show ¬(0 : Fin S1000x256.rank) ∈ dot_S1000x256_S256x256_S1000x256_1_0_0_1_n_n.lhsBatch by decide),
    dif_pos (show (0 : Fin S1000x256.rank) ∈ dot_S1000x256_S256x256_S1000x256_1_0_0_1_n_n.lhsNonContracting by decide)]
  rfl
theorem mmW_apply_rhs1 (i : S1000x256.Idx) (k : dot_S1000x256_S256x256_S1000x256_1_0_0_1_n_n.contr.Idx) : (dot_S1000x256_S256x256_S1000x256_1_0_0_1_n_n.rhsIdx i k 1).val = (i 1).val := by
  unfold DotDims.rhsIdx
  rw [dif_neg (show ¬(1 : Fin S256x256.rank) ∈ dot_S1000x256_S256x256_S1000x256_1_0_0_1_n_n.rhsBatch by decide),
    dif_pos (show (1 : Fin S256x256.rank) ∈ dot_S1000x256_S256x256_S1000x256_1_0_0_1_n_n.rhsNonContracting by decide)]
  rfl
/-- A [1000, 256] block of activations times a [256, 256] weight: entry (p, q) is the sum over the 256 features. -/
theorem mmW_apply (a : FVec Ideal S1000x256 .bf16) (b : FVec Ideal S256x256 .bf16) (p : Fin 1000) (q : Fin 256) :
    matmul dot_S1000x256_S256x256_S1000x256_1_0_0_1_n_n none a b (constant S1000x256 .f32 0x00000000#32) (ix2 p q)
      = ∑ l : Fin 256, a (ix2 p l) * b (ix2 l q) := by
  refine (Ideal.matmul_constant_zero_apply dot_S1000x256_S256x256_S1000x256_1_0_0_1_n_n none a b (ix2 p q)).trans ?_
  rw [← Equiv.sum_comp (contrEquiv1 dot_S1000x256_S256x256_S1000x256_1_0_0_1_n_n 256 rfl rfl).symm]
  refine Finset.sum_congr rfl fun k _ => ?_
  have hk := contrEquiv1_symm_val dot_S1000x256_S256x256_S1000x256_1_0_0_1_n_n 256 rfl rfl k
  have el : dot_S1000x256_S256x256_S1000x256_1_0_0_1_n_n.lhsIdx (ix2 p q) ((contrEquiv1 dot_S1000x256_S256x256_S1000x256_1_0_0_1_n_n 256 rfl rfl).symm k) = ix2 p k :=
    funext fun ax => Fin.ext (by
      match ax with
      | ⟨0, _⟩ => exact mmW_apply_lhs0 _ _
      | ⟨1, _⟩ => exact (dot_S1000x256_S256x256_S1000x256_1_0_0_1_n_n.lhsIdx_val_of_single rfl (ix2 p q) _).trans hk)
  have er : dot_S1000x256_S256x256_S1000x256_1_0_0_1_n_n.rhsIdx (ix2 p q) ((contrEquiv1 dot_S1000x256_S256x256_S1000x256_1_0_0_1_n_n 256 rfl rfl).symm k) = ix2 k q :=
    funext fun ax => Fin.ext (by
      match ax with
      | ⟨0, _⟩ => exact (dot_S1000x256_S256x256_S1000x256_1_0_0_1_n_n.rhsIdx_val_of_single rfl (ix2 p q) _).trans hk
      | ⟨1, _⟩ => exact mmW_apply_rhs1 _ _)
  rw [el, er]

/-- THE NORMALISED BLOCK at (p, q): row p of the block's pre-activation  h j = (sum over l of x0 (p, l) * x1 (l, j)) + x2 (0, j),
    centred by its mean, times the reciprocal square root of its variance plus eps, scaled by x3, shifted by x4, rectified. -/
theorem k2_pay2_apply (x0 : Vec Ideal S1000x10000 .bf16) (x1 : Vec Ideal S10000x256 .bf16) (x2 x3 x4 : Vec Ideal S1x256 .f32)
    (p : Fin 1000) (q : Fin 256) :
    k2_pay2 x0 x1 x2 x3 x4 (ix2 p q)
      = lnK (fun j => (∑ l : Fin 10000, x0 (ix2 p l) * x1 (ix2 l j)) + x2 (ix2 (0 : Fin 1) j))
          (fun j => x3 (ix2 (0 : Fin 1) j)) (fun j => x4 (ix2 (0 : Fin 1) j)) q := by
  unfold k2_pay2
  simp only [shapeCast_self, maximumf_apply, addf_apply, mulf_apply, subf_apply, divf_apply, broadcast_apply, rsqrt_apply,
    bcastCol_apply, castCol_apply, broadcastTo_1b_ab_apply, mmAdj_apply]
  rw [laneSum_apply]
  simp only [shapeCast_self, maximumf_apply, addf_apply, mulf_apply, subf_apply, divf_apply, broadcast_apply, rsqrt_apply,
    bcastCol_apply, castCol_apply, broadcastTo_1b_ab_apply, mmAdj_apply]
  rw [laneSum_apply]
  simp only [shapeCast_self, maximumf_apply, addf_apply, mulf_apply, subf_apply, divf_apply, broadcast_apply, rsqrt_apply,
    bcastCol_apply, castCol_apply, broadcastTo_1b_ab_apply, mmAdj_apply]
  rw [laneSum_apply]
  simp only [shapeCast_self, maximumf_apply, addf_apply, mulf_apply, subf_apply, divf_apply, broadcast_apply, rsqrt_apply,
    bcastCol_apply, castCol_apply, broadcastTo_1b_ab_apply, mmAdj_apply]
  exact congrArg₂ max rfl Ideal.ofBits_zero_f32

/-- The block stored as the layer's activation holds the normalised block's entries. -/
theorem k2_pay3_apply (x0 : Vec Ideal S1000x10000 .bf16) (x1 : Vec Ideal S10000x256 .bf16) (x2 x3 x4 : Vec Ideal S1x256 .f32)
    (i : S1000x256.Idx) : k2_pay3 x0 x1 x2 x3 x4 i = k2_pay2 x0 x1 x2 x3 x4 i := rfl

/-- So does the block handed to the product with the next weight. -/
theorem k2_pay4_apply (x0 : Vec Ideal S1000x10000 .bf16) (x1 : Vec Ideal S10000x256 .bf16) (x2 x3 x4 : Vec Ideal S1x256 .f32)
    (i : S1000x256.Idx) : k2_pay4 x0 x1 x2 x3 x4 i = k2_pay2 x0 x1 x2 x3 x4 i := rfl

/-- The product of an activation block with the next weight, at (p, q): the sum over the 256 features. -/
theorem k2_pay1_apply (a : FVec Ideal S1000x256 .bf16) (w : Vec Ideal S256x256 .bf16) (p : Fin 1000) (q : Fin 256) :
    k2_pay1 a w (ix2 p q) = ∑ l : Fin 256, a (ix2 p l) * w (ix2 l q) := by
  unfold k2_pay1
  simp only [shapeCast_self, truncf_apply, mmW_apply]

end Cert.KRegion
-- ==== Proof.Region2.lean ====
/-
  What the second layer's region leaves in its two output arrays, as functions of the arrays it finds on entry.
  The region visits ten grid points; point t stages rows 1000 t … 1000 t + 999 of the adjacency together with the whole
  support, the bias, scale and shift rows and the next weight, and writes rows 1000 t … 1000 t + 999 of both outputs.
  An entry (p, q) of what point t writes to the first output is the normalised block there, which the payload lemma
  reads as the row formula over row p of the adjacency's block; that row is row 1000 t + p of the adjacency, so the
  entry is the specification's layer at (1000 t + p, q).  The second output's entry is the sum over the 256 features of
  the same layer's row times the next weight's column.  Row r of either output lies in the block of point r / 1000, so
  the ten blocks cover each array and it ends holding the layer, respectively the layer times the next weight.
-/
import proofs.«100710_g19155554140324_cont_8to1_1621_9_alg».proof.Proof.Gen.KernelIdeal.Frame
import proofs.«100710_g19155554140324_cont_8to1_1621_9_alg».proof.Proof.Spec
import proofs.«100710_g19155554140324_cont_8to1_1621_9_alg».proof.Proof.Region2Pay
import Idealize.ShloMosaic.Lib.Pipeline.Value
import Idealize.ShloMosaic.Lib.ValueIdx

set_option maxRecDepth 16384

noncomputable section

namespace Cert.KRegion

open Cert.KernelIdeal Cert.KernelIdeal.Gen Cert.Spec Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- The index maps over the ten grid points: the adjacency's block and the two outputs' blocks are row block t; the
    support, the bias, scale and shift rows and the next weight are whole arrays, block (0, 0). -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-! The region's input arrays as it finds them, typed as matrices of extended reals: the adjacency, the support,
    the bias, scale and shift rows, the next weight. -/
abbrev adj2 (c : Dev nD) : Mat 10000 10000 := V c (Pipeline.arrRef spec2 0)
abbrev sup2 (c : Dev nD) : Mat 10000 256 := V c (Pipeline.arrRef spec2 1)
abbrev bias2 (c : Dev nD) : Mat 1 256 := V c (Pipeline.arrRef spec2 2)
abbrev scale2 (c : Dev nD) : Mat 1 256 := V c (Pipeline.arrRef spec2 3)
abbrev shift2 (c : Dev nD) : Mat 1 256 := V c (Pipeline.arrRef spec2 4)
abbrev next2 (c : Dev nD) : Mat 256 256 := V c (Pipeline.arrRef spec2 5)

/-- What the layer's activation array ends holding: the layer of the specification, of those arrays. -/
abbrev L2 (c : Dev nD) : Mat 10000 256 :=
  layerK (adj2 V c) (sup2 V c) (fun j => bias2 V c (ix2 0 j)) (fun j => scale2 V c (ix2 0 j)) (fun j => shift2 V c (ix2 0 j))

/-- Row p of the adjacency's block at point t is row 1000 t + p of the adjacency. -/
theorem iblk2_0_apply (c : Dev nD) (t : Fin cfg2.N) (p : Fin 1000) (l : Fin 10000) (r : Fin 10000) (hr : r.val = t.val * 1000 + p.val) :
    (iblk2 V c 0 t : Vec Ideal S1000x10000 .bf16) (ix2 p l) = adj2 V c (ix2 r l) := by
  obtain ⟨e0, e1, -⟩ := idx2 t
  unfold iblk2
  show V c (Pipeline.arrRef spec2 0) (((cfg2.win 0).blk t).view.emb (ix2 p l)) = V c (Pipeline.arrRef spec2 0) (ix2 r l)
  refine congrArg _ (funext fun a => Fin.ext ?_)
  match a with
  | ⟨0, _⟩ => show win2_0.index t (0 : Fin 2) * 1000 + 1 * p.val = r.val; omega
  | ⟨1, _⟩ => show win2_0.index t (1 : Fin 2) * 10000 + 1 * l.val = l.val; omega

/-- Window 1's block at every point is its whole array. -/
theorem iblk2_1_eq (c : Dev nD) (t : Fin cfg2.N) : (iblk2 V c 1 t : Vec Ideal S10000x256 .bf16) = sup2 V c := by
  obtain ⟨-, -, e0, e1, -⟩ := idx2 t
  funext y
  unfold iblk2
  show V c (Pipeline.arrRef spec2 1) (((cfg2.win 1).blk t).view.emb y) = V c (Pipeline.arrRef spec2 1) y
  refine congrArg _ (funext fun a => Fin.ext ?_)
  match a with
  | ⟨0, _⟩ => show win2_1.index t (0 : Fin 2) * 10000 + 1 * (y 0).val = (y 0).val; omega
  | ⟨1, _⟩ => show win2_1.index t (1 : Fin 2) * 256 + 1 * (y 1).val = (y 1).val; omega

/-- Window 2's block at every point is its whole array. -/
theorem iblk2_2_eq (c : Dev nD) (t : Fin cfg2.N) : (iblk2 V c 2 t : Vec Ideal S1x256 .f32) = bias2 V c := by
  obtain ⟨-, -, -, -, e0, e1, -⟩ := idx2 t
  funext y
  unfold iblk2
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 256 + 1 * (y 1).val = (y 1).val; omega

/-- Window 3's block at every point is its whole array. -/
theorem iblk2_3_eq (c : Dev nD) (t : Fin cfg2.N) : (iblk2 V c 3 t : Vec Ideal S1x256 .f32) = scale2 V c := by
  obtain ⟨-, -, -, -, -, -, e0, e1, -⟩ := idx2 t
  funext y
  unfold iblk2
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 256 + 1 * (y 1).val = (y 1).val; omega

/-- Window 4's block at every point is its whole array. -/
theorem iblk2_4_eq (c : Dev nD) (t : Fin cfg2.N) : (iblk2 V c 4 t : Vec Ideal S1x256 .f32) = shift2 V c := by
  obtain ⟨-, -, -, -, -, -, -, -, e0, e1, -⟩ := idx2 t
  funext y
  unfold iblk2
  show V c (Pipeline.arrRef spec2 4) (((cfg2.win 4).blk t).view.emb y) = V c (Pipeline.arrRef spec2 4) y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 256 + 1 * (y 1).val = (y 1).val; omega

/-- Window 5's block at every point is its whole array. -/
theorem iblk2_5_eq (c : Dev nD) (t : Fin cfg2.N) : (iblk2 V c 5 t : Vec Ideal S256x256 .bf16) = next2 V c := by
  obtain ⟨-, -, -, -, -, -, -, -, -, -, e0, e1, -⟩ := idx2 t
  funext y
  unfold iblk2
  show V c (Pipeline.arrRef spec2 5) (((cfg2.win 5).blk t).view.emb y) = V c (Pipeline.arrRef spec2 5) y
  refine congrArg _ (funext fun a => Fin.ext ?_)
  match a with
  | ⟨0, _⟩ => show win2_5.index t (0 : Fin 2) * 256 + 1 * (y 0).val = (y 0).val; omega
  | ⟨1, _⟩ => show win2_5.index t (1 : Fin 2) * 256 + 1 * (y 1).val = (y 1).val; omega

/-- THE NORMALISED BLOCK OF POINT t IS ROWS 1000 t … 1000 t + 999 OF THE LAYER: at (p, q) it is the layer at (1000 t + p, q). -/
theorem pay2_blk (c : Dev nD) (t : Fin cfg2.N) (p : Fin 1000) (q : Fin 256) (r : Fin 10000) (hr : r.val = t.val * 1000 + p.val) :
    k2_pay2 (iblk2 V c 0 t) (iblk2 V c 1 t) (iblk2 V c 2 t) (iblk2 V c 3 t) (iblk2 V c 4 t) (ix2 p q) = L2 V c (ix2 r q) := by
  refine (k2_pay2_apply (iblk2 V c 0 t) (iblk2 V c 1 t) (iblk2 V c 2 t) (iblk2 V c 3 t) (iblk2 V c 4 t) p q).trans ?_
  have h0 : ∀ l : Fin 10000, (iblk2 V c 0 t : Vec Ideal S1000x10000 .bf16) (ix2 p l) = adj2 V c (ix2 r l) :=
    fun l => iblk2_0_apply V c t p l r hr
  show lnK _ _ _ q
    = lnK (fun j => (∑ l : Fin 10000, adj2 V c (ix2 r l) * sup2 V c (ix2 l j)) + bias2 V c (ix2 0 j))
        (fun j => scale2 V c (ix2 0 j)) (fun j => shift2 V c (ix2 0 j)) q
  simp only [h0, iblk2_1_eq V c t, iblk2_2_eq V c t, iblk2_3_eq V c t, iblk2_4_eq V c t]

theorem mem_blk2_6 (t : Fin cfg2.N) (i : S10000x256.Idx) :
    i ∈ ((cfg2.win 6).blk t).view.set ↔ ∀ a : Fin 2, win2_6.index t a * S1000x256.size a ≤ (i a).val ∧ (i a).val < win2_6.index t a * S1000x256.size a + S1000x256.size a := by
  show i ∈ ((View.whole main_v11_0).slice (win2_6.rect t)).set ↔ _
  rw [View.set_slice_whole, Rect.mem_set_unit]
  exact Iff.rfl

theorem mem_blk2_7 (t : Fin cfg2.N) (i : S10000x256.Idx) :
    i ∈ ((cfg2.win 7).blk t).view.set ↔ ∀ a : Fin 2, win2_7.index t a * S1000x256.size a ≤ (i a).val ∧ (i a).val < win2_7.index t a * S1000x256.size a + S1000x256.size a := by
  show i ∈ ((View.whole main_v11_1).slice (win2_7.rect t)).set ↔ _
  rw [View.set_slice_whole, Rect.mem_set_unit]
  exact Iff.rfl

/-- Row r lies in the block of point r / 1000. -/

theorem cover2_6 (i : S10000x256.Idx) : ∃ t : Fin cfg2.N, (cfg2.win 6).flush t = true ∧ i ∈ ((cfg2.win 6).blk t).view.set := by
  have hi0 : (i 0).val < 10000 := (i 0).isLt
  have hi1 : (i 1).val < 256 := (i 1).isLt
  have hN : cfg2.N = 10 := N_2
  refine ⟨⟨(i 0).val / 1000, by omega⟩, flush2_6 _, ?_⟩
  rw [mem_blk2_6]
  obtain ⟨-, -, -, -, -, -, -, -, -, -, -, -, e0, e1, -⟩ := idx2 ⟨(i 0).val / 1000, by omega⟩
  intro a
  match a with
  | ⟨0, _⟩ =>
    show win2_6.index _ (0 : Fin 2) * 1000 ≤ (i 0).val ∧ (i 0).val < win2_6.index _ (0 : Fin 2) * 1000 + 1000
    rw [e0]; show (i 0).val / 1000 * 1000 ≤ (i 0).val ∧ (i 0).val < (i 0).val / 1000 * 1000 + 1000; omega
  | ⟨1, _⟩ =>
    show win2_6.index _ (1 : Fin 2) * 256 ≤ (i 1).val ∧ (i 1).val < win2_6.index _ (1 : Fin 2) * 256 + 256
    rw [e1]; omega

theorem cover2_7 (i : S10000x256.Idx) : ∃ t : Fin cfg2.N, (cfg2.win 7).flush t = true ∧ i ∈ ((cfg2.win 7).blk t).view.set := by
  have hi0 : (i 0).val < 10000 := (i 0).isLt
  have hi1 : (i 1).val < 256 := (i 1).isLt
  have hN : cfg2.N = 10 := N_2
  refine ⟨⟨(i 0).val / 1000, by omega⟩, flush2_7 _, ?_⟩
  rw [mem_blk2_7]
  obtain ⟨-, -, -, -, -, -, -, -, -, -, -, -, -, -, e0, e1⟩ := idx2 ⟨(i 0).val / 1000, by omega⟩
  intro a
  match a with
  | ⟨0, _⟩ =>
    show win2_7.index _ (0 : Fin 2) * 1000 ≤ (i 0).val ∧ (i 0).val < win2_7.index _ (0 : Fin 2) * 1000 + 1000
    rw [e0]; show (i 0).val / 1000 * 1000 ≤ (i 0).val ∧ (i 0).val < (i 0).val / 1000 * 1000 + 1000; omega
  | ⟨1, _⟩ =>
    show win2_7.index _ (1 : Fin 2) * 256 ≤ (i 1).val ∧ (i 1).val < win2_7.index _ (1 : Fin 2) * 256 + 256
    rw [e1]; omega

/-- WHAT POINT t WRITES BACK to the activation array is block t of the layer. -/
theorem flushed2_6_eq (c : Dev nD) (t : Fin cfg2.N) :
    (dat2 V c).flushed 6 t = ((cfg2.win 6).blk t).view.read (Elt Ideal) (L2 V c) := by
  show (cfg2.win 6).cut (grid2.coords t) ((dat2 V c).after 6 t) = _
  rw [after2_6]
  unfold out2_6
  rw [View.canon_unit_zero zeroOffsets]
  simp only [View.ld_unit_zero (S := S1000x10000) zeroOffsets, View.ld_unit_zero (S := S10000x256) zeroOffsets,
    View.ld_unit_zero (S := S1x256) zeroOffsets]
  obtain ⟨-, -, -, -, -, -, -, -, -, -, -, -, e0, e1, -⟩ := idx2 t
  have hN : cfg2.N = 10 := N_2
  funext j
  obtain ⟨p, q, rfl⟩ : ∃ (p : Fin 1000) (q : Fin 256), j = ix2 p q := ⟨j 0, j 1, eq_ix2 j⟩
  have ht : t.val < 10 := hN ▸ t.isLt
  have he : ((cfg2.win 6).blk t).view.emb (ix2 p q) = (ix2 (⟨t.val * 1000 + p.val, by omega⟩ : Fin 10000) q : S10000x256.Idx) :=
    funext fun a => Fin.ext (by
      match a with
      | ⟨0, _⟩ => show win2_6.index t (0 : Fin 2) * 1000 + 1 * p.val = t.val * 1000 + p.val; omega
      | ⟨1, _⟩ => show win2_6.index t (1 : Fin 2) * 256 + 1 * q.val = q.val; omega)
  show k2_pay3 (iblk2 V c 0 t) (iblk2 V c 1 t) (iblk2 V c 2 t) (iblk2 V c 3 t) (iblk2 V c 4 t) (ix2 p q)
    = L2 V c (((cfg2.win 6).blk t).view.emb (ix2 p q))
  rw [he]
  exact pay2_blk V c t p q _ rfl

/-- THE LAYER'S ACTIVATION: when the region ends, output window 6's array holds the layer of the specification. -/
theorem final2_6 (c : Dev nD) : (dat2 V c).arrAt 6 cfg2.N
    = layerK (V c (Pipeline.arrRef spec2 0)) (V c (Pipeline.arrRef spec2 1)) (fun j => V c (Pipeline.arrRef spec2 2) (ix2 0 j))
        (fun j => V c (Pipeline.arrRef spec2 3) (ix2 0 j)) (fun j => V c (Pipeline.arrRef spec2 4) (ix2 0 j)) :=
  (dat2 V c).arrAt_eq_of_cover 6 (L2 V c) (fun t _ => flushed2_6_eq V c t) cover2_6

/-- What the second output array ends holding: the layer times the next weight. -/
abbrev P2 (c : Dev nD) : Mat 10000 256 := mm (L2 V c) (next2 V c)

/-- WHAT POINT t WRITES BACK to the second output array is block t of the layer times the next weight. -/
theorem flushed2_7_eq (c : Dev nD) (t : Fin cfg2.N) :
    (dat2 V c).flushed 7 t = ((cfg2.win 7).blk t).view.read (Elt Ideal) (P2 V c) := by
  show (cfg2.win 7).cut (grid2.coords t) ((dat2 V c).after 7 t) = _
  rw [after2_7]
  unfold out2_7
  rw [View.canon_unit_zero zeroOffsets]
  simp only [View.ld_unit_zero (S := S1000x10000) zeroOffsets, View.ld_unit_zero (S := S10000x256) zeroOffsets,
    View.ld_unit_zero (S := S1x256) zeroOffsets, View.ld_unit_zero (S := S256x256) zeroOffsets]
  obtain ⟨-, -, -, -, -, -, -, -, -, -, -, -, -, -, e0, e1⟩ := idx2 t
  have hN : cfg2.N = 10 := N_2
  funext j
  obtain ⟨p, q, rfl⟩ : ∃ (p : Fin 1000) (q : Fin 256), j = ix2 p q := ⟨j 0, j 1, eq_ix2 j⟩
  have ht : t.val < 10 := hN ▸ t.isLt
  have he : ((cfg2.win 7).blk t).view.emb (ix2 p q) = (ix2 (⟨t.val * 1000 + p.val, by omega⟩ : Fin 10000) q : S10000x256.Idx) :=
    funext fun a => Fin.ext (by
      match a with
      | ⟨0, _⟩ => show win2_7.index t (0 : Fin 2) * 1000 + 1 * p.val = t.val * 1000 + p.val; omega
      | ⟨1, _⟩ => show win2_7.index t (1 : Fin 2) * 256 + 1 * q.val = q.val; omega)
  show k2_pay1 (k2_pay4 (iblk2 V c 0 t) (iblk2 V c 1 t) (iblk2 V c 2 t) (iblk2 V c 3 t) (iblk2 V c 4 t)) (iblk2 V c 5 t) (ix2 p q)
    = P2 V c (((cfg2.win 7).blk t).view.emb (ix2 p q))
  rw [he]
  refine (k2_pay1_apply (k2_pay4 (iblk2 V c 0 t) (iblk2 V c 1 t) (iblk2 V c 2 t) (iblk2 V c 3 t) (iblk2 V c 4 t)) (iblk2 V c 5 t) p q).trans ?_
  show (∑ l : Fin 256, k2_pay4 (iblk2 V c 0 t) (iblk2 V c 1 t) (iblk2 V c 2 t) (iblk2 V c 3 t) (iblk2 V c 4 t) (ix2 p l)
        * (iblk2 V c 5 t : Vec Ideal S256x256 .bf16) (ix2 l q))
    = ∑ l : Fin 256, L2 V c (ix2 (⟨t.val * 1000 + p.val, by omega⟩ : Fin 10000) l) * next2 V c (ix2 l q)
  rw [iblk2_5_eq V c t]
  refine Finset.sum_congr rfl fun l _ => ?_
  exact congrArg (· * next2 V c (ix2 l q))
    ((k2_pay4_apply (iblk2 V c 0 t) (iblk2 V c 1 t) (iblk2 V c 2 t) (iblk2 V c 3 t) (iblk2 V c 4 t) (ix2 p l)).trans
      (pay2_blk V c t p l _ rfl))

/-- THE NEXT SUPPORT: when the region ends, output window 7's array holds the layer times the next weight. -/
theorem final2_7 (c : Dev nD) : (dat2 V c).arrAt 7 cfg2.N
    = mm (layerK (V c (Pipeline.arrRef spec2 0)) (V c (Pipeline.arrRef spec2 1)) (fun j => V c (Pipeline.arrRef spec2 2) (ix2 0 j))
        (fun j => V c (Pipeline.arrRef spec2 3) (ix2 0 j)) (fun j => V c (Pipeline.arrRef spec2 4) (ix2 0 j))) (V c (Pipeline.arrRef spec2 5)) :=
  (dat2 V c).arrAt_eq_of_cover 7 (P2 V c) (fun t _ => flushed2_7_eq V c t) cover2_7

end Cert.KRegion
-- ==== Proof.Region3Pay.lean ====
/-
  The arithmetic of one grid point of the last region, read entry by entry over the extended reals.  The point
  normalises its 1000 rows of the third layer exactly as a point of the second layer does (the same chain of
  operations), and then applies the head to those rows and to the same rows of the two earlier activations: three
  products with the three [256, 256] row blocks of the head's first weight, added in order, plus the bias row,
  rectified, multiplied entry by entry with the last weight laid out as a row, summed over the 256 lanes, plus the last
  bias.  Read at row p this is the head of the specification at that row.
-/
import proofs.«100710_g19155554140324_cont_8to1_1621_9_alg».proof.Proof.Gen.KernelIdeal.Skeleton
import proofs.«100710_g19155554140324_cont_8to1_1621_9_alg».proof.Proof.Spec
import proofs.«100710_g19155554140324_cont_8to1_1621_9_alg».proof.Proof.Region2Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KRegion

open Cert.KernelIdeal Cert.KernelIdeal.Gen Cert.Spec Idealize.ShloMosaic Idealize.ShloMosaic.ValueIdx

/-- The third layer's normalised block is the same chain of operations as the second layer's. -/
theorem k3_pay2_eq (x0 : Vec Ideal S1000x10000 .bf16) (x1 : Vec Ideal S10000x256 .bf16) (x2 x3 x4 : Vec Ideal S1x256 .f32) :
    k3_pay2 x0 x1 x2 x3 x4 = k2_pay2 x0 x1 x2 x3 x4 := rfl

/-- An activation block handed on under a cast to its own shape is unchanged. -/
theorem k3_pay3_eq (v : Vec Ideal S1000x256 .bf16) : k3_pay3 v = v := by
  unfold k3_pay3
  exact shapeCast_self v _

/-- THE HEAD at row p of the point: with a1, a2 the rows of the two earlier activations and a3 the rows just normalised,
    the sum over the 256 lanes j of  max (a1 W1 + a2 W2 + a3 W3 + bias) 0  at (p, j) times the last weight's entry j,
    plus the last bias. -/
theorem k3_pay1_apply (a3 : FVec Ideal S1000x256 .f32) (a1 : FVec Ideal S1000x256 .bf16) (w1 : Vec Ideal S256x256 .bf16)
    (a2 : Vec Ideal S1000x256 .bf16) (w2 w3 : Vec Ideal S256x256 .bf16) (fb lw : Vec Ideal S1x256 .f32) (lb : Vec Ideal S1x1 .f32)
    (p : Fin 1000) :
    k3_pay1 a3 a1 w1 a2 w2 w3 fb lw lb (ix2 p (0 : Fin 1))
      = (∑ j : Fin 256, max ((∑ l : Fin 256, a1 (ix2 p l) * w1 (ix2 l j)) + (∑ l : Fin 256, a2 (ix2 p l) * w2 (ix2 l j))
            + (∑ l : Fin 256, a3 (ix2 p l) * w3 (ix2 l j)) + fb (ix2 (0 : Fin 1) j)) 0 * lw (ix2 (0 : Fin 1) j))
          + lb (ix2 (0 : Fin 1) (0 : Fin 1)) := by
  unfold k3_pay1
  simp only [shapeCast_self, truncf_apply, maximumf_apply, addf_apply, mulf_apply, broadcast_apply, castCol_apply,
    broadcastTo_1b_ab_apply, mmW_apply]
  rw [laneSum_apply]
  simp only [shapeCast_self, truncf_apply, maximumf_apply, addf_apply, mulf_apply, broadcast_apply, castCol_apply,
    broadcastTo_1b_ab_apply, mmW_apply]
  exact congrArg₂ (· + ·) (Finset.sum_congr rfl fun j _ =>
    congrArg₂ (· * ·) (congrArg₂ max rfl Ideal.ofBits_zero_f32) rfl) rfl

end Cert.KRegion
-- ==== Proof.Region3.lean ====
/-
  What the last region leaves in its output array, as a function of the arrays it finds on entry.  The region visits
  ten grid points; point t stages rows 1000 t … 1000 t + 999 of the adjacency and of the two earlier activations
  together with the whole support, the bias, scale and shift rows, the three row blocks of the head's first weight, its
  bias row, the last weight as a row and the last bias, and writes entries 1000 t … 1000 t + 999 of the output column.
  Entry p of what point t writes is the head at row p of the point, which the payload lemma reads as a sum over the
  256 lanes; in it the rows of the three activations are rows 1000 t + p of the first activation, of the second, and of
  the third layer of the specification (the same argument as for the second layer's region), so the entry is the
  specification's head at row 1000 t + p.  Entry r lies in the block of point r / 1000, so the ten blocks cover the
  output and it ends holding the head at every row.
-/
import proofs.«100710_g19155554140324_cont_8to1_1621_9_alg».proof.Proof.Gen.KernelIdeal.Frame
import proofs.«100710_g19155554140324_cont_8to1_1621_9_alg».proof.Proof.Spec
import proofs.«100710_g19155554140324_cont_8to1_1621_9_alg».proof.Proof.Region2Pay
import proofs.«100710_g19155554140324_cont_8to1_1621_9_alg».proof.Proof.Region3Pay
import Idealize.ShloMosaic.Lib.Pipeline.Value
import Idealize.ShloMosaic.Lib.ValueIdx

set_option maxRecDepth 16384

noncomputable section

namespace Cert.KRegion

open Cert.KernelIdeal Cert.KernelIdeal.Gen Cert.Spec Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem zeroOffsets3 : (![0, 0] : Fin 2 → Nat) = fun _ => 0 := funext fun a => by fin_cases a <;> rfl

/-- The index maps over the ten grid points: the adjacency, the two earlier activations and the output move with
    the point, row block t; every other window is a whole array, block (0, 0). -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = 0 ∧ win3_10.index t (1 : Fin 2) = 0
    ∧ win3_11.index t (0 : Fin 2) = 0 ∧ win3_11.index t (1 : Fin 2) = 0
    ∧ win3_12.index t (0 : Fin 2) = 0 ∧ win3_12.index t (1 : Fin 2) = 0
    ∧ win3_13.index t (0 : Fin 2) = t.val ∧ win3_13.index t (1 : Fin 2) = 0 :=
  (by decide +kernel : ∀ t : Fin grid3.N, _)

/-! The region's input arrays as it finds them, typed as matrices of extended reals: the adjacency, the support, the
    bias, scale and shift rows, the first and second activations, the three row blocks of the head's first weight, its
    bias row, the last weight as a row, the last bias. -/
abbrev adj3 (c : Dev nD) : Mat 10000 10000 := V c (Pipeline.arrRef spec3 0)
abbrev sup3 (c : Dev nD) : Mat 10000 256 := V c (Pipeline.arrRef spec3 1)
abbrev bias3 (c : Dev nD) : Mat 1 256 := V c (Pipeline.arrRef spec3 2)
abbrev scale3 (c : Dev nD) : Mat 1 256 := V c (Pipeline.arrRef spec3 3)
abbrev shift3 (c : Dev nD) : Mat 1 256 := V c (Pipeline.arrRef spec3 4)
abbrev act1 (c : Dev nD) : Mat 10000 256 := V c (Pipeline.arrRef spec3 5)
abbrev act2 (c : Dev nD) : Mat 10000 256 := V c (Pipeline.arrRef spec3 6)
abbrev hw1 (c : Dev nD) : Mat 256 256 := V c (Pipeline.arrRef spec3 7)
abbrev hw2 (c : Dev nD) : Mat 256 256 := V c (Pipeline.arrRef spec3 8)
abbrev hw3 (c : Dev nD) : Mat 256 256 := V c (Pipeline.arrRef spec3 9)
abbrev hbias (c : Dev nD) : Mat 1 256 := V c (Pipeline.arrRef spec3 10)
abbrev lastw (c : Dev nD) : Mat 1 256 := V c (Pipeline.arrRef spec3 11)
abbrev lastb (c : Dev nD) : Mat 1 1 := V c (Pipeline.arrRef spec3 12)

/-- The third layer of the specification, of those arrays. -/
abbrev L3 (c : Dev nD) : Mat 10000 256 :=
  layerK (adj3 V c) (sup3 V c) (fun j => bias3 V c (ix2 0 j)) (fun j => scale3 V c (ix2 0 j)) (fun j => shift3 V c (ix2 0 j))

/-- What the output column ends holding: the head of the specification at each row. -/
abbrev H3 (c : Dev nD) : Mat 10000 1 := fun i =>
  headK (act1 V c) (act2 V c) (L3 V c) (hw1 V c) (hw2 V c) (hw3 V c) (fun j => hbias V c (ix2 0 j)) (fun j => lastw V c (ix2 0 j))
    (lastb V c (ix2 0 0)) (i 0)

/-- Row p of window 0's block at point t is row 1000 t + p of its array. -/
theorem iblk3_0_apply (c : Dev nD) (t : Fin cfg3.N) (p : Fin 1000) (l : Fin 10000) (r : Fin 10000) (hr : r.val = t.val * 1000 + p.val) :
    (iblk3 V c 0 t : Vec Ideal S1000x10000 .bf16) (ix2 p l) = adj3 V c (ix2 r l) := by
  obtain ⟨e0, e1, -⟩ := idx3 t
  unfold iblk3
  show V c (Pipeline.arrRef spec3 0) (((cfg3.win 0).blk t).view.emb (ix2 p l)) = V c (Pipeline.arrRef spec3 0) (ix2 r l)
  refine congrArg _ (funext fun a => Fin.ext ?_)
  match a with
  | ⟨0, _⟩ => show win3_0.index t (0 : Fin 2) * 1000 + 1 * p.val = r.val; omega
  | ⟨1, _⟩ => show win3_0.index t (1 : Fin 2) * 10000 + 1 * l.val = l.val; omega

/-- Row p of window 5's block at point t is row 1000 t + p of its array. -/
theorem iblk3_5_apply (c : Dev nD) (t : Fin cfg3.N) (p : Fin 1000) (l : Fin 256) (r : Fin 10000) (hr : r.val = t.val * 1000 + p.val) :
    (iblk3 V c 5 t : Vec Ideal S1000x256 .bf16) (ix2 p l) = act1 V c (ix2 r l) := by
  obtain ⟨-, -, -, -, -, -, -, -, -, -, e0, e1, -⟩ := idx3 t
  unfold iblk3
  show V c (Pipeline.arrRef spec3 5) (((cfg3.win 5).blk t).view.emb (ix2 p l)) = V c (Pipeline.arrRef spec3 5) (ix2 r l)
  refine congrArg _ (funext fun a => Fin.ext ?_)
  match a with
  | ⟨0, _⟩ => show win3_5.index t (0 : Fin 2) * 1000 + 1 * p.val = r.val; omega
  | ⟨1, _⟩ => show win3_5.index t (1 : Fin 2) * 256 + 1 * l.val = l.val; omega

/-- Row p of window 6's block at point t is row 1000 t + p of its array. -/
theorem iblk3_6_apply (c : Dev nD) (t : Fin cfg3.N) (p : Fin 1000) (l : Fin 256) (r : Fin 10000) (hr : r.val = t.val * 1000 + p.val) :
    (iblk3 V c 6 t : Vec Ideal S1000x256 .bf16) (ix2 p l) = act2 V c (ix2 r l) := by
  obtain ⟨-, -, -, -, -, -, -, -, -, -, -, -, e0, e1, -⟩ := idx3 t
  unfold iblk3
  show V c (Pipeline.arrRef spec3 6) (((cfg3.win 6).blk t).view.emb (ix2 p l)) = V c (Pipeline.arrRef spec3 6) (ix2 r l)
  refine congrArg _ (funext fun a => Fin.ext ?_)
  match a with
  | ⟨0, _⟩ => show win3_6.index t (0 : Fin 2) * 1000 + 1 * p.val = r.val; omega
  | ⟨1, _⟩ => show win3_6.index t (1 : Fin 2) * 256 + 1 * l.val = l.val; omega

/-- Window 1's block at every point is its whole array. -/
theorem iblk3_1_eq (c : Dev nD) (t : Fin cfg3.N) : (iblk3 V c 1 t : Vec Ideal S10000x256 .bf16) = sup3 V c := by
  obtain ⟨-, -, e0, e1, -⟩ := idx3 t
  funext y
  unfold iblk3
  show V c (Pipeline.arrRef spec3 1) (((cfg3.win 1).blk t).view.emb y) = V c (Pipeline.arrRef spec3 1) y
  refine congrArg _ (funext fun a => Fin.ext ?_)
  match a with
  | ⟨0, _⟩ => show win3_1.index t (0 : Fin 2) * 10000 + 1 * (y 0).val = (y 0).val; omega
  | ⟨1, _⟩ => show win3_1.index t (1 : Fin 2) * 256 + 1 * (y 1).val = (y 1).val; omega

/-- Window 2's block at every point is its whole array. -/
theorem iblk3_2_eq (c : Dev nD) (t : Fin cfg3.N) : (iblk3 V c 2 t : Vec Ideal S1x256 .f32) = bias3 V c := by
  obtain ⟨-, -, -, -, e0, e1, -⟩ := idx3 t
  funext y
  unfold iblk3
  show V c (Pipeline.arrRef spec3 2) (((cfg3.win 2).blk t).view.emb y) = V c (Pipeline.arrRef spec3 2) y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 256 + 1 * (y 1).val = (y 1).val; omega

/-- Window 3's block at every point is its whole array. -/
theorem iblk3_3_eq (c : Dev nD) (t : Fin cfg3.N) : (iblk3 V c 3 t : Vec Ideal S1x256 .f32) = scale3 V c := by
  obtain ⟨-, -, -, -, -, -, e0, e1, -⟩ := idx3 t
  funext y
  unfold iblk3
  show V c (Pipeline.arrRef spec3 3) (((cfg3.win 3).blk t).view.emb y) = V c (Pipeline.arrRef spec3 3) y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 256 + 1 * (y 1).val = (y 1).val; omega

/-- Window 4's block at every point is its whole array. -/
theorem iblk3_4_eq (c : Dev nD) (t : Fin cfg3.N) : (iblk3 V c 4 t : Vec Ideal S1x256 .f32) = shift3 V c := by
  obtain ⟨-, -, -, -, -, -, -, -, e0, e1, -⟩ := idx3 t
  funext y
  unfold iblk3
  show V c (Pipeline.arrRef spec3 4) (((cfg3.win 4).blk t).view.emb y) = V c (Pipeline.arrRef spec3 4) y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 256 + 1 * (y 1).val = (y 1).val; omega

/-- Window 7's block at every point is its whole array. -/
theorem iblk3_7_eq (c : Dev nD) (t : Fin cfg3.N) : (iblk3 V c 7 t : Vec Ideal S256x256 .bf16) = hw1 V c := by
  obtain ⟨-, -, -, -, -, -, -, -, -, -, -, -, -, -, e0, e1, -⟩ := idx3 t
  funext y
  unfold iblk3
  show V c (Pipeline.arrRef spec3 7) (((cfg3.win 7).blk t).view.emb y) = V c (Pipeline.arrRef spec3 7) y
  refine congrArg _ (funext fun a => Fin.ext ?_)
  match a with
  | ⟨0, _⟩ => show win3_7.index t (0 : Fin 2) * 256 + 1 * (y 0).val = (y 0).val; omega
  | ⟨1, _⟩ => show win3_7.index t (1 : Fin 2) * 256 + 1 * (y 1).val = (y 1).val; omega

/-- Window 8's block at every point is its whole array. -/
theorem iblk3_8_eq (c : Dev nD) (t : Fin cfg3.N) : (iblk3 V c 8 t : Vec Ideal S256x256 .bf16) = hw2 V c := by
  obtain ⟨-, -, -, -, -, -, -, -, -, -, -, -, -, -, -, -, e0, e1, -⟩ := idx3 t
  funext y
  unfold iblk3
  show V c (Pipeline.arrRef spec3 8) (((cfg3.win 8).blk t).view.emb y) = V c (Pipeline.arrRef spec3 8) y
  refine congrArg _ (funext fun a => Fin.ext ?_)
  match a with
  | ⟨0, _⟩ => show win3_8.index t (0 : Fin 2) * 256 + 1 * (y 0).val = (y 0).val; omega
  | ⟨1, _⟩ => show win3_8.index t (1 : Fin 2) * 256 + 1 * (y 1).val = (y 1).val; omega

/-- Window 9's block at every point is its whole array. -/
theorem iblk3_9_eq (c : Dev nD) (t : Fin cfg3.N) : (iblk3 V c 9 t : Vec Ideal S256x256 .bf16) = hw3 V c := by
  obtain ⟨-, -, -, -, -, -, -, -, -, -, -, -, -, -, -, -, -, -, e0, e1, -⟩ := idx3 t
  funext y
  unfold iblk3
  show V c (Pipeline.arrRef spec3 9) (((cfg3.win 9).blk t).view.emb y) = V c (Pipeline.arrRef spec3 9) y
  refine congrArg _ (funext fun a => Fin.ext ?_)
  match a with
  | ⟨0, _⟩ => show win3_9.index t (0 : Fin 2) * 256 + 1 * (y 0).val = (y 0).val; omega
  | ⟨1, _⟩ => show win3_9.index t (1 : Fin 2) * 256 + 1 * (y 1).val = (y 1).val; omega

/-- Window 10's block at every point is its whole array. -/
theorem iblk3_10_eq (c : Dev nD) (t : Fin cfg3.N) : (iblk3 V c 10 t : Vec Ideal S1x256 .f32) = hbias V c := by
  obtain ⟨-, -, -, -, -, -, -, -, -, -, -, -, -, -, -, -, -, -, -, -, e0, e1, -⟩ := idx3 t
  funext y
  unfold iblk3
  show V c (Pipeline.arrRef spec3 10) (((cfg3.win 10).blk t).view.emb y) = V c (Pipeline.arrRef spec3 10) y
  refine congrArg _ (funext fun a => Fin.ext ?_)
  match a with
  | ⟨0, _⟩ => show win3_10.index t (0 : Fin 2) * 1 + 1 * (y 0).val = (y 0).val; omega
  | ⟨1, _⟩ => show win3_10.index t (1 : Fin 2) * 256 + 1 * (y 1).val = (y 1).val; omega

/-- Window 11's block at every point is its whole array. -/
theorem iblk3_11_eq (c : Dev nD) (t : Fin cfg3.N) : (iblk3 V c 11 t : Vec Ideal S1x256 .f32) = lastw V c := by
  obtain ⟨-, -, -, -, -, -, -, -, -, -, -, -, -, -, -, -, -, -, -, -, -, -, e0, e1, -⟩ := idx3 t
  funext y
  unfold iblk3
  show V c (Pipeline.arrRef spec3 11) (((cfg3.win 11).blk t).view.emb y) = V c (Pipeline.arrRef spec3 11) y
  refine congrArg _ (funext fun a => Fin.ext ?_)
  match a with
  | ⟨0, _⟩ => show win3_11.index t (0 : Fin 2) * 1 + 1 * (y 0).val = (y 0).val; omega
  | ⟨1, _⟩ => show win3_11.index t (1 : Fin 2) * 256 + 1 * (y 1).val = (y 1).val; omega

/-- Window 12's block at every point is its whole array. -/
theorem iblk3_12_eq (c : Dev nD) (t : Fin cfg3.N) : (iblk3 V c 12 t : Vec Ideal S1x1 .f32) = lastb V c := by
  obtain ⟨-, -, -, -, -, -, -, -, -, -, -, -, -, -, -, -, -, -, -, -, -, -, -, -, e0, e1, -⟩ := idx3 t
  funext y
  unfold iblk3
  show V c (Pipeline.arrRef spec3 12) (((cfg3.win 12).blk t).view.emb y) = V c (Pipeline.arrRef spec3 12) y
  refine congrArg _ (funext fun a => Fin.ext ?_)
  match a with
  | ⟨0, _⟩ => show win3_12.index t (0 : Fin 2) * 1 + 1 * (y 0).val = (y 0).val; omega
  | ⟨1, _⟩ => show win3_12.index t (1 : Fin 2) * 1 + 1 * (y 1).val = (y 1).val; omega

/-- THE NORMALISED BLOCK OF POINT t IS ROWS 1000 t … 1000 t + 999 OF THE THIRD LAYER. -/
theorem pay3_blk (c : Dev nD) (t : Fin cfg3.N) (p : Fin 1000) (q : Fin 256) (r : Fin 10000) (hr : r.val = t.val * 1000 + p.val) :
    k3_pay2 (iblk3 V c 0 t) (iblk3 V c 1 t) (iblk3 V c 2 t) (iblk3 V c 3 t) (iblk3 V c 4 t) (ix2 p q) = L3 V c (ix2 r q) := by
  rw [k3_pay2_eq (iblk3 V c 0 t) (iblk3 V c 1 t) (iblk3 V c 2 t) (iblk3 V c 3 t) (iblk3 V c 4 t)]
  refine (k2_pay2_apply (iblk3 V c 0 t) (iblk3 V c 1 t) (iblk3 V c 2 t) (iblk3 V c 3 t) (iblk3 V c 4 t) p q).trans ?_
  have h0 : ∀ l : Fin 10000, (iblk3 V c 0 t : Vec Ideal S1000x10000 .bf16) (ix2 p l) = adj3 V c (ix2 r l) :=
    fun l => iblk3_0_apply V c t p l r hr
  show lnK _ _ _ q
    = lnK (fun j => (∑ l : Fin 10000, adj3 V c (ix2 r l) * sup3 V c (ix2 l j)) + bias3 V c (ix2 0 j))
        (fun j => scale3 V c (ix2 0 j)) (fun j => shift3 V c (ix2 0 j)) q
  simp only [h0, iblk3_1_eq V c t, iblk3_2_eq V c t, iblk3_3_eq V c t, iblk3_4_eq V c t]

/-- An entry of the output column is in point t's block iff its row is one of t's 1000 rows. -/
theorem mem_blk3_13 (t : Fin cfg3.N) (i : S10000x1.Idx) :
    i ∈ ((cfg3.win 13).blk t).view.set ↔ ∀ a : Fin 2, win3_13.index t a * S1000x1.size a ≤ (i a).val ∧ (i a).val < win3_13.index t a * S1000x1.size a + S1000x1.size a := by
  show i ∈ ((View.whole main_v24).slice (win3_13.rect t)).set ↔ _
  rw [View.set_slice_whole, Rect.mem_set_unit]
  exact Iff.rfl

/-- Row r lies in the block of point r / 1000. -/
theorem cover3_13 (i : S10000x1.Idx) : ∃ t : Fin cfg3.N, (cfg3.win 13).flush t = true ∧ i ∈ ((cfg3.win 13).blk t).view.set := by
  have hi0 : (i 0).val < 10000 := (i 0).isLt
  have hi1 : (i 1).val < 1 := (i 1).isLt
  have hN : cfg3.N = 10 := N_3
  refine ⟨⟨(i 0).val / 1000, by omega⟩, flush3_13 _, ?_⟩
  rw [mem_blk3_13]
  obtain ⟨-, -, -, -, -, -, -, -, -, -, -, -, -, -, -, -, -, -, -, -, -, -, -, -, -, -, e0, e1⟩ := idx3 ⟨(i 0).val / 1000, by omega⟩
  intro a
  match a with
  | ⟨0, _⟩ =>
    show win3_13.index _ (0 : Fin 2) * 1000 ≤ (i 0).val ∧ (i 0).val < win3_13.index _ (0 : Fin 2) * 1000 + 1000
    rw [e0]; show (i 0).val / 1000 * 1000 ≤ (i 0).val ∧ (i 0).val < (i 0).val / 1000 * 1000 + 1000; omega
  | ⟨1, _⟩ =>
    show win3_13.index _ (1 : Fin 2) * 1 ≤ (i 1).val ∧ (i 1).val < win3_13.index _ (1 : Fin 2) * 1 + 1
    rw [e1]; omega

/-- WHAT POINT t WRITES BACK to the output column is block t of the head. -/
theorem flushed3_13_eq (c : Dev nD) (t : Fin cfg3.N) :
    (dat3 V c).flushed 13 t = ((cfg3.win 13).blk t).view.read (Elt Ideal) (H3 V c) := by
  show (cfg3.win 13).cut (grid3.coords t) ((dat3 V c).after 13 t) = _
  rw [after3_13]
  unfold out3_13
  rw [View.canon_unit_zero zeroOffsets3]
  simp only [View.ld_unit_zero (S := S1000x10000) zeroOffsets3, View.ld_unit_zero (S := S10000x256) zeroOffsets3,
    View.ld_unit_zero (S := S1x256) zeroOffsets3, View.ld_unit_zero (S := S1000x256) zeroOffsets3,
    View.ld_unit_zero (S := S256x256) zeroOffsets3, View.ld_unit_zero (S := S1x1) zeroOffsets3]
  obtain ⟨-, -, -, -, -, -, -, -, -, -, -, -, -, -, -, -, -, -, -, -, -, -, -, -, -, -, e0, e1⟩ := idx3 t
  have hN : cfg3.N = 10 := N_3
  funext j
  obtain ⟨p, u, rfl⟩ : ∃ (p : Fin 1000) (u : Fin 1), j = ix2 p u := ⟨j 0, j 1, eq_ix2 j⟩
  obtain rfl : u = 0 := Subsingleton.elim _ _
  have ht : t.val < 10 := hN ▸ t.isLt
  have he : ((cfg3.win 13).blk t).view.emb (ix2 p (0 : Fin 1)) = (ix2 (⟨t.val * 1000 + p.val, by omega⟩ : Fin 10000) (0 : Fin 1) : S10000x1.Idx) :=
    funext fun a => Fin.ext (by
      match a with
      | ⟨0, _⟩ => show win3_13.index t (0 : Fin 2) * 1000 + 1 * p.val = t.val * 1000 + p.val; omega
      | ⟨1, _⟩ => show win3_13.index t (1 : Fin 2) * 1 + 1 * 0 = 0; omega)
  show k3_pay1 (k3_pay2 (iblk3 V c 0 t) (iblk3 V c 1 t) (iblk3 V c 2 t) (iblk3 V c 3 t) (iblk3 V c 4 t)) (k3_pay3 (iblk3 V c 5 t)) (iblk3 V c 7 t) (iblk3 V c 6 t) (iblk3 V c 8 t) (iblk3 V c 9 t)
      (iblk3 V c 10 t) (iblk3 V c 11 t) (iblk3 V c 12 t) (ix2 p (0 : Fin 1))
    = H3 V c (((cfg3.win 13).blk t).view.emb (ix2 p (0 : Fin 1)))
  rw [he]
  refine (k3_pay1_apply (k3_pay2 (iblk3 V c 0 t) (iblk3 V c 1 t) (iblk3 V c 2 t) (iblk3 V c 3 t) (iblk3 V c 4 t)) (k3_pay3 (iblk3 V c 5 t)) (iblk3 V c 7 t) (iblk3 V c 6 t) (iblk3 V c 8 t) (iblk3 V c 9 t)
      (iblk3 V c 10 t) (iblk3 V c 11 t) (iblk3 V c 12 t) p).trans ?_
  have h5 : ∀ l : Fin 256, (iblk3 V c 5 t : Vec Ideal S1000x256 .bf16) (ix2 p l) = act1 V c (ix2 (⟨t.val * 1000 + p.val, by omega⟩ : Fin 10000) l) :=
    fun l => iblk3_5_apply V c t p l _ rfl
  have h6 : ∀ l : Fin 256, (iblk3 V c 6 t : Vec Ideal S1000x256 .bf16) (ix2 p l) = act2 V c (ix2 (⟨t.val * 1000 + p.val, by omega⟩ : Fin 10000) l) :=
    fun l => iblk3_6_apply V c t p l _ rfl
  have hL : ∀ l : Fin 256, k3_pay2 (iblk3 V c 0 t) (iblk3 V c 1 t) (iblk3 V c 2 t) (iblk3 V c 3 t) (iblk3 V c 4 t) (ix2 p l) = L3 V c (ix2 (⟨t.val * 1000 + p.val, by omega⟩ : Fin 10000) l) :=
    fun l => pay3_blk V c t p l _ rfl
  show _
    = (∑ j : Fin 256, max ((∑ l : Fin 256, act1 V c (ix2 (⟨t.val * 1000 + p.val, by omega⟩ : Fin 10000) l) * hw1 V c (ix2 l j))
          + (∑ l : Fin 256, act2 V c (ix2 (⟨t.val * 1000 + p.val, by omega⟩ : Fin 10000) l) * hw2 V c (ix2 l j))
          + (∑ l : Fin 256, L3 V c (ix2 (⟨t.val * 1000 + p.val, by omega⟩ : Fin 10000) l) * hw3 V c (ix2 l j))
          + hbias V c (ix2 0 j)) 0 * lastw V c (ix2 0 j))
        + lastb V c (ix2 0 0)
  rw [k3_pay3_eq (iblk3 V c 5 t)]
  simp only [h5, h6, hL, iblk3_7_eq V c t, iblk3_8_eq V c t, iblk3_9_eq V c t, iblk3_10_eq V c t, iblk3_11_eq V c t, iblk3_12_eq V c t]

/-- THE OUTPUT: when the region ends, output window 13's array holds, at each row, the head of the specification of the
    two earlier activations and the third layer. -/
theorem final3_13 (c : Dev nD) : (dat3 V c).arrAt 13 cfg3.N
    = fun i => headK (V c (Pipeline.arrRef spec3 5)) (V c (Pipeline.arrRef spec3 6))
        (layerK (V c (Pipeline.arrRef spec3 0)) (V c (Pipeline.arrRef spec3 1)) (fun j => V c (Pipeline.arrRef spec3 2) (ix2 0 j))
          (fun j => V c (Pipeline.arrRef spec3 3) (ix2 0 j)) (fun j => V c (Pipeline.arrRef spec3 4) (ix2 0 j)))
        (V c (Pipeline.arrRef spec3 7)) (V c (Pipeline.arrRef spec3 8)) (V c (Pipeline.arrRef spec3 9))
        (fun j => V c (Pipeline.arrRef spec3 10) (ix2 0 j)) (fun j => V c (Pipeline.arrRef spec3 11) (ix2 0 j))
        (V c (Pipeline.arrRef spec3 12) (ix2 0 0)) (i 0) :=
  (dat3 V c).arrAt_eq_of_cover 13 (H3 V c) (fun t _ => flushed3_13_eq V c t) cover3_13

end Cert.KRegion
-- ==== Proof.KernelChain.lean ====
/-
  What the idealized kernel's result buffer holds when the program ends, as a function of the launch contents of its
  eighteen arguments.  The program is a line of host operations and four regions; the buffer contents at each boundary
  are a fold from the launch memory.  A host operation writes its own result buffer (a change of float format, which is
  the identity on extended reals; a reshape, which keeps row-major positions; a slice of 256 rows) and leaves every other
  buffer as it was; a region leaves in each of its output arrays the function of its input arrays that its blocks tile
  (a matrix product; a layer: product, bias, row normalisation, rectifier; the head), and every other buffer, its input
  arrays included, as it was.  Walking the fold from the result back to the launch memory composes these into the
  network, spelled the kernel's way.
-/
import proofs.«100710_g19155554140324_cont_8to1_1621_9_alg».proof.Proof.Gen.KernelIdeal.Frame
import Idealize.ShloMosaic.Lib.StableHlo.Run
import Idealize.ShloMosaic.Lib.Pipeline.Value
import Idealize.ShloMosaic.Lib.ValueIdx
import proofs.«100710_g19155554140324_cont_8to1_1621_9_alg».proof.Proof.Spec
import proofs.«100710_g19155554140324_cont_8to1_1621_9_alg».proof.Proof.Region0
import proofs.«100710_g19155554140324_cont_8to1_1621_9_alg».proof.Proof.Region1
import proofs.«100710_g19155554140324_cont_8to1_1621_9_alg».proof.Proof.Region2
import proofs.«100710_g19155554140324_cont_8to1_1621_9_alg».proof.Proof.Region3

set_option maxRecDepth 16384

noncomputable section

namespace Cert.KChain

open Cert.KernelIdeal Cert.KernelIdeal.Gen
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

/-- A stretch of host operations leaves a buffer none of them writes as it was. -/
macro "host_skip" : tactic => `(tactic| (
  refine StableHlo.after_of_forall_not_mem _ _ (List.forall_iff_forall_mem.mp ?_)
  simp only [hostOps0, hostOps1, hostOps2, hostOps3, hostOps4, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

open Cert.Spec

set_option quotPrecheck false

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)
local notation "a16" => m ((c : Thread nD τ).loc main_arg16)
local notation "a17" => m ((c : Thread nD τ).loc main_arg17)

/-- Walks a buffer that nothing on the way writes back through the fold to the launch memory: a region leaves a buffer
    that is none of its arrays as it was, a stretch of host operations leaves a buffer none of them writes as it was. -/
macro "fold_back" : tactic => `(tactic| (
  repeat (first
    | (refine (W8_of_ne _ _ _ _ (by decide)).trans ?_)
    | (refine (W6_of_ne _ _ _ _ (by decide)).trans ?_)
    | (refine (W4_of_ne _ _ _ _ (by decide)).trans ?_)
    | (refine (W2_of_ne _ _ _ _ (by decide)).trans ?_)
    | (refine Eq.trans (by host_skip) ?_))
  rfl))

/-! ## Reshapes read at an index -/

theorem row_of_vec (x : (⟨1, ![256]⟩ : Shape).Idx → EReal) (h : (⟨1, ![256]⟩ : Shape).ShapeCasts ⟨2, ![1, 256]⟩) (j : Fin 256) :
    shapeCast (⟨2, ![1, 256]⟩ : Shape) x h (ix2 0 j) = x (ix1 j) :=
  shapeCast_apply x h (ix2 0 j) (ix1 j) (by rewrite [Shape.rowMajor_val_two, Shape.rowMajor_val_one]; show j.val = 0 * 256 + j.val; omega)

theorem row_of_col (x : (⟨2, ![256, 1]⟩ : Shape).Idx → EReal) (h : (⟨2, ![256, 1]⟩ : Shape).ShapeCasts ⟨2, ![1, 256]⟩) (j : Fin 256) :
    shapeCast (⟨2, ![1, 256]⟩ : Shape) x h (ix2 0 j) = x (ix2 j 0) :=
  shapeCast_apply x h (ix2 0 j) (ix2 j 0) (by rewrite [Shape.rowMajor_val_two, Shape.rowMajor_val_two]; show j.val * 1 + 0 = 0 * 256 + j.val; omega)

theorem cell_of_vec (x : (⟨1, ![1]⟩ : Shape).Idx → EReal) (h : (⟨1, ![1]⟩ : Shape).ShapeCasts ⟨2, ![1, 1]⟩) :
    shapeCast (⟨2, ![1, 1]⟩ : Shape) x h (ix2 0 0) = x (ix1 0) :=
  shapeCast_apply x h (ix2 0 0) (ix1 0) (by rewrite [Shape.rowMajor_val_two, Shape.rowMajor_val_one]; rfl)

theorem vec_of_col (x : (⟨2, ![10000, 1]⟩ : Shape).Idx → EReal) (h : (⟨2, ![10000, 1]⟩ : Shape).ShapeCasts ⟨1, ![10000]⟩) (i : Fin 10000) :
    shapeCast (⟨1, ![10000]⟩ : Shape) x h (ix1 i) = x (ix2 i 0) :=
  shapeCast_apply x h (ix1 i) (ix2 i 0) (by rewrite [Shape.rowMajor_val_two, Shape.rowMajor_val_one]; show i.val * 1 + 0 = i.val; omega)

/-! ## The arguments, where each is read -/

theorem W1_arg0 : W1 m ρ c (Proc.devRef .tc main_arg0) = a0 := by fold_back
theorem W2_arg3 : W2 m ρ c (Proc.devRef .tc main_arg3) = a3 := by fold_back
theorem W2_arg4 : W2 m ρ c (Proc.devRef .tc main_arg4) = a4 := by fold_back
theorem W2_arg5 : W2 m ρ c (Proc.devRef .tc main_arg5) = a5 := by fold_back
theorem W2_arg6 : W2 m ρ c (Proc.devRef .tc main_arg6) = a6 := by fold_back
theorem W3_arg1 : W3 m ρ c (Proc.devRef .tc main_arg1) = a1 := by fold_back
theorem W4_arg7 : W4 m ρ c (Proc.devRef .tc main_arg7) = a7 := by fold_back
theorem W4_arg8 : W4 m ρ c (Proc.devRef .tc main_arg8) = a8 := by fold_back
theorem W4_arg9 : W4 m ρ c (Proc.devRef .tc main_arg9) = a9 := by fold_back
theorem W4_arg10 : W4 m ρ c (Proc.devRef .tc main_arg10) = a10 := by fold_back
theorem W6_arg11 : W6 m ρ c (Proc.devRef .tc main_arg11) = a11 := by fold_back
theorem W6_arg12 : W6 m ρ c (Proc.devRef .tc main_arg12) = a12 := by fold_back
theorem W6_arg13 : W6 m ρ c (Proc.devRef .tc main_arg13) = a13 := by fold_back
theorem W6_arg14 : W6 m ρ c (Proc.devRef .tc main_arg14) = a14 := by fold_back
theorem W6_arg15 : W6 m ρ c (Proc.devRef .tc main_arg15) = a15 := by fold_back
theorem W6_arg16 : W6 m ρ c (Proc.devRef .tc main_arg16) = a16 := by fold_back
theorem W6_arg17 : W6 m ρ c (Proc.devRef .tc main_arg17) = a17 := by fold_back

/-! ## Region 0: the first support matrix -/

theorem W1_v0 : W1 m ρ c (Proc.devRef .tc main_v0) = a2 := by
  dsimp only [W1, hostOps0]; after_results; rfl

/-- After region 0 its output holds the product of the features with the first weight. -/
theorem W2_v1 : (W2 m ρ c (Proc.devRef .tc main_v1) : Mat 10000 256) = mm a0 a2 :=
  (W2_arr m ρ c 2).trans ((Cert.KRegion.final0_2 (V1 m ρ) c).trans (congrArg₂ mm (W1_arg0 m ρ c) (W1_v0 m ρ c)))

/-! ## Congruences of the specification's functions -/

theorem layerK_congr {n k : Nat} {A A' : Mat n k} {S S' : Mat k 256} {b b' g g' β β' : Fin 256 → EReal}
    (hA : A = A') (hS : S = S') (hb : b = b') (hg : g = g') (hβ : β = β') : layerK A S b g β = layerK A' S' b' g' β' := by
  subst hA hS hb hg hβ; rfl

theorem headK_congr {n : Nat} {x1 x1' x2 x2' x3 x3' : Mat n 256} {Wa Wa' Wb Wb' Wc Wc' : Mat 256 256} {fb fb' w2 w2' : Fin 256 → EReal}
    {b2 b2' : EReal} (h1 : x1 = x1') (h2 : x2 = x2') (h3 : x3 = x3') (ha : Wa = Wa') (hb : Wb = Wb') (hc : Wc = Wc')
    (hf : fb = fb') (hw : w2 = w2') (hb2 : b2 = b2') (r : Fin n) :
    headK x1 x2 x3 Wa Wb Wc fb w2 b2 r = headK x1' x2' x3' Wa' Wb' Wc' fb' w2' b2' r := by
  subst h1 h2 h3 ha hb hc hf hw hb2; rfl

/-! ## Region 1: the first layer -/

local notation "x1" => layerK a1 (mm a0 a2) (fun j => a3 (ix1 j)) (fun j => a4 (ix1 j)) (fun j => a5 (ix1 j))

theorem W3_v1 : (W3 m ρ c (Proc.devRef .tc main_v1) : Mat 10000 256) = mm a0 a2 := Eq.trans (by host_skip) (W2_v1 m ρ c)

theorem W3_v2 : (fun j : Fin 256 => W3 m ρ c (Proc.devRef .tc main_v2) (ix2 0 j)) = fun j => a3 (ix1 j) := by
  funext j
  dsimp only [W3, hostOps1]; after_results
  exact (row_of_vec _ _ j).trans (congrFun (W2_arg3 m ρ c) _)

theorem W3_v3 : (fun j : Fin 256 => W3 m ρ c (Proc.devRef .tc main_v3) (ix2 0 j)) = fun j => a4 (ix1 j) := by
  funext j
  dsimp only [W3, hostOps1]; after_results
  exact (row_of_vec _ _ j).trans (congrFun (W2_arg4 m ρ c) _)

theorem W3_v4 : (fun j : Fin 256 => W3 m ρ c (Proc.devRef .tc main_v4) (ix2 0 j)) = fun j => a5 (ix1 j) := by
  funext j
  dsimp only [W3, hostOps1]; after_results
  exact (row_of_vec _ _ j).trans (congrFun (W2_arg5 m ρ c) _)

theorem W3_v5 : (W3 m ρ c (Proc.devRef .tc main_v5) : Mat 256 256) = a6 := by
  dsimp only [W3, hostOps1]; after_results
  exact W2_arg6 m ρ c

/-- After region 1: the adjacency copied, the first activation, and its product with the second weight. -/
theorem W4_v6_0 : (W4 m ρ c (Proc.devRef .tc main_v6_0) : Mat 10000 10000) = a1 :=
  (W4_arr m ρ c 6).trans ((Cert.KRegion.final1_6 (V3 m ρ) c).trans (W3_arg1 m ρ c))

theorem W4_v6_1 : (W4 m ρ c (Proc.devRef .tc main_v6_1) : Mat 10000 256) = x1 :=
  (W4_arr m ρ c 7).trans ((Cert.KRegion.final1_7 (V3 m ρ) c).trans
    (layerK_congr (W3_arg1 m ρ c) (W3_v1 m ρ c) (W3_v2 m ρ c) (W3_v3 m ρ c) (W3_v4 m ρ c)))

theorem W4_v6_2 : (W4 m ρ c (Proc.devRef .tc main_v6_2) : Mat 10000 256) = mm x1 a6 :=
  (W4_arr m ρ c 8).trans ((Cert.KRegion.final1_8 (V3 m ρ) c).trans
    (congrArg₂ mm (layerK_congr (W3_arg1 m ρ c) (W3_v1 m ρ c) (W3_v2 m ρ c) (W3_v3 m ρ c) (W3_v4 m ρ c)) (W3_v5 m ρ c)))

/-! ## Region 2: the second layer -/

local notation "x2" => layerK a1 (mm x1 a6) (fun j => a7 (ix1 j)) (fun j => a8 (ix1 j)) (fun j => a9 (ix1 j))

theorem W5_v6_0 : (W5 m ρ c (Proc.devRef .tc main_v6_0) : Mat 10000 10000) = a1 := Eq.trans (by host_skip) (W4_v6_0 m ρ c)

theorem W5_v6_2 : (W5 m ρ c (Proc.devRef .tc main_v6_2) : Mat 10000 256) = mm x1 a6 := Eq.trans (by host_skip) (W4_v6_2 m ρ c)

theorem W5_v7 : (fun j : Fin 256 => W5 m ρ c (Proc.devRef .tc main_v7) (ix2 0 j)) = fun j => a7 (ix1 j) := by
  funext j
  dsimp only [W5, hostOps2]; after_results
  exact (row_of_vec _ _ j).trans (congrFun (W4_arg7 m ρ c) _)

theorem W5_v8 : (fun j : Fin 256 => W5 m ρ c (Proc.devRef .tc main_v8) (ix2 0 j)) = fun j => a8 (ix1 j) := by
  funext j
  dsimp only [W5, hostOps2]; after_results
  exact (row_of_vec _ _ j).trans (congrFun (W4_arg8 m ρ c) _)

theorem W5_v9 : (fun j : Fin 256 => W5 m ρ c (Proc.devRef .tc main_v9) (ix2 0 j)) = fun j => a9 (ix1 j) := by
  funext j
  dsimp only [W5, hostOps2]; after_results
  exact (row_of_vec _ _ j).trans (congrFun (W4_arg9 m ρ c) _)

theorem W5_v10 : (W5 m ρ c (Proc.devRef .tc main_v10) : Mat 256 256) = a10 := by
  dsimp only [W5, hostOps2]; after_results
  exact W4_arg10 m ρ c

/-- After region 2: the second activation and its product with the third weight. -/
theorem W6_v11_0 : (W6 m ρ c (Proc.devRef .tc main_v11_0) : Mat 10000 256) = x2 :=
  (W6_arr m ρ c 6).trans ((Cert.KRegion.final2_6 (V5 m ρ) c).trans
    (layerK_congr (W5_v6_0 m ρ c) (W5_v6_2 m ρ c) (W5_v7 m ρ c) (W5_v8 m ρ c) (W5_v9 m ρ c)))

theorem W6_v11_1 : (W6 m ρ c (Proc.devRef .tc main_v11_1) : Mat 10000 256) = mm x2 a10 :=
  (W6_arr m ρ c 7).trans ((Cert.KRegion.final2_7 (V5 m ρ) c).trans
    (congrArg₂ mm (layerK_congr (W5_v6_0 m ρ c) (W5_v6_2 m ρ c) (W5_v7 m ρ c) (W5_v8 m ρ c) (W5_v9 m ρ c)) (W5_v10 m ρ c)))

/-- Region 2 reads the adjacency copy through an input window, which leaves it as it was. -/
theorem W6_v6_0 : (W6 m ρ c (Proc.devRef .tc main_v6_0) : Mat 10000 10000) = a1 :=
  (W6_arr m ρ c 0).trans (((dat2 (V5 m ρ) c).arrAt_in 0 rfl _).trans ((A_eq2 (V5 m ρ) c 0).trans (W5_v6_0 m ρ c)))

/-- Region 2 does not touch the first activation. -/
theorem W6_v6_1 : (W6 m ρ c (Proc.devRef .tc main_v6_1) : Mat 10000 256) = x1 :=
  (W6_of_ne m ρ c main_v6_1 (by decide)).trans (Eq.trans (by host_skip) (W4_v6_1 m ρ c))

/-! ## Region 3: the third layer and the head -/

local notation "x3" => layerK a1 (mm x2 a10) (fun j => a11 (ix1 j)) (fun j => a12 (ix1 j)) (fun j => a13 (ix1 j))

theorem W7_v6_0 : (W7 m ρ c (Proc.devRef .tc main_v6_0) : Mat 10000 10000) = a1 := Eq.trans (by host_skip) (W6_v6_0 m ρ c)
theorem W7_v11_1 : (W7 m ρ c (Proc.devRef .tc main_v11_1) : Mat 10000 256) = mm x2 a10 := Eq.trans (by host_skip) (W6_v11_1 m ρ c)
theorem W7_v6_1 : (W7 m ρ c (Proc.devRef .tc main_v6_1) : Mat 10000 256) = x1 := Eq.trans (by host_skip) (W6_v6_1 m ρ c)
theorem W7_v11_0 : (W7 m ρ c (Proc.devRef .tc main_v11_0) : Mat 10000 256) = x2 := Eq.trans (by host_skip) (W6_v11_0 m ρ c)

theorem W7_v18 : (fun j : Fin 256 => W7 m ρ c (Proc.devRef .tc main_v18) (ix2 0 j)) = fun j => a11 (ix1 j) := by
  funext j
  dsimp only [W7, hostOps3]; after_results
  exact (row_of_vec _ _ j).trans (congrFun (W6_arg11 m ρ c) _)

theorem W7_v19 : (fun j : Fin 256 => W7 m ρ c (Proc.devRef .tc main_v19) (ix2 0 j)) = fun j => a12 (ix1 j) := by
  funext j
  dsimp only [W7, hostOps3]; after_results
  exact (row_of_vec _ _ j).trans (congrFun (W6_arg12 m ρ c) _)

theorem W7_v20 : (fun j : Fin 256 => W7 m ρ c (Proc.devRef .tc main_v20) (ix2 0 j)) = fun j => a13 (ix1 j) := by
  funext j
  dsimp only [W7, hostOps3]; after_results
  exact (row_of_vec _ _ j).trans (congrFun (W6_arg13 m ρ c) _)

theorem W7_v21 : (fun j : Fin 256 => W7 m ρ c (Proc.devRef .tc main_v21) (ix2 0 j)) = fun j => a15 (ix1 j) := by
  funext j
  dsimp only [W7, hostOps3]; after_results
  exact (row_of_vec _ _ j).trans (congrFun (W6_arg15 m ρ c) _)

theorem W7_v22 : (fun j : Fin 256 => W7 m ρ c (Proc.devRef .tc main_v22) (ix2 0 j)) = fun j => a16 (ix2 j 0) := by
  funext j
  dsimp only [W7, hostOps3]; after_results
  exact (row_of_col _ _ j).trans (congrFun (W6_arg16 m ρ c) _)

theorem W7_v23 : W7 m ρ c (Proc.devRef .tc main_v23) (ix2 0 0) = a17 (ix1 0) := by
  dsimp only [W7, hostOps3]; after_results
  exact (cell_of_vec _ _).trans (congrFun (W6_arg17 m ρ c) _)

/-- A slice of 256 rows of the head's first weight, read at an index. -/
theorem slice_rows (off : Nat) (hoff : off + 256 ≤ 768) (x : Mat 768 256)
    (h : (⟨2, ![768, 256]⟩ : Shape).Slices ![off, 0] ⟨2, ![256, 256]⟩) :
    extractStridedSlice (⟨2, ![256, 256]⟩ : Shape) ![off, 0] x h = sl off hoff x := by
  funext i
  refine extractStridedSlice_apply ![off, 0] x h i (ix2 ⟨off + (i 0).val, by have h0 : (i 0).val < 256 := (i 0).isLt; omega⟩ (i 1)) (fun a => ?_)
  match a with
  | ⟨0, _⟩ => rfl
  | ⟨1, _⟩ => exact (Nat.zero_add (i 1).val).symm

theorem W7_v13 : (W7 m ρ c (Proc.devRef .tc main_v13) : Mat 256 256) = sl 0 (by omega) a14 := by
  dsimp only [W7, hostOps3]; after_results
  exact (congrArg (fun y => extractStridedSlice S256x256 ![0, 0] y slices_S768x256_S256x256_0_0) (W6_arg14 m ρ c)).trans
    (slice_rows 0 (by omega) _ slices_S768x256_S256x256_0_0)

theorem W7_v15 : (W7 m ρ c (Proc.devRef .tc main_v15) : Mat 256 256) = sl 256 (by omega) a14 := by
  dsimp only [W7, hostOps3]; after_results
  exact (congrArg (fun y => extractStridedSlice S256x256 ![256, 0] y slices_S768x256_S256x256_256_0) (W6_arg14 m ρ c)).trans
    (slice_rows 256 (by omega) _ slices_S768x256_S256x256_256_0)

theorem W7_v17 : (W7 m ρ c (Proc.devRef .tc main_v17) : Mat 256 256) = sl 512 (by omega) a14 := by
  dsimp only [W7, hostOps3]; after_results
  exact (congrArg (fun y => extractStridedSlice S256x256 ![512, 0] y slices_S768x256_S256x256_512_0) (W6_arg14 m ρ c)).trans
    (slice_rows 512 (by omega) _ slices_S768x256_S256x256_512_0)

/-- After region 3 its output column holds the head of the three activations. -/
theorem W8_v24 : (W8 m ρ c (Proc.devRef .tc main_v24) : Mat 10000 1) = fun i =>
    headK x1 x2 x3 (sl 0 (by omega) a14) (sl 256 (by omega) a14) (sl 512 (by omega) a14)
      (fun j => a15 (ix1 j)) (fun j => a16 (ix2 j 0)) (a17 (ix1 0)) (i 0) :=
  (W8_arr m ρ c 13).trans ((Cert.KRegion.final3_13 (V7 m ρ) c).trans (funext fun i =>
    headK_congr (W7_v6_1 m ρ c) (W7_v11_0 m ρ c)
      (layerK_congr (W7_v6_0 m ρ c) (W7_v11_1 m ρ c) (W7_v18 m ρ c) (W7_v19 m ρ c) (W7_v20 m ρ c))
      (W7_v13 m ρ c) (W7_v15 m ρ c) (W7_v17 m ρ c) (W7_v21 m ρ c) (W7_v22 m ρ c) (W7_v23 m ρ c) (i 0)))

/-! ## The result -/

/-- The fold's last value at the result buffer is the network of the launch contents of the eighteen arguments. -/
theorem kernel_value : (W9 m ρ c (Proc.devRef .tc main_v25) : Row 10000) =
    outK a0 a1 a2 a3 a4 a5 a6 a7 a8 a9 a10 a11 a12 a13 a14 a15 a16 a17 := by
  funext i
  rw [eq_ix1 i]
  dsimp only [W9, hostOps4]; after_results
  exact (vec_of_col _ _ (i 0)).trans (congrFun (W8_v24 m ρ c) _)

end Cert.KChain

end
-- ==== Proof.RefBridge.lean ====
/-
  The reference program is the specification's reference-form network.

  The program is a chain of whole-array operations. Read at one index, each is elementary: a matrix product is a sum
  over the contracted axis; a vector spread along the rows is read at the column and a column spread along the columns
  at the row; a row sum is the starting value plus the sum over the columns; the pointwise operations act on the
  entries. Composing these readings, entry (r, q) of a layer's output is: the row r of (adjacency times (input times
  weight)) plus bias, centred by its mean — its sum from zero over 256 columns, divided by 256.0 —, divided by the
  square root of the mean of the squares of the centred row plus eps, times the scale at q, plus the shift at q,
  rectified. The starting value of each sum is the zero word, whose value is 0, and 0 + s = s. That is the
  specification's layer in its divide-by-square-root form, and the same three times over, each layer reading the one
  before.

  The head joins the three layer outputs along the columns into a [10000, 768] array: column k lies in exactly one of
  the stretches [0, 256), [256, 512), [512, 768), and the joined array there is the first, second or third output at
  column k, k - 256 or k - 512. One product over the 768 columns with the head's first weight, its bias, the rectifier,
  the product with the single column of the last weight, the last bias, and the [10000, 1] column read as a vector of
  10000 entries give the specification's head in its one-product form.
-/
import proofs.«100710_g19155554140324_cont_8to1_1621_9_alg».proof.Proof.Gen.ReferenceIdeal.Read
import proofs.«100710_g19155554140324_cont_8to1_1621_9_alg».proof.Proof.Spec

noncomputable section

namespace Cert.RefBridge

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open Cert.Spec (Mat Row)

/-! ## Layer 1

The index maps of this layer's operations, at an index given by its coordinates: a product reads row r of its left
operand and column q of its right one at the summation index; a vector spread over the rows is read at the column;
a column spread over the columns is read at the row; a row sum reads the row at the summation index. -/

theorem lidx1 (r : Fin 10000) (q : Fin 256) (k : Fin 10000) : lidx_main_v1 (ix2 r q) k = ix2 r k := funext fun a => Fin.ext (by match a with | ⟨0, _⟩ => rfl | ⟨1, _⟩ => rfl)
theorem ridx1 (r : Fin 10000) (q : Fin 256) (k : Fin 10000) : ridx_main_v1 (ix2 r q) k = ix2 k q := funext fun a => Fin.ext (by match a with | ⟨0, _⟩ => rfl | ⟨1, _⟩ => rfl)
theorem lidx0 (r : Fin 10000) (q : Fin 256) (k : Fin 256) : lidx_main_v0 (ix2 r q) k = ix2 r k := funext fun a => Fin.ext (by match a with | ⟨0, _⟩ => rfl | ⟨1, _⟩ => rfl)
theorem ridx0 (r : Fin 10000) (q : Fin 256) (k : Fin 256) : ridx_main_v0 (ix2 r q) k = ix2 k q := funext fun a => Fin.ext (by match a with | ⟨0, _⟩ => rfl | ⟨1, _⟩ => rfl)
theorem idx3 (r : Fin 10000) (q : Fin 256) : idx_main_v3 (ix2 r q) = ix2 (0 : Fin 1) q := funext fun a => Fin.ext (by match a with | ⟨0, _⟩ => rfl | ⟨1, _⟩ => rfl)
theorem idx24 (r : Fin 10000) (q : Fin 256) : idx_main_v24 (ix2 r q) = ix2 (0 : Fin 1) q := funext fun a => Fin.ext (by match a with | ⟨0, _⟩ => rfl | ⟨1, _⟩ => rfl)
theorem idx27 (r : Fin 10000) (q : Fin 256) : idx_main_v27 (ix2 r q) = ix2 (0 : Fin 1) q := funext fun a => Fin.ext (by match a with | ⟨0, _⟩ => rfl | ⟨1, _⟩ => rfl)
theorem idx2 (z : Fin 1) (q : Fin 256) : idx_main_v2 (ix2 z q) = ix1 q := funext fun a => Fin.ext (by match a with | ⟨0, _⟩ => rfl)
theorem idx23 (z : Fin 1) (q : Fin 256) : idx_main_v23 (ix2 z q) = ix1 q := funext fun a => Fin.ext (by match a with | ⟨0, _⟩ => rfl)
theorem idx26 (z : Fin 1) (q : Fin 256) : idx_main_v26 (ix2 z q) = ix1 q := funext fun a => Fin.ext (by match a with | ⟨0, _⟩ => rfl)
theorem idx9 (r : Fin 10000) (q : Fin 256) : idx_main_v9 (ix2 r q) = ix2 r (0 : Fin 1) := funext fun a => Fin.ext (by match a with | ⟨0, _⟩ => rfl | ⟨1, _⟩ => rfl)
theorem idx16 (r : Fin 10000) (q : Fin 256) : idx_main_v16 (ix2 r q) = ix2 r (0 : Fin 1) := funext fun a => Fin.ext (by match a with | ⟨0, _⟩ => rfl | ⟨1, _⟩ => rfl)
theorem idx21 (r : Fin 10000) (q : Fin 256) : idx_main_v21 (ix2 r q) = ix2 r (0 : Fin 1) := funext fun a => Fin.ext (by match a with | ⟨0, _⟩ => rfl | ⟨1, _⟩ => rfl)
theorem idx6 (r : Fin 10000) (z : Fin 1) : idx_main_v6 (ix2 r z) = ix1 r := funext fun a => Fin.ext (by match a with | ⟨0, _⟩ => rfl)
theorem idx13 (r : Fin 10000) (z : Fin 1) : idx_main_v13 (ix2 r z) = ix1 r := funext fun a => Fin.ext (by match a with | ⟨0, _⟩ => rfl)
theorem idx5 (r : Fin 10000) (k : Fin 256) : idx_main_v5 (ix1 r) k = ix2 r k := funext fun a => Fin.ext (by match a with | ⟨0, _⟩ => rfl | ⟨1, _⟩ => rfl)
theorem idx12 (r : Fin 10000) (k : Fin 256) : idx_main_v12 (ix1 r) k = ix2 r k := funext fun a => Fin.ext (by match a with | ⟨0, _⟩ => rfl | ⟨1, _⟩ => rfl)

/-- The layer's first product: its input times its weight. -/
theorem prod0 (x0 : Mat 10000 256) (x2 : Mat 256 256) :
    val_main_v0 (F := Ideal) x0 x2 = Spec.mm x0 x2 := by
  funext i
  obtain ⟨r, q, rfl⟩ : ∃ (r : Fin 10000) (q : Fin 256), i = ix2 r q := ⟨i 0, i 1, eq_ix2 i⟩
  simp only [val_main_v0_apply, lidx0, ridx0]
  rfl

/-- The layer before its normalisation: the adjacency times the product above, plus the bias along each row. -/
theorem conv1 (x0 : Mat 10000 256) (x1 : Mat 10000 10000) (x2 : Mat 256 256) (x3 : Row 256) :
    val_main_v4 (F := Ideal) x0 x1 x2 x3 = Spec.gc x1 (Spec.mm x0 x2) (fun j => x3 (ix1 j)) := by
  funext i
  obtain ⟨r, q, rfl⟩ : ∃ (r : Fin 10000) (q : Fin 256), i = ix2 r q := ⟨i 0, i 1, eq_ix2 i⟩
  simp only [val_main_v4_apply, val_main_v1_apply, val_main_v3_apply, val_main_v2_apply, prod0,
    lidx1, ridx1, idx3, idx2]
  rfl

/-- The layer whole: every row of the array above is centred by its mean (the sum over the 256 columns, from zero,
    divided by 256.0), divided by the square root of (the mean of the squares of the centred row, plus eps), scaled,
    shifted and rectified. -/
theorem layer1 (x0 : Mat 10000 256) (x1 : Mat 10000 10000) (x2 : Mat 256 256) (x3 : Row 256) (x4 : Row 256) (x5 : Row 256) :
    val_main_v29 (F := Ideal) x0 x1 x2 x3 x4 x5 = Spec.layerR x1 (Spec.mm x0 x2) (fun j => x3 (ix1 j)) (fun j => x4 (ix1 j)) (fun j => x5 (ix1 j)) := by
  funext i
  obtain ⟨r, q, rfl⟩ : ∃ (r : Fin 10000) (q : Fin 256), i = ix2 r q := ⟨i 0, i 1, eq_ix2 i⟩
  simp only [val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply,
    val_main_call0_v0_apply, val_main_call0_cst_apply, val_main_cst_apply, val_main_cst_0_apply, val_main_cst_1_apply, val_main_cst_2_apply, val_main_cst_3_apply, conv1,
    idx27, idx26, idx24, idx23, idx21, idx16, idx13, idx12, idx9, idx6, idx5]
  simp only [Ideal.ofBits_def, Ideal.ofBits_zero_f32, zero_add]
  rfl

/-! ## Layer 2

The index maps of this layer's operations, at an index given by its coordinates: a product reads row r of its left
operand and column q of its right one at the summation index; a vector spread over the rows is read at the column;
a column spread over the columns is read at the row; a row sum reads the row at the summation index. -/

theorem lidx31 (r : Fin 10000) (q : Fin 256) (k : Fin 10000) : lidx_main_v31 (ix2 r q) k = ix2 r k := funext fun a => Fin.ext (by match a with | ⟨0, _⟩ => rfl | ⟨1, _⟩ => rfl)
theorem ridx31 (r : Fin 10000) (q : Fin 256) (k : Fin 10000) : ridx_main_v31 (ix2 r q) k = ix2 k q := funext fun a => Fin.ext (by match a with | ⟨0, _⟩ => rfl | ⟨1, _⟩ => rfl)
theorem lidx30 (r : Fin 10000) (q : Fin 256) (k : Fin 256) : lidx_main_v30 (ix2 r q) k = ix2 r k := funext fun a => Fin.ext (by match a with | ⟨0, _⟩ => rfl | ⟨1, _⟩ => rfl)
theorem ridx30 (r : Fin 10000) (q : Fin 256) (k : Fin 256) : ridx_main_v30 (ix2 r q) k = ix2 k q := funext fun a => Fin.ext (by match a with | ⟨0, _⟩ => rfl | ⟨1, _⟩ => rfl)
theorem idx33 (r : Fin 10000) (q : Fin 256) : idx_main_v33 (ix2 r q) = ix2 (0 : Fin 1) q := funext fun a => Fin.ext (by match a with | ⟨0, _⟩ => rfl | ⟨1, _⟩ => rfl)
theorem idx54 (r : Fin 10000) (q : Fin 256) : idx_main_v54 (ix2 r q) = ix2 (0 : Fin 1) q := funext fun a => Fin.ext (by match a with | ⟨0, _⟩ => rfl | ⟨1, _⟩ => rfl)
theorem idx57 (r : Fin 10000) (q : Fin 256) : idx_main_v57 (ix2 r q) = ix2 (0 : Fin 1) q := funext fun a => Fin.ext (by match a with | ⟨0, _⟩ => rfl | ⟨1, _⟩ => rfl)
theorem idx32 (z : Fin 1) (q : Fin 256) : idx_main_v32 (ix2 z q) = ix1 q := funext fun a => Fin.ext (by match a with | ⟨0, _⟩ => rfl)
theorem idx53 (z : Fin 1) (q : Fin 256) : idx_main_v53 (ix2 z q) = ix1 q := funext fun a => Fin.ext (by match a with | ⟨0, _⟩ => rfl)
theorem idx56 (z : Fin 1) (q : Fin 256) : idx_main_v56 (ix2 z q) = ix1 q := funext fun a => Fin.ext (by match a with | ⟨0, _⟩ => rfl)
theorem idx39 (r : Fin 10000) (q : Fin 256) : idx_main_v39 (ix2 r q) = ix2 r (0 : Fin 1) := funext fun a => Fin.ext (by match a with | ⟨0, _⟩ => rfl | ⟨1, _⟩ => rfl)
theorem idx46 (r : Fin 10000) (q : Fin 256) : idx_main_v46 (ix2 r q) = ix2 r (0 : Fin 1) := funext fun a => Fin.ext (by match a with | ⟨0, _⟩ => rfl | ⟨1, _⟩ => rfl)
theorem idx51 (r : Fin 10000) (q : Fin 256) : idx_main_v51 (ix2 r q) = ix2 r (0 : Fin 1) := funext fun a => Fin.ext (by match a with | ⟨0, _⟩ => rfl | ⟨1, _⟩ => rfl)
theorem idx36 (r : Fin 10000) (z : Fin 1) : idx_main_v36 (ix2 r z) = ix1 r := funext fun a => Fin.ext (by match a with | ⟨0, _⟩ => rfl)
theorem idx43 (r : Fin 10000) (z : Fin 1) : idx_main_v43 (ix2 r z) = ix1 r := funext fun a => Fin.ext (by match a with | ⟨0, _⟩ => rfl)
theorem idx35 (r : Fin 10000) (k : Fin 256) : idx_main_v35 (ix1 r) k = ix2 r k := funext fun a => Fin.ext (by match a with | ⟨0, _⟩ => rfl | ⟨1, _⟩ => rfl)
theorem idx42 (r : Fin 10000) (k : Fin 256) : idx_main_v42 (ix1 r) k = ix2 r k := funext fun a => Fin.ext (by match a with | ⟨0, _⟩ => rfl | ⟨1, _⟩ => rfl)

/-- The layer's first product: its input times its weight. -/
theorem prod30 (x0 : Mat 10000 256) (x1 : Mat 10000 10000) (x2 : Mat 256 256) (x3 : Row 256) (x4 : Row 256) (x5 : Row 256) (x6 : Mat 256 256) :
    val_main_v30 (F := Ideal) x0 x1 x2 x3 x4 x5 x6 = Spec.mm (val_main_v29 (F := Ideal) x0 x1 x2 x3 x4 x5) x6 := by
  funext i
  obtain ⟨r, q, rfl⟩ : ∃ (r : Fin 10000) (q : Fin 256), i = ix2 r q := ⟨i 0, i 1, eq_ix2 i⟩
  simp only [val_main_v30_apply, lidx30, ridx30]
  rfl

/-- The layer before its normalisation: the adjacency times the product above, plus the bias along each row. -/
theorem conv2 (x0 : Mat 10000 256) (x1 : Mat 10000 10000) (x2 : Mat 256 256) (x3 : Row 256) (x4 : Row 256) (x5 : Row 256) (x6 : Mat 256 256) (x7 : Row 256) :
    val_main_v34 (F := Ideal) x0 x1 x2 x3 x4 x5 x6 x7 = Spec.gc x1 (Spec.mm (val_main_v29 (F := Ideal) x0 x1 x2 x3 x4 x5) x6) (fun j => x7 (ix1 j)) := by
  funext i
  obtain ⟨r, q, rfl⟩ : ∃ (r : Fin 10000) (q : Fin 256), i = ix2 r q := ⟨i 0, i 1, eq_ix2 i⟩
  simp only [val_main_v34_apply, val_main_v31_apply, val_main_v33_apply, val_main_v32_apply, prod30,
    lidx31, ridx31, idx33, idx32]
  rfl

/-- The layer whole: every row of the array above is centred by its mean (the sum over the 256 columns, from zero,
    divided by 256.0), divided by the square root of (the mean of the squares of the centred row, plus eps), scaled,
    shifted and rectified. -/
theorem layer2 (x0 : Mat 10000 256) (x1 : Mat 10000 10000) (x2 : Mat 256 256) (x3 : Row 256) (x4 : Row 256) (x5 : Row 256) (x6 : Mat 256 256) (x7 : Row 256) (x8 : Row 256) (x9 : Row 256) :
    val_main_v59 (F := Ideal) x0 x1 x2 x3 x4 x5 x6 x7 x8 x9 = Spec.layerR x1 (Spec.mm (val_main_v29 (F := Ideal) x0 x1 x2 x3 x4 x5) x6) (fun j => x7 (ix1 j)) (fun j => x8 (ix1 j)) (fun j => x9 (ix1 j)) := by
  funext i
  obtain ⟨r, q, rfl⟩ : ∃ (r : Fin 10000) (q : Fin 256), i = ix2 r q := ⟨i 0, i 1, eq_ix2 i⟩
  simp only [val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply,
    val_main_call1_v0_apply, val_main_call1_cst_apply, val_main_cst_4_apply, val_main_cst_5_apply, val_main_cst_6_apply, val_main_cst_7_apply, val_main_cst_8_apply, conv2,
    idx57, idx56, idx54, idx53, idx51, idx46, idx43, idx42, idx39, idx36, idx35]
  simp only [Ideal.ofBits_def, Ideal.ofBits_zero_f32, zero_add]
  rfl

/-! ## Layer 3

The index maps of this layer's operations, at an index given by its coordinates: a product reads row r of its left
operand and column q of its right one at the summation index; a vector spread over the rows is read at the column;
a column spread over the columns is read at the row; a row sum reads the row at the summation index. -/

theorem lidx61 (r : Fin 10000) (q : Fin 256) (k : Fin 10000) : lidx_main_v61 (ix2 r q) k = ix2 r k := funext fun a => Fin.ext (by match a with | ⟨0, _⟩ => rfl | ⟨1, _⟩ => rfl)
theorem ridx61 (r : Fin 10000) (q : Fin 256) (k : Fin 10000) : ridx_main_v61 (ix2 r q) k = ix2 k q := funext fun a => Fin.ext (by match a with | ⟨0, _⟩ => rfl | ⟨1, _⟩ => rfl)
theorem lidx60 (r : Fin 10000) (q : Fin 256) (k : Fin 256) : lidx_main_v60 (ix2 r q) k = ix2 r k := funext fun a => Fin.ext (by match a with | ⟨0, _⟩ => rfl | ⟨1, _⟩ => rfl)
theorem ridx60 (r : Fin 10000) (q : Fin 256) (k : Fin 256) : ridx_main_v60 (ix2 r q) k = ix2 k q := funext fun a => Fin.ext (by match a with | ⟨0, _⟩ => rfl | ⟨1, _⟩ => rfl)
theorem idx63 (r : Fin 10000) (q : Fin 256) : idx_main_v63 (ix2 r q) = ix2 (0 : Fin 1) q := funext fun a => Fin.ext (by match a with | ⟨0, _⟩ => rfl | ⟨1, _⟩ => rfl)
theorem idx84 (r : Fin 10000) (q : Fin 256) : idx_main_v84 (ix2 r q) = ix2 (0 : Fin 1) q := funext fun a => Fin.ext (by match a with | ⟨0, _⟩ => rfl | ⟨1, _⟩ => rfl)
theorem idx87 (r : Fin 10000) (q : Fin 256) : idx_main_v87 (ix2 r q) = ix2 (0 : Fin 1) q := funext fun a => Fin.ext (by match a with | ⟨0, _⟩ => rfl | ⟨1, _⟩ => rfl)
theorem idx62 (z : Fin 1) (q : Fin 256) : idx_main_v62 (ix2 z q) = ix1 q := funext fun a => Fin.ext (by match a with | ⟨0, _⟩ => rfl)
theorem idx83 (z : Fin 1) (q : Fin 256) : idx_main_v83 (ix2 z q) = ix1 q := funext fun a => Fin.ext (by match a with | ⟨0, _⟩ => rfl)
theorem idx86 (z : Fin 1) (q : Fin 256) : idx_main_v86 (ix2 z q) = ix1 q := funext fun a => Fin.ext (by match a with | ⟨0, _⟩ => rfl)
theorem idx69 (r : Fin 10000) (q : Fin 256) : idx_main_v69 (ix2 r q) = ix2 r (0 : Fin 1) := funext fun a => Fin.ext (by match a with | ⟨0, _⟩ => rfl | ⟨1, _⟩ => rfl)
theorem idx76 (r : Fin 10000) (q : Fin 256) : idx_main_v76 (ix2 r q) = ix2 r (0 : Fin 1) := funext fun a => Fin.ext (by match a with | ⟨0, _⟩ => rfl | ⟨1, _⟩ => rfl)
theorem idx81 (r : Fin 10000) (q : Fin 256) : idx_main_v81 (ix2 r q) = ix2 r (0 : Fin 1) := funext fun a => Fin.ext (by match a with | ⟨0, _⟩ => rfl | ⟨1, _⟩ => rfl)
theorem idx66 (r : Fin 10000) (z : Fin 1) : idx_main_v66 (ix2 r z) = ix1 r := funext fun a => Fin.ext (by match a with | ⟨0, _⟩ => rfl)
theorem idx73 (r : Fin 10000) (z : Fin 1) : idx_main_v73 (ix2 r z) = ix1 r := funext fun a => Fin.ext (by match a with | ⟨0, _⟩ => rfl)
theorem idx65 (r : Fin 10000) (k : Fin 256) : idx_main_v65 (ix1 r) k = ix2 r k := funext fun a => Fin.ext (by match a with | ⟨0, _⟩ => rfl | ⟨1, _⟩ => rfl)
theorem idx72 (r : Fin 10000) (k : Fin 256) : idx_main_v72 (ix1 r) k = ix2 r k := funext fun a => Fin.ext (by match a with | ⟨0, _⟩ => rfl | ⟨1, _⟩ => rfl)

/-- The layer's first product: its input times its weight. -/
theorem prod60 (x0 : Mat 10000 256) (x1 : Mat 10000 10000) (x2 : Mat 256 256) (x3 : Row 256) (x4 : Row 256) (x5 : Row 256) (x6 : Mat 256 256) (x7 : Row 256) (x8 : Row 256) (x9 : Row 256) (x10 : Mat 256 256) :
    val_main_v60 (F := Ideal) x0 x1 x2 x3 x4 x5 x6 x7 x8 x9 x10 = Spec.mm (val_main_v59 (F := Ideal) x0 x1 x2 x3 x4 x5 x6 x7 x8 x9) x10 := by
  funext i
  obtain ⟨r, q, rfl⟩ : ∃ (r : Fin 10000) (q : Fin 256), i = ix2 r q := ⟨i 0, i 1, eq_ix2 i⟩
  simp only [val_main_v60_apply, lidx60, ridx60]
  rfl

/-- The layer before its normalisation: the adjacency times the product above, plus the bias along each row. -/
theorem conv3 (x0 : Mat 10000 256) (x1 : Mat 10000 10000) (x2 : Mat 256 256) (x3 : Row 256) (x4 : Row 256) (x5 : Row 256) (x6 : Mat 256 256) (x7 : Row 256) (x8 : Row 256) (x9 : Row 256) (x10 : Mat 256 256) (x11 : Row 256) :
    val_main_v64 (F := Ideal) x0 x1 x2 x3 x4 x5 x6 x7 x8 x9 x10 x11 = Spec.gc x1 (Spec.mm (val_main_v59 (F := Ideal) x0 x1 x2 x3 x4 x5 x6 x7 x8 x9) x10) (fun j => x11 (ix1 j)) := by
  funext i
  obtain ⟨r, q, rfl⟩ : ∃ (r : Fin 10000) (q : Fin 256), i = ix2 r q := ⟨i 0, i 1, eq_ix2 i⟩
  simp only [val_main_v64_apply, val_main_v61_apply, val_main_v63_apply, val_main_v62_apply, prod60,
    lidx61, ridx61, idx63, idx62]
  rfl

/-- The layer whole: every row of the array above is centred by its mean (the sum over the 256 columns, from zero,
    divided by 256.0), divided by the square root of (the mean of the squares of the centred row, plus eps), scaled,
    shifted and rectified. -/
theorem layer3 (x0 : Mat 10000 256) (x1 : Mat 10000 10000) (x2 : Mat 256 256) (x3 : Row 256) (x4 : Row 256) (x5 : Row 256) (x6 : Mat 256 256) (x7 : Row 256) (x8 : Row 256) (x9 : Row 256) (x10 : Mat 256 256) (x11 : Row 256) (x12 : Row 256) (x13 : Row 256) :
    val_main_v89 (F := Ideal) x0 x1 x2 x3 x4 x5 x6 x7 x8 x9 x10 x11 x12 x13 = Spec.layerR x1 (Spec.mm (val_main_v59 (F := Ideal) x0 x1 x2 x3 x4 x5 x6 x7 x8 x9) x10) (fun j => x11 (ix1 j)) (fun j => x12 (ix1 j)) (fun j => x13 (ix1 j)) := by
  funext i
  obtain ⟨r, q, rfl⟩ : ∃ (r : Fin 10000) (q : Fin 256), i = ix2 r q := ⟨i 0, i 1, eq_ix2 i⟩
  simp only [val_main_v89_apply, val_main_v88_apply, val_main_v87_apply, val_main_v86_apply, val_main_v85_apply, val_main_v84_apply, val_main_v83_apply, val_main_v82_apply, val_main_v81_apply, val_main_v80_apply, val_main_v79_apply, val_main_v78_apply, val_main_v77_apply, val_main_v76_apply, val_main_v75_apply, val_main_v74_apply, val_main_v73_apply, val_main_v72_apply, val_main_v71_apply, val_main_v70_apply, val_main_v69_apply, val_main_v68_apply, val_main_v67_apply, val_main_v66_apply, val_main_v65_apply,
    val_main_call2_v0_apply, val_main_call2_cst_apply, val_main_cst_9_apply, val_main_cst_10_apply, val_main_cst_11_apply, val_main_cst_12_apply, val_main_cst_13_apply, conv3,
    idx87, idx86, idx84, idx83, idx81, idx76, idx73, idx72, idx69, idx66, idx65]
  simp only [Ideal.ofBits_def, Ideal.ofBits_zero_f32, zero_add]
  rfl

/-! ## The head -/

/-- Three [10000, 256] arrays joined along the columns: column k of the result is column k, k - 256 or k - 512 of
    the first, second or third, as k falls in the first, second or third stretch of 256. -/
theorem cat_eq (a b c : Mat 10000 256) :
    concatenate S10000x768 1 [⟨S10000x256, a⟩, ⟨S10000x256, b⟩, ⟨S10000x256, c⟩]
      concatenates_S10000x256_S10000x256_S10000x256_S10000x768_d1 = Spec.cat a b c := by
  funext j
  by_cases h1 : (j 1).val < 256
  · simp only [Spec.cat, dif_pos h1]
    exact concatenate_apply_piece 1 ([⟨S10000x256, a⟩, ⟨S10000x256, b⟩, ⟨S10000x256, c⟩] : List ((s : Shape) × (s.Idx → EReal)))
      concatenates_S10000x256_S10000x256_S10000x256_S10000x768_d1 j 0 (Nat.zero_lt_succ _)
      S10000x256 a rfl rfl 0 rfl (ix2 (j 0) ⟨(j 1).val, h1⟩)
      (fun d hd => by
        match d with
        | ⟨0, _⟩ => rfl
        | ⟨1, _⟩ => exact absurd rfl hd)
      (Nat.zero_add _)
  · by_cases h2 : (j 1).val < 512
    · simp only [Spec.cat, dif_neg h1, dif_pos h2]
      exact concatenate_apply_piece 1 ([⟨S10000x256, a⟩, ⟨S10000x256, b⟩, ⟨S10000x256, c⟩] : List ((s : Shape) × (s.Idx → EReal)))
        concatenates_S10000x256_S10000x256_S10000x256_S10000x768_d1 j 1 (Nat.succ_lt_succ (Nat.zero_lt_succ _))
        S10000x256 b rfl rfl 256 rfl (ix2 (j 0) ⟨(j 1).val - 256, by omega⟩)
        (fun d hd => by
          match d with
          | ⟨0, _⟩ => rfl
          | ⟨1, _⟩ => exact absurd rfl hd)
        (by show 256 + ((j 1).val - 256) = (j 1).val; omega)
    · simp only [Spec.cat, dif_neg h1, dif_neg h2]
      have h3 : (j 1).val < 768 := (j 1).isLt
      exact concatenate_apply_piece 1 ([⟨S10000x256, a⟩, ⟨S10000x256, b⟩, ⟨S10000x256, c⟩] : List ((s : Shape) × (s.Idx → EReal)))
        concatenates_S10000x256_S10000x256_S10000x256_S10000x768_d1 j 2 (Nat.succ_lt_succ (Nat.succ_lt_succ (Nat.zero_lt_succ _)))
        S10000x256 c rfl rfl 512 rfl (ix2 (j 0) ⟨(j 1).val - 512, by omega⟩)
        (fun d hd => by
          match d with
          | ⟨0, _⟩ => rfl
          | ⟨1, _⟩ => exact absurd rfl hd)
        (by show 512 + ((j 1).val - 512) = (j 1).val; omega)

/-- The three layers' outputs side by side. -/
theorem joined (x0 : Mat 10000 256) (x1 : Mat 10000 10000) (x2 : Mat 256 256) (x3 : Row 256) (x4 : Row 256) (x5 : Row 256) (x6 : Mat 256 256) (x7 : Row 256) (x8 : Row 256) (x9 : Row 256) (x10 : Mat 256 256) (x11 : Row 256) (x12 : Row 256) (x13 : Row 256) :
    val_main_v90 (F := Ideal) x0 x1 x2 x3 x4 x5 x6 x7 x8 x9 x10 x11 x12 x13 = Spec.cat (val_main_v29 (F := Ideal) x0 x1 x2 x3 x4 x5) (val_main_v59 (F := Ideal) x0 x1 x2 x3 x4 x5 x6 x7 x8 x9) (val_main_v89 (F := Ideal) x0 x1 x2 x3 x4 x5 x6 x7 x8 x9 x10 x11 x12 x13) := by
  unfold val_main_v90
  exact cat_eq _ _ _

theorem lidx91 (r : Fin 10000) (q : Fin 256) (k : Fin 768) : lidx_main_v91 (ix2 r q) k = ix2 r k := funext fun a => Fin.ext (by match a with | ⟨0, _⟩ => rfl | ⟨1, _⟩ => rfl)
theorem ridx91 (r : Fin 10000) (q : Fin 256) (k : Fin 768) : ridx_main_v91 (ix2 r q) k = ix2 k q := funext fun a => Fin.ext (by match a with | ⟨0, _⟩ => rfl | ⟨1, _⟩ => rfl)
theorem idx93 (r : Fin 10000) (q : Fin 256) : idx_main_v93 (ix2 r q) = ix2 (0 : Fin 1) q := funext fun a => Fin.ext (by match a with | ⟨0, _⟩ => rfl | ⟨1, _⟩ => rfl)
theorem idx92 (z : Fin 1) (q : Fin 256) : idx_main_v92 (ix2 z q) = ix1 q := funext fun a => Fin.ext (by match a with | ⟨0, _⟩ => rfl)
theorem lidx96 (r : Fin 10000) (z : Fin 1) (k : Fin 256) : lidx_main_v96 (ix2 r z) k = ix2 r k := funext fun a => Fin.ext (by match a with | ⟨0, _⟩ => rfl | ⟨1, _⟩ => rfl)
theorem ridx96 (r : Fin 10000) (z : Fin 1) (k : Fin 256) : ridx_main_v96 (ix2 r z) k = ix2 k z := funext fun a => Fin.ext (by match a with | ⟨0, _⟩ => rfl | ⟨1, _⟩ => rfl)
theorem idx98 (r : Fin 10000) (z : Fin 1) : idx_main_v98 (ix2 r z) = ix2 (0 : Fin 1) (0 : Fin 1) := funext fun a => Fin.ext (by match a with | ⟨0, _⟩ => rfl | ⟨1, _⟩ => rfl)
theorem idx97 (z z' : Fin 1) : idx_main_v97 (ix2 z z') = ix1 (0 : Fin 1) := funext fun a => Fin.ext (by match a with | ⟨0, _⟩ => rfl)
/-- The [10000, 1] column read as a vector: entry r is the column's entry (r, 0). -/
theorem idx100 (r : Fin 10000) : idx_main_v100 (ix1 r) = ix2 r (0 : Fin 1) := funext fun a => Fin.ext (by
  match a with
  | ⟨0, _⟩ => exact Nat.div_one _
  | ⟨1, _⟩ => rfl)

/-- The whole reference: the joined activations times the head's first weight (one sum over 768), its bias, the
    rectifier, the product with the one column of the last weight, the last bias, and the [10000, 1] column read as
    a vector. -/
theorem ref_is_outR (x0 : Mat 10000 256) (x1 : Mat 10000 10000) (x2 : Mat 256 256) (x3 : Row 256) (x4 : Row 256) (x5 : Row 256) (x6 : Mat 256 256) (x7 : Row 256) (x8 : Row 256) (x9 : Row 256) (x10 : Mat 256 256) (x11 : Row 256) (x12 : Row 256) (x13 : Row 256) (x14 : Mat 768 256) (x15 : Row 256) (x16 : Mat 256 1) (x17 : Row 1) :
    val_main_v100 (F := Ideal) x0 x1 x2 x3 x4 x5 x6 x7 x8 x9 x10 x11 x12 x13 x14 x15 x16 x17 = Spec.outR x0 x1 x2 x3 x4 x5 x6 x7 x8 x9 x10 x11 x12 x13 x14 x15 x16 x17 := by
  funext i
  obtain ⟨r, rfl⟩ : ∃ r : Fin 10000, i = ix1 r := ⟨i 0, eq_ix1 i⟩
  simp only [val_main_v100_apply, val_main_v99_apply, val_main_v98_apply, val_main_v97_apply, val_main_v96_apply,
    val_main_v95_apply, val_main_v94_apply, val_main_v93_apply, val_main_v92_apply, val_main_v91_apply,
    val_main_call3_v0_apply, val_main_call3_cst_apply, joined, layer3, layer2, layer1,
    idx100, idx98, idx97, lidx96, ridx96, idx93, idx92, lidx91, ridx91]
  simp only [Ideal.ofBits_def, Ideal.ofBits_zero_f32]
  rfl

end Cert.RefBridge

end
-- ==== Proof.lean ====
/-
  The proof of the certificate's claim: the three frames, the (empty) list of idealization rewrites, and the equality of
  results at the extended reals.

  Both programs compute a three-layer graph convolution with a row normalisation and a rectifier after each layer and a
  two-layer head.  The kernel runs it as four regions over row blocks (the first support product; the first layer with
  the next support product fused; the second layer likewise; the third layer with the head fused), the reference as one
  line of host operations.  At the extended reals a change of float format is the identity, a matrix product is a plain
  sum of products whatever its tiling, and a row sum is a plain sum, so each region's output array is one whole-array
  function of its inputs (Region0 … Region3) and the kernel's result is the network spelled its way (KernelChain, over the
  run of KernelRun), while the reference's operations compose to the network spelled its way (RefBridge).  The two
  spellings differ in two places: the kernel multiplies the centred row by the reciprocal square root of the variance
  plus eps where the reference divides by the square root — equal because the radicand, a sum of squares over 256 plus a
  positive constant, is above zero —, and the kernel adds three products with the row blocks of the head's first weight
  where the reference takes one product with the concatenated activations — equal because a sum over 768 terms is the
  sum of its three stretches (SpecLaws).  No finiteness of the inputs is used.
-/
import proofs.«100710_g19155554140324_cont_8to1_1621_9_alg».proof.Defs
import proofs.«100710_g19155554140324_cont_8to1_1621_9_alg».proof.Proof.Gen.Kernel
import proofs.«100710_g19155554140324_cont_8to1_1621_9_alg».proof.Proof.Gen.Kernel.Skeleton
import proofs.«100710_g19155554140324_cont_8to1_1621_9_alg».proof.Proof.Gen.Kernel.Launch
import proofs.«100710_g19155554140324_cont_8to1_1621_9_alg».proof.Proof.Gen.Kernel.Points
import proofs.«100710_g19155554140324_cont_8to1_1621_9_alg».proof.Proof.Gen.Kernel.Frame
import proofs.«100710_g19155554140324_cont_8to1_1621_9_alg».proof.Proof.Gen.KernelIdeal
import proofs.«100710_g19155554140324_cont_8to1_1621_9_alg».proof.Proof.Gen.KernelIdeal.Skeleton
import proofs.«100710_g19155554140324_cont_8to1_1621_9_alg».proof.Proof.Gen.KernelIdeal.Launch
import proofs.«100710_g19155554140324_cont_8to1_1621_9_alg».proof.Proof.Gen.KernelIdeal.Points
import proofs.«100710_g19155554140324_cont_8to1_1621_9_alg».proof.Proof.Gen.KernelIdeal.Frame
import proofs.«100710_g19155554140324_cont_8to1_1621_9_alg».proof.Proof.Gen.ReferenceIdeal
import proofs.«100710_g19155554140324_cont_8to1_1621_9_alg».proof.Proof.Gen.ReferenceIdeal.Run
import proofs.«100710_g19155554140324_cont_8to1_1621_9_alg».proof.Proof.Gen.ReferenceIdeal.Read
import proofs.«100710_g19155554140324_cont_8to1_1621_9_alg».proof.Proof.Gen.Pre_finite_inputs
import proofs.«100710_g19155554140324_cont_8to1_1621_9_alg».proof.Proof.SpecLaws
import proofs.«100710_g19155554140324_cont_8to1_1621_9_alg».proof.Proof.KernelRun
import proofs.«100710_g19155554140324_cont_8to1_1621_9_alg».proof.Proof.KernelChain
import proofs.«100710_g19155554140324_cont_8to1_1621_9_alg».proof.Proof.RefBridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- At the extended reals the kernel's result buffer ends at the network of its arguments spelled the kernel's way, the
    reference's at the same network spelled its own way, of arguments that agree: one function. -/
theorem algebraic : Cert.algebraic_KernelIdeal_ReferenceIdeal := by
  intro m ρ m' ρ' _ hagree
  refine ⟨_, (θ_run Cert.KernelIdeal.defs _ _).mono
    (fun r h c => ⟨(h c).1.trans (Cert.KChain.kernel_value m ρ c), (h c).2⟩) (Cert.KRun.run_named (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17⟩ := hagree c
  rw [Cert.ReferenceIdeal.Read.val_main_v100_eq, h0, h1, h2, h3, h4, h5, h6, h7, h8, h9, h10, h11, h12, h13, h14, h15, h16, h17,
    Cert.RefBridge.ref_is_outR, ← Cert.Spec.outK_eq_outR]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
